-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x2 : Shape := ⟨3, ![256, 256, 2]⟩
abbrev S256x1280 : Shape := ⟨2, ![256, 1280]⟩
abbrev S256x2 : Shape := ⟨2, ![256, 2]⟩
abbrev S256x256 : Shape := ⟨2, ![256, 256]⟩
abbrev S1280x1024 : Shape := ⟨2, ![1280, 1024]⟩
abbrev S1024 : Shape := ⟨1, ![1024]⟩
abbrev S1024x4 : Shape := ⟨2, ![1024, 4]⟩
abbrev S4 : Shape := ⟨1, ![4]⟩
abbrev S_ : Shape := ⟨0, ![]⟩

class Facts : Prop where
  bcast_S_S256x256x2 : S_.BroadcastsInDim S256x256x2 (![] : Fin 0 → Fin S256x256x2.rank)
  reducesTo_S256x256x2_S_d0_1_2 : S256x256x2.ReducesTo [0, 1, 2] S_
  h_S_ : 0 < S_.numel
  bcast_S_S256x1280 : S_.BroadcastsInDim S256x1280 (![] : Fin 0 → Fin S256x1280.rank)
  reducesTo_S256x1280_S_d0_1 : S256x1280.ReducesTo [0, 1] S_
  bcast_S_S256x2 : S_.BroadcastsInDim S256x2 (![] : Fin 0 → Fin S256x2.rank)
  reducesTo_S256x2_S_d0_1 : S256x2.ReducesTo [0, 1] S_
  bcast_S_S256x256 : S_.BroadcastsInDim S256x256 (![] : Fin 0 → Fin S256x256.rank)
  reducesTo_S256x256_S_d0_1 : S256x256.ReducesTo [0, 1] S_
  bcast_S_S1280x1024 : S_.BroadcastsInDim S1280x1024 (![] : Fin 0 → Fin S1280x1024.rank)
  reducesTo_S1280x1024_S_d0_1 : S1280x1024.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S256x256x2 .f32) (main_v50 : FVec F S256x256x2 .f32) : IVec S_ 1 :=
  let main_v51 : IVec S256x256x2 1 := cmpf .olt main_v49 main_v50
  let main_c_19 : IVec S_ 1 := constantI S_ 1 1#1
  let main_v52 : IVec S_ 1 := (fun x v => Host.reduce IntOp.andi x v reducesTo_S256x256x2_S_d0_1_2 h_S_) main_v51 main_c_19
  let main_v53 : IVec S_ 1 := andi main_v48 main_v52
  main_v53

def fn_part2 {F : FTy → Type} [FloatOps F] (main_arg7 : FVec F S1024 .f32) (main_arg8 : FVec F S1024x4 .f32) (main_arg9 : FVec F S4 .f32) (main_arg10 : FVec F S256x256x2 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x4 .f32 := Host.absf main_arg8
  let main_cst_14 : FVec F S_ .f32 := constant S_ .f32 0x7F800000#32
  let main_v40 : FVec F S1024x4 .f32 := broadcastInDim S1024x4 ![] bcast_S_S1024x4 main_cst_14
  let main_v41 : IVec S1024x4 1 := cmpf .olt main_v39 main_v40
  let main_c_15 : IVec S_ 1 := constantI S_ 1 1#1
  let main_v42 : IVec S_ 1 := (fun x v => Host.reduce IntOp.andi x v reducesTo_S1024x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S256x256x2 .f32 := Host.absf main_arg10
  let main_cst_18 : FVec F S_ .f32 := constant S_ .f32 0x7F800000#32
  let main_v50 : FVec F S256x256x2 .f32 := broadcastInDim S256x256x2 ![] bcast_S_S256x256x2 main_cst_18
  fn_part3 (F := F) main_v48 main_v49 main_v50

def fn_part1 {F : FTy → Type} [FloatOps F] (main_arg4 : FVec F S1280x1024 .f32) (main_arg5 : FVec F S1024 .f32) (main_arg6 : FVec F S1024 .f32) (main_arg7 : FVec F S1024 .f32) (main_arg8 : FVec F S1024x4 .f32) (main_arg9 : FVec F S4 .f32) (main_arg10 : FVec F S256x256x2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S1280x1024 .f32 := Host.absf main_arg4
  let main_cst_6 : FVec F S_ .f32 := constant S_ .f32 0x7F800000#32
  let main_v20 : FVec F S1280x1024 .f32 := broadcastInDim S1280x1024 ![] bcast_S_S1280x1024 main_cst_6
  let main_v21 : IVec S1280x1024 1 := cmpf .olt main_v19 main_v20
  let main_c_7 : IVec S_ 1 := constantI S_ 1 1#1
  let main_v22 : IVec S_ 1 := (fun x v => Host.reduce IntOp.andi x v reducesTo_S1280x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S256x256x2 .f32) (main_arg1 : FVec F S256x1280 .f32) (main_arg2 : FVec F S256x2 .f32) (main_arg3 : FVec F S256x256 .f32) (main_arg4 : FVec F S1280x1024 .f32) (main_arg5 : FVec F S1024 .f32) (main_arg6 : FVec F S1024 .f32) (main_arg7 : FVec F S1024 .f32) (main_arg8 : FVec F S1024x4 .f32) (main_arg9 : FVec F S4 .f32) (main_arg10 : FVec F S256x256x2 .f32) : IVec S_ 1 :=
  let main_v0 : FVec F S256x256x2 .f32 := Host.absf main_arg0
  let main_cst : FVec F S_ .f32 := constant S_ .f32 0x7F800000#32
  let main_v1 : FVec F S256x256x2 .f32 := broadcastInDim S256x256x2 ![] bcast_S_S256x256x2 main_cst
  let main_v2 : IVec S256x256x2 1 := cmpf .olt main_v0 main_v1
  let main_c : IVec S_ 1 := constantI S_ 1 1#1
  let main_v3 : IVec S_ 1 := (fun x v => Host.reduce IntOp.andi x v reducesTo_S256x256x2_S_d0_1_2 h_S_) main_v2 main_c
  let main_v4 : FVec F S256x1280 .f32 := Host.absf main_arg1
  let main_cst_0 : FVec F S_ .f32 := constant S_ .f32 0x7F800000#32
  let main_v5 : FVec F S256x1280 .f32 := broadcastInDim S256x1280 ![] bcast_S_S256x1280 main_cst_0
  let main_v6 : IVec S256x1280 1 := cmpf .olt main_v4 main_v5
  let main_c_1 : IVec S_ 1 := constantI S_ 1 1#1
  let main_v7 : IVec S_ 1 := (fun x v => Host.reduce IntOp.andi x v reducesTo_S256x1280_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S256x256x2 : Shape := ⟨3, ![256, 256, 2]⟩
abbrev S256x1280 : Shape := ⟨2, ![256, 1280]⟩
abbrev S256x2 : Shape := ⟨2, ![256, 2]⟩
abbrev S256x256 : Shape := ⟨2, ![256, 256]⟩
abbrev S1280x1024 : Shape := ⟨2, ![1280, 1024]⟩
abbrev S1024 : Shape := ⟨1, ![1024]⟩
abbrev S1024x4 : Shape := ⟨2, ![1024, 4]⟩
abbrev S4 : Shape := ⟨1, ![4]⟩
abbrev S256x4 : Shape := ⟨2, ![256, 4]⟩
abbrev S128x1280 : Shape := ⟨2, ![128, 1280]⟩
abbrev S128x4 : Shape := ⟨2, ![128, 4]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1x4 : Shape := ⟨2, ![1, 4]⟩
abbrev S256x2x2 : Shape := ⟨3, ![256, 2, 2]⟩
abbrev S256x2x1 : Shape := ⟨3, ![256, 2, 1]⟩
abbrev S_ : Shape := ⟨0, ![]⟩
abbrev S256x256x1 : Shape := ⟨3, ![256, 256, 1]⟩
abbrev S64x4 : Shape := ⟨2, ![64, 4]⟩
abbrev S128x128 : Shape := ⟨2, ![128, 128]⟩
abbrev S64x128 : Shape := ⟨2, ![64, 128]⟩
abbrev S8x4 : Shape := ⟨2, ![8, 4]⟩
abbrev S8x1 : Shape := ⟨2, ![8, 1]⟩
abbrev S8x1x1 : Shape := ⟨3, ![8, 1, 1]⟩
abbrev S1x128x128 : Shape := ⟨3, ![1, 128, 128]⟩
abbrev S8x128x128 : Shape := ⟨3, ![8, 128, 128]⟩
abbrev S8x128 : Shape := ⟨2, ![8, 128]⟩
abbrev S8x1x128 : Shape := ⟨3, ![8, 1, 128]⟩

abbrev nBuf : Space → Nat
  | .hbm => 56
  | .vmem => 24
  | .smem => 0
  | _ => 0

abbrev bufTy : (tb : Table) → Fin (tcTables nBuf tb) → BufTy
  | .hbm, ⟨0, _⟩ => ⟨S256x256x2, .f32⟩
  | .hbm, ⟨1, _⟩ => ⟨S256x1280, .f32⟩
  | .hbm, ⟨2, _⟩ => ⟨S256x2, .f32⟩
  | .hbm, ⟨3, _⟩ => ⟨S256x256, .f32⟩
  | .hbm, ⟨4, _⟩ => ⟨S1280x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S256x256x2, .f32⟩
  | .hbm, ⟨11, _⟩ => ⟨S256x4, .f32⟩
  | .hbm, ⟨12, _⟩ => ⟨S256x2x2, .f32⟩
  | .hbm, ⟨13, _⟩ => ⟨S256x2x1, .f32⟩
  | .hbm, ⟨14, _⟩ => ⟨S256x2, .f32⟩
  | .hbm, ⟨15, _⟩ => ⟨S256x2, .f32⟩
  | .hbm, ⟨16, _⟩ => ⟨S_, .f32⟩
  | .hbm, ⟨17, _⟩ => ⟨S256x2, .f32⟩
  | .hbm, ⟨18, _⟩ => ⟨S256x2, .f32⟩
  | .hbm, ⟨19, _⟩ => ⟨S256x2, .f32⟩
  | .hbm, ⟨20, _⟩ => ⟨S256x2x1, .f32⟩
  | .hbm, ⟨21, _⟩ => ⟨S256x2, .f32⟩
  | .hbm, ⟨22, _⟩ => ⟨S256x2, .f32⟩
  | .hbm, ⟨23, _⟩ => ⟨S256x2, .f32⟩
  | .hbm, ⟨24, _⟩ => ⟨S_, .f32⟩
  | .hbm, ⟨25, _⟩ => ⟨S256x2, .f32⟩
  | .hbm, ⟨26, _⟩ => ⟨S256x2, .f32⟩
  | .hbm, ⟨27, _⟩ => ⟨S_, .f32⟩
  | .hbm, ⟨28, _⟩ => ⟨S256x2, .f32⟩
  | .hbm, ⟨29, _⟩ => ⟨S256x2, .f32⟩
  | .hbm, ⟨30, _⟩ => ⟨S256x4, .f32⟩
  | .hbm, ⟨31, _⟩ => ⟨S256x256x1, .f32⟩
  | .hbm, ⟨32, _⟩ => ⟨S256x256, .f32⟩
  | .hbm, ⟨33, _⟩ => ⟨S256x256x1, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256x1, .f32⟩
  | .hbm, ⟨48, _⟩ => ⟨S256x256, .f32⟩
  | .hbm, ⟨49, _⟩ => ⟨S256x256x1, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S256x256x1, .f32⟩
  | .hbm, ⟨54, _⟩ => ⟨S256x256x1, .f32⟩
  | .hbm, ⟨55, _⟩ => ⟨S256x256x2, .f32⟩
  | .local _ .vmem, ⟨0, _⟩ => ⟨S128x1280, .f32⟩
  | .local _ .vmem, ⟨1, _⟩ => ⟨S128x1280, .f32⟩
  | .local _ .vmem, ⟨2, _⟩ => ⟨S1280x1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024x4, .f32⟩
  | .local _ .vmem, ⟨7, _⟩ => ⟨S4, .f32⟩
  | .local _ .vmem, ⟨8, _⟩ => ⟨S128x4, .f32⟩
  | .local _ .vmem, ⟨9, _⟩ => ⟨S128x4, .f32⟩
  | .local _ .vmem, ⟨10, _⟩ => ⟨S64x4, .f32⟩
  | .local _ .vmem, ⟨11, _⟩ => ⟨S64x4, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | _, _ => ⟨S256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![4, 2, 2], ![false, false, false]⟩

def k1_mult1 : BitVec 32 :=
  let c0_i32_4 : BitVec 32 := 0#32
  let c8_i32 : BitVec 32 := 8#32
  let v9 : BitVec 32 := Scalar.muli c0_i32_4 c8_i32
  v9
def k1_off1 (c0_i32_4 : BitVec 32) : Fin 2 → Nat :=
  let c8_i32 : BitVec 32 := 8#32
  let v9 : BitVec 32 := Scalar.muli c0_i32_4 c8_i32
  let v10 : BitVec 32 := v9
  let v11 : Index := Scalar.indexCast v10
  let c0_5 : Index := 0#32
  ![v11.toNat, 0]
def k1_off2 (c0_i32_4 : BitVec 32) : Fin 2 → Nat :=
  let c8_i32 : BitVec 32 := 8#32
  let v9 : BitVec 32 := Scalar.muli c0_i32_4 c8_i32
  let v10 : BitVec 32 := v9
  let v48 : Index := Scalar.indexCast v10
  let c0_7 : Index := 0#32
  ![v48.toNat, 0]
def k1_mult2 : BitVec 32 :=
  let c1_i32 : BitVec 32 := 1#32
  let c8_i32_15 : BitVec 32 := 8#32
  let v82 : BitVec 32 := Scalar.muli c1_i32 c8_i32_15
  v82
def k1_mult3 : BitVec 32 :=
  let c2_i32 : BitVec 32 := 2#32
  let c8_i32_26 : BitVec 32 := 8#32
  let v155 : BitVec 32 := Scalar.muli c2_i32 c8_i32_26
  v155
def k1_mult4 : BitVec 32 :=
  let c3_i32 : BitVec 32 := 3#32
  let c8_i32_37 : BitVec 32 := 8#32
  let v228 : BitVec 32 := Scalar.muli c3_i32 c8_i32_37
  v228
def k1_mult5 : BitVec 32 :=
  let c4_i32 : BitVec 32 := 4#32
  let c8_i32_48 : BitVec 32 := 8#32
  let v301 : BitVec 32 := Scalar.muli c4_i32 c8_i32_48
  v301
def k1_mult6 : BitVec 32 :=
  let c5_i32 : BitVec 32 := 5#32
  let c8_i32_59 : BitVec 32 := 8#32
  let v374 : BitVec 32 := Scalar.muli c5_i32 c8_i32_59
  v374
def k1_mult7 : BitVec 32 :=
  let c6_i32 : BitVec 32 := 6#32
  let c8_i32_70 : BitVec 32 := 8#32
  let v447 : BitVec 32 := Scalar.muli c6_i32 c8_i32_70
  v447
def k1_mult8 : BitVec 32 :=
  let c7_i32 : BitVec 32 := 7#32
  let c8_i32_81 : BitVec 32 := 8#32
  let v520 : BitVec 32 := Scalar.muli c7_i32 c8_i32_81
  v520
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S64x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  inb_S128x1280_S128x1280_0_0 : ∀ a, (![0, 0] : Fin 2 → Nat) a + S128x1280.size a ≤ S128x1280.size a
  h_S128x1280 : 0 < S128x1280.numel
  bitsLt_bf16_f32 : FTy.bits .bf16 < FTy.bits .f32
  inb_S1280x1024_S1280x1024_0_0 : ∀ a, (![0, 0] : Fin 2 → Nat) a + S1280x1024.size a ≤ S1280x1024.size a
  h_S1280x1024 : 0 < S1280x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  inb_S1024x4_S1024x4_0_0 : ∀ a, (![0, 0] : Fin 2 → Nat) a + S1024x4.size a ≤ S1024x4.size a
  h_S1024x4 : 0 < S1024x4.numel
  inb_S4_S4_0 : ∀ a, (![0] : Fin 1 → Nat) a + S4.size a ≤ S4.size a
  h_S4 : 0 < S4.numel
  shapeCasts_S4_S1x4 : S4.ShapeCasts S1x4
  broadcasts_S1x4_S128x4 : S1x4.Broadcasts S128x4
  inb_S128x4_S128x4_0_0 : ∀ a, (![0, 0] : Fin 2 → Nat) a + S128x4.size a ≤ S128x4.size a
  h_S128x4 : 0 < S128x4.numel
  shapeCasts_S256x4_S256x2x2 : S256x4.ShapeCasts S256x2x2
  slices_S256x2x2_S256x2x1_0_0_0 : S256x2x2.Slices ![0, 0, 0] S256x2x1
  shapeCasts_S256x2x1_S256x2 : S256x2x1.ShapeCasts S256x2
  bcast_S_S256x2 : S_.BroadcastsInDim S256x2 (![] : Fin 0 → Fin S256x2.rank)
  slices_S256x2x2_S256x2x1_0_0_1 : S256x2x2.Slices ![0, 0, 1] S256x2x1
  concatenates_S256x2_S256x2_S256x4_d1 : Shape.Concatenates [S256x2, S256x2] S256x4 1
  slices_S256x256x2_S256x256x1_0_0_0 : S256x256x2.Slices ![0, 0, 0] S256x256x1
  shapeCasts_S256x256x1_S256x256 : S256x256x1.ShapeCasts S256x256
  slices_S256x256x2_S256x256x1_0_0_1 : S256x256x2.Slices ![0, 0, 1] S256x256x1
  bcast_S_S256x256 : S_.BroadcastsInDim S256x256 (![] : Fin 0 → Fin S256x256.rank)
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S8x4 : 0 < S8x4.numel
  shapeCasts_S8x4_S8x4 : S8x4.ShapeCasts S8x4
  slices_S8x4_o0_0_S8x1 : S8x4.Slices ![0, 0] S8x1
  shapeCasts_S8x1_S8x1x1 : S8x1.ShapeCasts S8x1x1
  slices_S8x4_o0_1_S8x1 : S8x4.Slices ![0, 1] S8x1
  slices_S8x4_o0_2_S8x1 : S8x4.Slices ![0, 2] S8x1
  slices_S8x4_o0_3_S8x1 : S8x4.Slices ![0, 3] S8x1
  shapeCasts_S128x128_S1x128x128 : S128x128.ShapeCasts S1x128x128
  broadcasts_S1x128x128_S8x128x128 : S1x128x128.Broadcasts S8x128x128
  broadcasts_S8x1x1_S8x128x128 : S8x1x1.Broadcasts S8x128x128
  h_S8x128 : 0 < S8x128.numel
  shapeCasts_S8x128_S8x128 : S8x128.ShapeCasts S8x128
  shapeCasts_S8x128_S8x1x128 : S8x128.ShapeCasts S8x1x128
  broadcasts_S8x1x128_S8x128x128 : S8x1x128.Broadcasts S8x128x128
  reduces_S8x128x128_S8x128 : S8x128x128.Reduces [2] S8x128
  bcast_S256x256_S256x256x1_0_1 : S256x256.BroadcastsInDim S256x256x1 (![0, 1] : Fin 2 → Fin S256x256x1.rank)
  concatenates_S256x256x1_S256x256x1_S256x256x2_d2 : Shape.Concatenates [S256x256x1, S256x256x1] S256x256x2 2
  dot_S128x1280_S1280x1024_S128x1024_1_0_0_1_n_n_wf : DotDims.WF S128x1280 S1280x1024 S128x1024 [1] [0] [0] [1] [] []
  dot_S128x1024_S1024x4_S128x4_1_0_0_1_n_n_wf : DotDims.WF S128x1024 S1024x4 S128x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1280.size a ≤ S256x1280.size a
  hwx0_0 : ∀ i : grid0.Coords, EltTy.bits .f32 = 32 ∨ (Rect.block (s := S256x1280) S128x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S1280x1024.size a
  hwx0_1 : ∀ i : grid0.Coords, EltTy.bits .f32 = 32 ∨ (Rect.block (s := S1280x1024) S1280x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S1024x4.size a
  hwx0_5 : ∀ i : grid0.Coords, EltTy.bits .f32 = 32 ∨ (Rect.block (s := S1024x4) S1024x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4.size a ≤ S256x4.size a
  hwx0_7 : ∀ i : grid0.Coords, EltTy.bits .f32 = 32 ∨ (Rect.block (s := S256x4) S128x4.size (cc0_transform_7 i) (hinb0_7 i)).WholeWords (EltTy.packing .f32)
  hrank1 : 0 < grid1.rank
  k1_mult1_dvd : 8 ∣ k1_mult1.toNat
  k1_off1_inb : ∀ (r : Fin 8), ∀ a, (k1_off1 (BitVec.ofNat 32 r.val)) a + S8x4.size a ≤ S64x4.size a
  k1_off2_inb : ∀ (r : Fin 8), ∀ a, (k1_off2 (BitVec.ofNat 32 r.val)) a + S8x128.size a ≤ S64x128.size a
  k1_mult2_dvd : 8 ∣ k1_mult2.toNat
  k1_mult3_dvd : 8 ∣ k1_mult3.toNat
  k1_mult4_dvd : 8 ∣ k1_mult4.toNat
  k1_mult5_dvd : 8 ∣ k1_mult5.toNat
  k1_mult6_dvd : 8 ∣ k1_mult6.toNat
  k1_mult7_dvd : 8 ∣ k1_mult7.toNat
  k1_mult8_dvd : 8 ∣ k1_mult8.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4.size a ≤ S256x4.size a
  hwx1_0 : ∀ i : grid1.Coords, EltTy.bits .f32 = 32 ∨ (Rect.block (s := S256x4) S64x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S256x256.size a
  hwx1_1 : ∀ i : grid1.Coords, EltTy.bits .f32 = 32 ∨ (Rect.block (s := S256x256) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S256x256.size a
  hwx1_2 : ∀ i : grid1.Coords, EltTy.bits .f32 = 32 ∨ (Rect.block (s := S256x256) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S256x256.size a
  hwx1_3 : ∀ i : grid1.Coords, EltTy.bits .f32 = 32 ∨ (Rect.block (s := S256x256) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S256x256.size a
  hwx1_4 : ∀ i : grid1.Coords, EltTy.bits .f32 = 32 ∨ (Rect.block (s := S256x256) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S256x256.size a
  hwx1_5 : ∀ i : grid1.Coords, EltTy.bits .f32 = 32 ∨ (Rect.block (s := S256x256) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S256x256.size a
  hwx1_6 : ∀ i : grid1.Coords, EltTy.bits .f32 = 32 ∨ (Rect.block (s := S256x256) S64x128.size (cc1_transform_6 i) (hinb1_6 i)).WholeWords (EltTy.packing .f32)

variable [Facts₀]

def dot_S128x1280_S1280x1024_S128x1024_1_0_0_1_n_n : DotDims S128x1280 S1280x1024 S128x1024 where
  lhsContracting := [1]
  rhsContracting := [0]
  lhsNonContracting := [0]
  rhsNonContracting := [1]
  lhsBatch := []
  rhsBatch := []
  wf := dot_S128x1280_S1280x1024_S128x1024_1_0_0_1_n_n_wf
def dot_S128x1024_S1024x4_S128x4_1_0_0_1_n_n : DotDims S128x1024 S1024x4 S128x4 where
  lhsContracting := [1]
  rhsContracting := [0]
  lhsNonContracting := [0]
  rhsNonContracting := [1]
  lhsBatch := []
  rhsBatch := []
  wf := dot_S128x1024_S1024x4_S128x4_1_0_0_1_n_n_wf

abbrev win0_0 : Pipeline.Window sig grid0 :=
  Pipeline.Window.ofSpec (Memref.whole main_arg1) S128x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1280x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v16) S64x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S64x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S64x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S256x256x2 : Shape := ⟨3, ![256, 256, 2]⟩
abbrev S256x1280 : Shape := ⟨2, ![256, 1280]⟩
abbrev S256x2 : Shape := ⟨2, ![256, 2]⟩
abbrev S256x256 : Shape := ⟨2, ![256, 256]⟩
abbrev S1280x1024 : Shape := ⟨2, ![1280, 1024]⟩
abbrev S1024 : Shape := ⟨1, ![1024]⟩
abbrev S1024x4 : Shape := ⟨2, ![1024, 4]⟩
abbrev S4 : Shape := ⟨1, ![4]⟩
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S256x4 : Shape := ⟨2, ![256, 4]⟩
abbrev S1x4 : Shape := ⟨2, ![1, 4]⟩
abbrev S256x2x2 : Shape := ⟨3, ![256, 2, 2]⟩
abbrev S256x2x1 : Shape := ⟨3, ![256, 2, 1]⟩
abbrev S256x256x1 : Shape := ⟨3, ![256, 256, 1]⟩
abbrev S256x256x256 : Shape := ⟨3, ![256, 256, 256]⟩
abbrev S1x256x256 : Shape := ⟨3, ![1, 256, 256]⟩
abbrev S256x1x256 : Shape := ⟨3, ![256, 1, 256]⟩

abbrev nBuf : Space → Nat
  | .hbm => 122
  | .vmem => 0
  | .smem => 0
  | _ => 0

abbrev bufTy : (tb : Table) → Fin (tcTables nBuf tb) → BufTy
  | .hbm, ⟨0, _⟩ => ⟨S256x256x2, .f32⟩
  | .hbm, ⟨1, _⟩ => ⟨S256x1280, .f32⟩
  | .hbm, ⟨2, _⟩ => ⟨S256x2, .f32⟩
  | .hbm, ⟨3, _⟩ => ⟨S256x256, .f32⟩
  | .hbm, ⟨4, _⟩ => ⟨S1280x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S256x256x2, .f32⟩
  | .hbm, ⟨11, _⟩ => ⟨S256x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x4, .f32⟩
  | .hbm, ⟨48, _⟩ => ⟨S1x4, .f32⟩
  | .hbm, ⟨49, _⟩ => ⟨S256x4, .f32⟩
  | .hbm, ⟨50, _⟩ => ⟨S256x4, .f32⟩
  | .hbm, ⟨51, _⟩ => ⟨S256x2x2, .f32⟩
  | .hbm, ⟨52, _⟩ => ⟨S256x2x1, .f32⟩
  | .hbm, ⟨53, _⟩ => ⟨S256x2, .f32⟩
  | .hbm, ⟨54, _⟩ => ⟨S256x2, .f32⟩
  | .hbm, ⟨55, _⟩ => ⟨S_, .f32⟩
  | .hbm, ⟨56, _⟩ => ⟨S256x2, .f32⟩
  | .hbm, ⟨57, _⟩ => ⟨S256x2, .f32⟩
  | .hbm, ⟨58, _⟩ => ⟨S256x2, .f32⟩
  | .hbm, ⟨59, _⟩ => ⟨S256x2x1, .f32⟩
  | .hbm, ⟨60, _⟩ => ⟨S256x2, .f32⟩
  | .hbm, ⟨61, _⟩ => ⟨S256x2, .f32⟩
  | .hbm, ⟨62, _⟩ => ⟨S256x2, .f32⟩
  | .hbm, ⟨63, _⟩ => ⟨S_, .f32⟩
  | .hbm, ⟨64, _⟩ => ⟨S256x2, .f32⟩
  | .hbm, ⟨65, _⟩ => ⟨S256x2, .f32⟩
  | .hbm, ⟨66, _⟩ => ⟨S_, .f32⟩
  | .hbm, ⟨67, _⟩ => ⟨S256x2, .f32⟩
  | .hbm, ⟨68, _⟩ => ⟨S256x2, .f32⟩
  | .hbm, ⟨69, _⟩ => ⟨S_, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S256x256x1, .f32⟩
  | .hbm, ⟨75, _⟩ => ⟨S256x256x2, .f32⟩
  | .hbm, ⟨76, _⟩ => ⟨S256x256x2, .f32⟩
  | .hbm, ⟨77, _⟩ => ⟨S256x256x2, .f32⟩
  | .hbm, ⟨78, _⟩ => ⟨S_, .f32⟩
  | .hbm, ⟨79, _⟩ => ⟨S256x256, .f32⟩
  | .hbm, ⟨80, _⟩ => ⟨S256x256x1, .f32⟩
  | .hbm, ⟨81, _⟩ => ⟨S256x256x2, .f32⟩
  | .hbm, ⟨82, _⟩ => ⟨S256x256x2, .f32⟩
  | .hbm, ⟨83, _⟩ => ⟨S256x256x256, .f32⟩
  | .hbm, ⟨84, _⟩ => ⟨S256x256x256, .f32⟩
  | .hbm, ⟨85, _⟩ => ⟨S_, .f32⟩
  | .hbm, ⟨86, _⟩ => ⟨S256x256, .f32⟩
  | .hbm, ⟨87, _⟩ => ⟨S256x256, .f32⟩
  | .hbm, ⟨88, _⟩ => ⟨S1x256x256, .f32⟩
  | .hbm, ⟨89, _⟩ => ⟨S256x256x256, .f32⟩
  | .hbm, ⟨90, _⟩ => ⟨S256x256x256, .f32⟩
  | .hbm, ⟨91, _⟩ => ⟨S256x256x256, .f32⟩
  | .hbm, ⟨92, _⟩ => ⟨S_, .f32⟩
  | .hbm, ⟨93, _⟩ => ⟨S256x256x256, .f32⟩
  | .hbm, ⟨94, _⟩ => ⟨S256x256x256, .f32⟩
  | .hbm, ⟨95, _⟩ => ⟨S256x256x256, .f32⟩
  | .hbm, ⟨96, _⟩ => ⟨S256x256x256, .f32⟩
  | .hbm, ⟨97, _⟩ => ⟨S256x256x1, .f32⟩
  | .hbm, ⟨98, _⟩ => ⟨S256x256, .f32⟩
  | .hbm, ⟨99, _⟩ => ⟨S256x1x256, .f32⟩
  | .hbm, ⟨100, _⟩ => ⟨S256x256x1, .f32⟩
  | .hbm, ⟨101, _⟩ => ⟨S256x256, .f32⟩
  | .hbm, ⟨102, _⟩ => ⟨S256x1x256, .f32⟩
  | .hbm, ⟨103, _⟩ => ⟨S256x256x256, .f32⟩
  | .hbm, ⟨104, _⟩ => ⟨S256x256x256, .f32⟩
  | .hbm, ⟨105, _⟩ => ⟨S256x256x256, .f32⟩
  | .hbm, ⟨106, _⟩ => ⟨S256x256x256, .f32⟩
  | .hbm, ⟨107, _⟩ => ⟨S256x256x256, .f32⟩
  | .hbm, ⟨108, _⟩ => ⟨S256x256x256, .f32⟩
  | .hbm, ⟨109, _⟩ => ⟨S_, .f32⟩
  | .hbm, ⟨110, _⟩ => ⟨S256x256, .f32⟩
  | .hbm, ⟨111, _⟩ => ⟨S256x256x256, .f32⟩
  | .hbm, ⟨112, _⟩ => ⟨S256x256x256, .f32⟩
  | .hbm, ⟨113, _⟩ => ⟨S256x256x256, .f32⟩
  | .hbm, ⟨114, _⟩ => ⟨S256x256x256, .f32⟩
  | .hbm, ⟨115, _⟩ => ⟨S256x256x256, .f32⟩
  | .hbm, ⟨116, _⟩ => ⟨S256x256x256, .f32⟩
  | .hbm, ⟨117, _⟩ => ⟨S_, .f32⟩
  | .hbm, ⟨118, _⟩ => ⟨S256x256, .f32⟩
  | .hbm, ⟨119, _⟩ => ⟨S256x256x1, .f32⟩
  | .hbm, ⟨120, _⟩ => ⟨S256x256x1, .f32⟩
  | .hbm, ⟨121, _⟩ => ⟨S256x256x2, .f32⟩
  | _, _ => ⟨S256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  reducesTo_S256x1024_S256_d1 : S256x1024.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  bcast_S_S256x1024 : S_.BroadcastsInDim S256x1024 (![] : Fin 0 → Fin S256x1024.rank)
  bcast_S4_S1x4_1 : S4.BroadcastsInDim S1x4 (![1] : Fin 1 → Fin S1x4.rank)
  bcast_S1x4_S256x4_0_1 : S1x4.BroadcastsInDim S256x4 (![0, 1] : Fin 2 → Fin S256x4.rank)
  shapeCasts_S256x4_S256x2x2 : S256x4.ShapeCasts S256x2x2
  slices_S256x2x2_S256x2x1_0_0_0 : S256x2x2.Slices ![0, 0, 0] S256x2x1
  shapeCasts_S256x2x1_S256x2 : S256x2x1.ShapeCasts S256x2
  bcast_S_S256x2 : S_.BroadcastsInDim S256x2 (![] : Fin 0 → Fin S256x2.rank)
  slices_S256x2x2_S256x2x1_0_0_1 : S256x2x2.Slices ![0, 0, 1] S256x2x1
  reducesTo_S256x256x2_S256x256_d2 : S256x256x2.ReducesTo [2] S256x256
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S256x256x1_S256x256x2_0_1_2 : S256x256x1.BroadcastsInDim S256x256x2 (![0, 1, 2] : Fin 3 → Fin S256x256x2.rank)
  bcast_S256x256_S1x256x256_1_2 : S256x256.BroadcastsInDim S1x256x256 (![1, 2] : Fin 2 → Fin S1x256x256.rank)
  bcast_S1x256x256_S256x256x256_0_1_2 : S1x256x256.BroadcastsInDim S256x256x256 (![0, 1, 2] : Fin 3 → Fin S256x256x256.rank)
  bcast_S_S256x256x256 : S_.BroadcastsInDim S256x256x256 (![] : Fin 0 → Fin S256x256x256.rank)
  slices_S256x256x2_S256x256x1_0_0_0 : S256x256x2.Slices ![0, 0, 0] S256x256x1
  shapeCasts_S256x256x1_S256x256 : S256x256x1.ShapeCasts S256x256
  bcast_S256x256_S256x1x256_0_2 : S256x256.BroadcastsInDim S256x1x256 (![0, 2] : Fin 2 → Fin S256x1x256.rank)
  slices_S256x256x2_S256x256x1_0_0_1 : S256x256x2.Slices ![0, 0, 1] S256x256x1
  bcast_S256x1x256_S256x256x256_0_1_2 : S256x1x256.BroadcastsInDim S256x256x256 (![0, 1, 2] : Fin 3 → Fin S256x256x256.rank)
  reducesTo_S256x256x256_S256x256_d2 : S256x256x256.ReducesTo [2] S256x256
  concatenates_S256x256x1_S256x256x1_S256x256x2_d2 : Shape.Concatenates [S256x256x1, S256x256x1] S256x256x2 2
  dot_S256x1280_S1280x1024_S256x1024_1_0_0_1_n_n_wf : DotDims.WF S256x1280 S1280x1024 S256x1024 [1] [0] [0] [1] [] []
  dot_S256x1024_S1024x4_S256x4_1_0_0_1_n_n_wf : DotDims.WF S256x1024 S1024x4 S256x4 [1] [0] [0] [1] [] []
  dot_S256x2_S256x256x2_S256x256x256_1_2_0_01_n_n_wf : DotDims.WF S256x2 S256x256x2 S256x256x256 [1] [2] [0] [0, 1] [] []

variable [Facts₀]

def dot_S256x1280_S1280x1024_S256x1024_1_0_0_1_n_n : DotDims S256x1280 S1280x1024 S256x1024 where
  lhsContracting := [1]
  rhsContracting := [0]
  lhsNonContracting := [0]
  rhsNonContracting := [1]
  lhsBatch := []
  rhsBatch := []
  wf := dot_S256x1280_S1280x1024_S256x1024_1_0_0_1_n_n_wf
def dot_S256x1024_S1024x4_S256x4_1_0_0_1_n_n : DotDims S256x1024 S1024x4 S256x4 where
  lhsContracting := [1]
  rhsContracting := [0]
  lhsNonContracting := [0]
  rhsNonContracting := [1]
  lhsBatch := []
  rhsBatch := []
  wf := dot_S256x1024_S1024x4_S256x4_1_0_0_1_n_n_wf
def dot_S256x2_S256x256x2_S256x256x256_1_2_0_01_n_n : DotDims S256x2 S256x256x2 S256x256x256 where
  lhsContracting := [1]
  rhsContracting := [2]
  lhsNonContracting := [0]
  rhsNonContracting := [0, 1]
  lhsBatch := []
  rhsBatch := []
  wf := dot_S256x2_S256x256x2_S256x256x256_1_2_0_01_n_n_wf

class Facts : Prop extends Facts₀ where

variable [Facts]
-- ==== Proof.KernelRun.lean ====
/-
  The kernel program's run with its three results named. The program is two kernel regions among stretches of plain
  array operations; its run is the chain of those segments, and after the last segment every unscoped buffer holds
  what the fold of the segments leaves in it (`Gen.W6`). Read at the three result buffers this names the results;
  read at the argument buffers it gives them back unchanged.
-/
import proofs.«151001_j80075370267059_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; its three result buffers end at
    what the fold of the segments leaves in them, and its eleven argument buffers end as launched. -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_v7) = W6 m ρ c (Proc.devRef .tc main_v7)
      ∧ r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       h c _ (mem_uc main_v7 (by decide)),
       h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.HostTerms.lean ====
/-
  The plain array operations that sit around the two kernels in the kernel's program, each as a function of its
  operands: the per-row parameters cut out of the four-column table the first kernel leaves (angle steps, angles,
  radii, and the four-column table the second kernel reads), the per-edge weight from the two path weights, the edge
  strength, the two signal channels, and the final pairing of the two result channels.
-/
import proofs.«151001_j80075370267059_2_alg».proof.Proof.Gen.KernelIdeal

noncomputable section

namespace Cert.KernelIdeal.HostTerms

open Idealize.ShloMosaic Cert.KernelIdeal Cert.KernelIdeal.Facts₀ Cert.KernelIdeal.Facts

variable {F : FTy → Type} [FloatOps F]

/-- The first entry of each of a row's two pairs: columns 0 and 2 of the table. -/
def pairFst (p : (⟨S256x4, .f32⟩ : BufTy).Contents (Elt F)) : (⟨S256x2, .f32⟩ : BufTy).Contents (Elt F) :=
  shapeCast S256x2 (extractStridedSlice S256x2x1 ![0, 0, 0] (shapeCast S256x2x2 p shapeCasts_S256x4_S256x2x2)
    slices_S256x2x2_S256x2x1_0_0_0) shapeCasts_S256x2x1_S256x2

/-- The second entry of each pair: columns 1 and 3. -/
def pairSnd (p : (⟨S256x4, .f32⟩ : BufTy).Contents (Elt F)) : (⟨S256x2, .f32⟩ : BufTy).Contents (Elt F) :=
  shapeCast S256x2 (extractStridedSlice S256x2x1 ![0, 0, 1] (shapeCast S256x2x2 p shapeCasts_S256x4_S256x2x2)
    slices_S256x2x2_S256x2x1_0_0_1) shapeCasts_S256x2x1_S256x2

/-- The angle steps: `tanh` of the first entries times the literal π/24. -/
def dphi (p : (⟨S256x4, .f32⟩ : BufTy).Contents (Elt F)) : (⟨S256x2, .f32⟩ : BufTy).Contents (Elt F) :=
  mulf (Host.tanh (pairFst p)) (broadcastInDim S256x2 ![] bcast_S_S256x2 (constant S_ .f32 0x3E060A92#32))

/-- The angles: the previous angles plus the steps. -/
def phi (prev : (⟨S256x2, .f32⟩ : BufTy).Contents (Elt F)) (p : (⟨S256x4, .f32⟩ : BufTy).Contents (Elt F)) :
    (⟨S256x2, .f32⟩ : BufTy).Contents (Elt F) :=
  addf prev (dphi p)

/-- The radii: `1 / (1 + exp (-x))` of the second entries. -/
def radii (p : (⟨S256x4, .f32⟩ : BufTy).Contents (Elt F)) : (⟨S256x2, .f32⟩ : BufTy).Contents (Elt F) :=
  Host.divf (broadcastInDim S256x2 ![] bcast_S_S256x2 (constant S_ .f32 0x3F800000#32))
    (addf (broadcastInDim S256x2 ![] bcast_S_S256x2 (constant S_ .f32 0x3F800000#32)) (Host.exp (Host.negf (pairSnd p))))

/-- The second kernel's per-row table: angles in columns 0 and 1, radii in columns 2 and 3. -/
def rowTable (prev : (⟨S256x2, .f32⟩ : BufTy).Contents (Elt F)) (p : (⟨S256x4, .f32⟩ : BufTy).Contents (Elt F)) :
    (⟨S256x4, .f32⟩ : BufTy).Contents (Elt F) :=
  concatenate S256x4 1 [⟨S256x2, phi prev p⟩, ⟨S256x2, radii p⟩] concatenates_S256x2_S256x2_S256x4_d1

/-- Channel 0 of a two-channel array. -/
def chan0 (x : (⟨S256x256x2, .f32⟩ : BufTy).Contents (Elt F)) : (⟨S256x256, .f32⟩ : BufTy).Contents (Elt F) :=
  shapeCast S256x256 (extractStridedSlice S256x256x1 ![0, 0, 0] x slices_S256x256x2_S256x256x1_0_0_0) shapeCasts_S256x256x1_S256x256

/-- Channel 1 of a two-channel array. -/
def chan1 (x : (⟨S256x256x2, .f32⟩ : BufTy).Contents (Elt F)) : (⟨S256x256, .f32⟩ : BufTy).Contents (Elt F) :=
  shapeCast S256x256 (extractStridedSlice S256x256x1 ![0, 0, 1] x slices_S256x256x2_S256x256x1_0_0_1) shapeCasts_S256x256x1_S256x256

/-- The per-edge weight: `1 / (1 + exp (-(a - b)))` of the two path weights `a`, `b` of the edge. -/
def edgeWeight (pw : (⟨S256x256x2, .f32⟩ : BufTy).Contents (Elt F)) : (⟨S256x256, .f32⟩ : BufTy).Contents (Elt F) :=
  Host.divf (broadcastInDim S256x256 ![] bcast_S_S256x256 (constant S_ .f32 0x3F800000#32))
    (addf (broadcastInDim S256x256 ![] bcast_S_S256x256 (constant S_ .f32 0x3F800000#32))
      (Host.exp (Host.negf (subf (chan0 pw) (chan1 pw)))))

/-- The edge strength: the larger of the entry and zero. -/
def strength (s : (⟨S256x256, .f32⟩ : BufTy).Contents (Elt F)) : (⟨S256x256, .f32⟩ : BufTy).Contents (Elt F) :=
  maximumf s (broadcastInDim S256x256 ![] bcast_S_S256x256 (constant S_ .f32 0x00000000#32))

/-- Two arrays paired along a new last axis. -/
def pairUp (a b : (⟨S256x256, .f32⟩ : BufTy).Contents (Elt F)) : (⟨S256x256x2, .f32⟩ : BufTy).Contents (Elt F) :=
  concatenate S256x256x2 2 [⟨S256x256x1, broadcastInDim S256x256x1 ![0, 1] bcast_S256x256_S256x256x1_0_1 a⟩,
    ⟨S256x256x1, broadcastInDim S256x256x1 ![0, 1] bcast_S256x256_S256x256x1_0_1 b⟩] concatenates_S256x256x1_S256x256x1_S256x256x2_d2

end Cert.KernelIdeal.HostTerms

end
-- ==== Proof.HostGlue.lean ====
/-
  The plain array operations of the kernel program, read back. Between and after its two kernels the program runs
  stretches of array operations; what a buffer holds after a stretch is the stretch's operations applied to what the
  buffers held before it. Read through all stretches: the second kernel's five operand arrays are the row table, the
  edge weights, the edge strengths and the two signal channels (Proof/HostTerms.lean) of the first kernel's result
  array and the arguments; and the program's three results are the pairing of the second kernel's two result arrays,
  the angles and the angle steps.
-/
import proofs.«151001_j80075370267059_2_alg».proof.Proof.Gen.KernelIdeal.Frame
import proofs.«151001_j80075370267059_2_alg».proof.Proof.HostTerms
import Idealize.ShloMosaic.Lib.StableHlo.Run

noncomputable section

namespace Cert.KernelIdeal.Glue

open Cert.KernelIdeal Cert.KernelIdeal.Gen Cert.KernelIdeal.HostTerms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first kernel's result array after its region. -/
abbrev table (c : Dev nD) : (⟨S256x4, .f32⟩ : BufTy).Contents (Elt F) := (dat0 (V0 m ρ) c).arrAt 7 cfg0.N

/-- After the first region the table's buffer holds the region's result array. -/
theorem W1_table (c : Dev nD) : W1 m ρ c (Proc.devRef .tc main_v0) = table m ρ c := W1_arr m ρ c 7

/-- The first region writes no argument. -/
theorem W1_arg (c : Dev nD) (b : Ref sig .tc) (hb : ∀ w, Pipeline.arrRef spec0 w ≠ b) :
    W1 m ρ c (Proc.devRef .tc b) = m ((c : Thread nD τ).loc b) := W1_of_ne m ρ c b hb

/-- The second kernel's per-row table is the row table of the previous angles and the first kernel's table. -/
theorem V4_v16 (c : Dev nD) :
    V4 m ρ c main_v16 = rowTable (m ((c : Thread nD τ).loc main_arg2)) (table m ρ c) := by
  show StableHlo.after hostOps1_2 (StableHlo.after hostOps1_1 (StableHlo.after hostOps1 (W1 m ρ c))) (Proc.devRef .tc main_v16) = _
  after_results_simp
  have key : ∀ (a a' b b' : (⟨S256x2, .f32⟩ : BufTy).Contents (Elt F)), a = a' → b = b' →
      concatenate S256x4 1 [⟨S256x2, a⟩, ⟨S256x2, b⟩] concatenates_S256x2_S256x2_S256x4_d1
        = concatenate S256x4 1 [⟨S256x2, a'⟩, ⟨S256x2, b'⟩] concatenates_S256x2_S256x2_S256x4_d1 := by
    intro a a' b b' h1 h2; rw [h1, h2]
  unfold rowTable
  refine key _ _ _ _ ?_ ?_
  · after_results_simp
    rw [W1_table, W1_arg m ρ c main_arg2 (by decide)]
    rfl
  · after_results_simp
    rw [W1_table]
    rfl

/-- The second kernel's edge weights are the edge weights of the path weights. -/
theorem V4_v27 (c : Dev nD) : V4 m ρ c main_v27 = edgeWeight (m ((c : Thread nD τ).loc main_arg10)) := by
  show StableHlo.after hostOps1_2 (StableHlo.after hostOps1_1 (StableHlo.after hostOps1 (W1 m ρ c))) (Proc.devRef .tc main_v27) = _
  after_results_simp
  rw [W1_arg m ρ c main_arg10 (by decide)]
  rfl

/-- The second kernel's edge strengths are the strengths of the fourth argument. -/
theorem V4_v28 (c : Dev nD) : V4 m ρ c main_v28 = strength (m ((c : Thread nD τ).loc main_arg3)) := by
  show StableHlo.after hostOps1_2 (StableHlo.after hostOps1_1 (StableHlo.after hostOps1 (W1 m ρ c))) (Proc.devRef .tc main_v28) = _
  after_results_simp
  rw [W1_arg m ρ c main_arg3 (by decide)]
  rfl

/-- The second kernel's first signal channel is channel 0 of the first argument. -/
theorem V4_v30 (c : Dev nD) : V4 m ρ c main_v30 = chan0 (m ((c : Thread nD τ).loc main_arg0)) := by
  show StableHlo.after hostOps1_2 (StableHlo.after hostOps1_1 (StableHlo.after hostOps1 (W1 m ρ c))) (Proc.devRef .tc main_v30) = _
  after_results_simp
  rw [W1_arg m ρ c main_arg0 (by decide)]
  rfl

/-- The second kernel's second signal channel is channel 1 of the first argument. -/
theorem V4_v32 (c : Dev nD) : V4 m ρ c main_v32 = chan1 (m ((c : Thread nD τ).loc main_arg0)) := by
  show StableHlo.after hostOps1_2 (StableHlo.after hostOps1_1 (StableHlo.after hostOps1 (W1 m ρ c))) (Proc.devRef .tc main_v32) = _
  after_results_simp
  rw [W1_arg m ρ c main_arg0 (by decide)]
  rfl

/-- The first result is the pairing of the second kernel's two result arrays. -/
theorem W6_v36 (c : Dev nD) :
    W6 m ρ c (Proc.devRef .tc main_v36)
      = pairUp ((dat1 (V4 m ρ) c).arrAt 5 cfg1.N) ((dat1 (V4 m ρ) c).arrAt 6 cfg1.N) := by
  show StableHlo.after hostOps2 (W5 m ρ c) (Proc.devRef .tc main_v36) = _
  after_results_simp
  have key : ∀ (a a' b b' : (⟨S256x256x1, .f32⟩ : BufTy).Contents (Elt F)), a = a' → b = b' →
      concatenate S256x256x2 2 [⟨S256x256x1, a⟩, ⟨S256x256x1, b⟩] concatenates_S256x256x1_S256x256x1_S256x256x2_d2
        = concatenate S256x256x2 2 [⟨S256x256x1, a'⟩, ⟨S256x256x1, b'⟩] concatenates_S256x256x1_S256x256x1_S256x256x2_d2 := by
    intro a a' b b' h1 h2; rw [h1, h2]
  unfold pairUp
  refine key _ _ _ _ ?_ ?_
  · after_results_simp
    rw [show W5 m ρ c (Proc.devRef .tc main_v33_0) = (dat1 (V4 m ρ) c).arrAt 5 cfg1.N from W5_arr m ρ c 5]
  · after_results_simp
    rw [show W5 m ρ c (Proc.devRef .tc main_v33_1) = (dat1 (V4 m ρ) c).arrAt 6 cfg1.N from W5_arr m ρ c 6]

/-- The second result is the angles: neither the last stretch nor the second region writes its buffer. -/
theorem W6_v7 (c : Dev nD) :
    W6 m ρ c (Proc.devRef .tc main_v7) = phi (m ((c : Thread nD τ).loc main_arg2)) (table m ρ c) := by
  show StableHlo.after hostOps2 (W5 m ρ c) (Proc.devRef .tc main_v7) = _
  after_results_simp
  rw [W5_of_ne m ρ c main_v7 (by decide)]
  show StableHlo.after hostOps1_2 (StableHlo.after hostOps1_1 (StableHlo.after hostOps1 (W1 m ρ c))) (Proc.devRef .tc main_v7) = _
  after_results_simp
  rw [W1_table, W1_arg m ρ c main_arg2 (by decide)]
  rfl

/-- The third result is the angle steps. -/
theorem W6_v6 (c : Dev nD) : W6 m ρ c (Proc.devRef .tc main_v6) = dphi (table m ρ c) := by
  show StableHlo.after hostOps2 (W5 m ρ c) (Proc.devRef .tc main_v6) = _
  after_results_simp
  rw [W5_of_ne m ρ c main_v6 (by decide)]
  show StableHlo.after hostOps1_2 (StableHlo.after hostOps1_1 (StableHlo.after hostOps1 (W1 m ρ c))) (Proc.devRef .tc main_v6) = _
  after_results_simp
  rw [W1_table]
  rfl

end Cert.KernelIdeal.Glue

end
-- ==== Proof.MlpSpec.lean ====
/-
  One row of the two-layer perceptron, as sums over the extended reals.

  A row `x` of 1280 features goes through a linear layer into 1024 hidden units (`lin`), is normalised over those
  1024 units — the mean subtracted (`cen`), the mean of the squares taken (`var`), the centred value multiplied by
  the reciprocal square root of that mean plus a small constant —, scaled and shifted per unit, cut off below at
  zero (`act`), and goes through a second linear layer into 4 outputs (`mlpOut`). Both programs compute exactly this
  tree of operations in this order; the float constants are kept as the words the programs print.
-/
import Idealize.ShloMosaic.PureOps.Ideal
import Idealize.ShloMosaic.PureOps.Ideal.Laws

noncomputable section

open scoped BigOperators

namespace Cert.KernelIdeal.MlpValue

open Idealize.ShloMosaic

/-- The number of hidden units, 1024, as the float word both programs divide by. -/
def nHid : EReal := Ideal.ofBits .f32 0x44800000#32

/-- The small constant added to the variance, as the float word both programs print. -/
def epsW : EReal := Ideal.ofBits .f32 0x3727C5AC#32

/-- The float zero the rectifier compares with. -/
def zeroW : EReal := Ideal.ofBits .f32 0x00000000#32

/-- The first linear layer at hidden unit `k`: the row times column `k` of the weights, plus the bias. -/
def lin (x : Fin 1280 → EReal) (w : Fin 1280 → Fin 1024 → EReal) (b : Fin 1024 → EReal) (k : Fin 1024) : EReal :=
  (∑ j : Fin 1280, x j * w j k) + b k

/-- The mean of the hidden units. -/
def mean (h : Fin 1024 → EReal) : EReal := Ideal.div (∑ k : Fin 1024, h k) nHid

/-- A hidden unit, centred. -/
def cen (h : Fin 1024 → EReal) (k : Fin 1024) : EReal := h k - mean h

/-- The mean of the squares of the centred units. -/
def var (h : Fin 1024 → EReal) : EReal := Ideal.div (∑ k : Fin 1024, cen h k * cen h k) nHid

/-- The normalised, scaled, shifted and rectified hidden unit `k`. -/
def act (h g s : Fin 1024 → EReal) (k : Fin 1024) : EReal :=
  max (cen h k * Ideal.rsqrt (var h + epsW) * g k + s k) zeroW

/-- Output `q` of the row: the second linear layer over the rectified units. -/
def mlpOut (x : Fin 1280 → EReal) (w1 : Fin 1280 → Fin 1024 → EReal) (b1 g s : Fin 1024 → EReal)
    (w2 : Fin 1024 → Fin 4 → EReal) (b2 : Fin 4 → EReal) (q : Fin 4) : EReal :=
  (∑ k : Fin 1024, act (lin x w1 b1) g s k * w2 k q) + b2 q

end Cert.KernelIdeal.MlpValue

end
-- ==== Proof.MlpLayout.lean ====
/-
  Three layout readings the library does not carry, and a row sum read at an index.

  A vector of `a` entries viewed as a column `[a, 1]` holds entry `i` at `(i, 0)`; a column `[a, 1]` broadcast to
  `[a, b]` holds, everywhere on row `p`, the column's entry at `p`; a sum along the second axis of an `[a, b]` array
  is, at `p`, the sum over the `b` columns of row `p`.
-/
import Idealize.ShloMosaic.Lib.ValueLayout
import Idealize.ShloMosaic.PureOps.Ideal.Laws

noncomputable section

open scoped BigOperators

namespace Cert.KernelIdeal.MlpValue

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of an `[a, b]` array of extended reals, at `p`: the sum of row `p`. -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Cert.KernelIdeal.MlpValue

end
-- ==== Proof.MlpBlocks.lean ====
/-
  The first kernel's body cut into its stages, each a function of the stage before.

  The body's one stored value is, in order: the hidden block (a matrix product plus a bias row), the column of row
  means, the centred block, the column of reciprocal standard deviations, the rectified block (normalised, scaled
  and shifted per column, cut off below at zero), and the output block (a second matrix product plus a bias row).
  Each stage below is the printed operations of that stretch, and the printed payload is their composition.
-/
import proofs.«151001_j80075370267059_2_alg».proof.Proof.Gen.KernelIdeal.Skeleton

noncomputable section

namespace Cert.KernelIdeal.MlpValue

open Idealize.ShloMosaic Idealize.SL.Sem Cert.KernelIdeal Cert.KernelIdeal.Gen

variable {F : FTy → Type} [FloatOps F]

/-- The hidden block: rows times the first weights, plus the first bias on every row. -/
def hidBlk (v0 : Vec F S128x1280 .f32) (v2 : Vec F S1280x1024 .f32) (v5 : Vec F S1024 .f32) : FVec F S128x1024 .f32 :=
  addf (matmul dot_S128x1280_S1280x1024_S128x1024_1_0_0_1_n_n none (truncf .bf16 v0 bitsLt_bf16_f32) (truncf .bf16 v2 bitsLt_bf16_f32) (constant S128x1024 .f32 0x00000000#32))
    (broadcastTo S128x1024 (shapeCast S1x1024 v5 shapeCasts_S1024_S1x1024) broadcasts_S1x1024_S128x1024)

/-- The column of row means of a block. -/
def meanCol (v8 : FVec F S128x1024 .f32) : FVec F S128x1 .f32 :=
  divf (shapeCast S128x1 (multiReduction .add [1] S128 v8 0x00000000#32 reduces_S128x1024_S128 (.inl rfl) rfl) shapeCasts_S128_S128x1)
    (broadcast S128x1 (Scalar.ofBits .f32 0x44800000#32 : F .f32))

/-- The block with each row's mean subtracted. -/
def cenBlk (v8 : FVec F S128x1024 .f32) : FVec F S128x1024 .f32 :=
  subf v8 (broadcastTo S128x1024 (meanCol v8) broadcasts_S128x1_S128x1024)

/-- The column of reciprocal square roots of (mean square of the centred row, plus the small constant). -/
def rstdCol (v8 : FVec F S128x1024 .f32) : FVec F S128x1 .f32 :=
  rsqrt (addf (divf (shapeCast S128x1 (multiReduction .add [1] S128 (mulf (cenBlk v8) (cenBlk v8)) 0x00000000#32 reduces_S128x1024_S128 (.inl rfl) rfl) shapeCasts_S128_S128x1)
      (broadcast S128x1 (Scalar.ofBits .f32 0x44800000#32 : F .f32)))
    (broadcast S128x1 (Scalar.ofBits .f32 0x3727C5AC#32 : F .f32)))

/-- The rectified block: normalised, scaled and shifted per column, cut off below at zero. -/
def actBlk (v8 : FVec F S128x1024 .f32) (v27 v31 : Vec F S1024 .f32) : FVec F S128x1024 .f32 :=
  maximumf (addf (mulf (mulf (cenBlk v8) (broadcastTo S128x1024 (rstdCol v8) broadcasts_S128x1_S128x1024))
        (broadcastTo S128x1024 (shapeCast S1x1024 v27 shapeCasts_S1024_S1x1024) broadcasts_S1x1024_S128x1024))
      (broadcastTo S128x1024 (shapeCast S1x1024 v31 shapeCasts_S1024_S1x1024) broadcasts_S1x1024_S128x1024))
    (broadcast S128x1024 (Scalar.ofBits .f32 0x00000000#32 : F .f32))

/-- The output block: the rectified block times the second weights, plus the second bias on every row. -/
def outBlk (v36 : FVec F S128x1024 .f32) (v38 : Vec F S1024x4 .f32) (v41 : Vec F S4 .f32) : FVec F S128x4 .f32 :=
  addf (matmul dot_S128x1024_S1024x4_S128x4_1_0_0_1_n_n none (truncf .bf16 v36 bitsLt_bf16_f32) (truncf .bf16 v38 bitsLt_bf16_f32) (constant S128x4 .f32 0x00000000#32))
    (broadcastTo S128x4 (shapeCast S1x4 v41 shapeCasts_S4_S1x4) broadcasts_S1x4_S128x4)

/-- The body's stored value is the composition of the stages. -/
theorem pay_eq (v0 : Vec F S128x1280 .f32) (v2 : Vec F S1280x1024 .f32) (v5 v27 v31 : Vec F S1024 .f32) (v38 : Vec F S1024x4 .f32) (v41 : Vec F S4 .f32) :
    k0_pay1 (k0_pay2 v0 v2 v5 v27 v31 v38) v41 = outBlk (actBlk (hidBlk v0 v2 v5) v27 v31) v38 v41 := rfl

end Cert.KernelIdeal.MlpValue

end
-- ==== Proof.MlpPayload.lean ====
/-
  The first kernel's stored value at an index is the perceptron's output for that row.

  Each stage of the body is read at an index: a matrix product into a zero accumulator is the sum over the
  contracted axis of the products; a bias row added to a block adds the bias entry of the column; a row sum is the
  sum over the row's columns; a column broadcast over a block reads the column's entry of the row. A change of
  float format is the identity on extended reals, so the products are of the operands themselves.
-/
import proofs.«151001_j80075370267059_2_alg».proof.Proof.MlpSpec
import proofs.«151001_j80075370267059_2_alg».proof.Proof.MlpLayout
import proofs.«151001_j80075370267059_2_alg».proof.Proof.MlpBlocks

noncomputable section

open scoped BigOperators

namespace Cert.KernelIdeal.MlpValue

open Idealize.ShloMosaic Idealize.ShloMosaic.ValueIdx Idealize.SL.Sem Cert.KernelIdeal Cert.KernelIdeal.Gen

theorem mm1_lhs0 (i : S128x1024.Idx) (q : dot_S128x1280_S1280x1024_S128x1024_1_0_0_1_n_n.contr.Idx) : (dot_S128x1280_S1280x1024_S128x1024_1_0_0_1_n_n.lhsIdx i q 0).val = (i 0).val := by
  unfold DotDims.lhsIdx
  rw [dif_neg (show ¬(0 : Fin S128x1280.rank) ∈ dot_S128x1280_S1280x1024_S128x1024_1_0_0_1_n_n.lhsBatch by decide), dif_pos (show (0 : Fin S128x1280.rank) ∈ dot_S128x1280_S1280x1024_S128x1024_1_0_0_1_n_n.lhsNonContracting by decide)]
  rfl
theorem mm1_rhs1 (i : S128x1024.Idx) (q : dot_S128x1280_S1280x1024_S128x1024_1_0_0_1_n_n.contr.Idx) : (dot_S128x1280_S1280x1024_S128x1024_1_0_0_1_n_n.rhsIdx i q 1).val = (i 1).val := by
  unfold DotDims.rhsIdx
  rw [dif_neg (show ¬(1 : Fin S1280x1024.rank) ∈ dot_S128x1280_S1280x1024_S128x1024_1_0_0_1_n_n.rhsBatch by decide), dif_pos (show (1 : Fin S1280x1024.rank) ∈ dot_S128x1280_S1280x1024_S128x1024_1_0_0_1_n_n.rhsNonContracting by decide)]
  rfl

/-- The first matrix product at `(p, c)`: row `p` of the left operand against column `c` of the right. -/
theorem mm1_apply (A : FVec Ideal S128x1280 .bf16) (B : FVec Ideal S1280x1024 .bf16) (p : Fin 128) (c : Fin 1024) :
    matmul dot_S128x1280_S1280x1024_S128x1024_1_0_0_1_n_n none A B (constant S128x1024 .f32 0x00000000#32) (ix2 p c)
      = ∑ j : Fin 1280, A (ix2 p j) * B (ix2 j c) := by
  simp only [matmul]
  rw [Ideal.matmul_constant_zero_apply, ← Equiv.sum_comp (contrEquiv1 dot_S128x1280_S1280x1024_S128x1024_1_0_0_1_n_n 1280 rfl rfl).symm]
  refine Finset.sum_congr rfl fun j _ => ?_
  have hk := contrEquiv1_symm_val dot_S128x1280_S1280x1024_S128x1024_1_0_0_1_n_n 1280 rfl rfl j
  have el : dot_S128x1280_S1280x1024_S128x1024_1_0_0_1_n_n.lhsIdx (ix2 p c) ((contrEquiv1 dot_S128x1280_S1280x1024_S128x1024_1_0_0_1_n_n 1280 rfl rfl).symm j) = ix2 p j := funext fun a => Fin.ext (by
    match a with
    | ⟨0, _⟩ => exact mm1_lhs0 _ _
    | ⟨1, _⟩ => exact (dot_S128x1280_S1280x1024_S128x1024_1_0_0_1_n_n.lhsIdx_val_of_single rfl _ _).trans hk)
  have er : dot_S128x1280_S1280x1024_S128x1024_1_0_0_1_n_n.rhsIdx (ix2 p c) ((contrEquiv1 dot_S128x1280_S1280x1024_S128x1024_1_0_0_1_n_n 1280 rfl rfl).symm j) = ix2 j c := funext fun a => Fin.ext (by
    match a with
    | ⟨0, _⟩ => exact (dot_S128x1280_S1280x1024_S128x1024_1_0_0_1_n_n.rhsIdx_val_of_single rfl _ _).trans hk
    | ⟨1, _⟩ => exact mm1_rhs1 _ _)
  rw [el, er]

theorem mm2_lhs0 (i : S128x4.Idx) (q : dot_S128x1024_S1024x4_S128x4_1_0_0_1_n_n.contr.Idx) : (dot_S128x1024_S1024x4_S128x4_1_0_0_1_n_n.lhsIdx i q 0).val = (i 0).val := by
  unfold DotDims.lhsIdx
  rw [dif_neg (show ¬(0 : Fin S128x1024.rank) ∈ dot_S128x1024_S1024x4_S128x4_1_0_0_1_n_n.lhsBatch by decide), dif_pos (show (0 : Fin S128x1024.rank) ∈ dot_S128x1024_S1024x4_S128x4_1_0_0_1_n_n.lhsNonContracting by decide)]
  rfl
theorem mm2_rhs1 (i : S128x4.Idx) (q : dot_S128x1024_S1024x4_S128x4_1_0_0_1_n_n.contr.Idx) : (dot_S128x1024_S1024x4_S128x4_1_0_0_1_n_n.rhsIdx i q 1).val = (i 1).val := by
  unfold DotDims.rhsIdx
  rw [dif_neg (show ¬(1 : Fin S1024x4.rank) ∈ dot_S128x1024_S1024x4_S128x4_1_0_0_1_n_n.rhsBatch by decide), dif_pos (show (1 : Fin S1024x4.rank) ∈ dot_S128x1024_S1024x4_S128x4_1_0_0_1_n_n.rhsNonContracting by decide)]
  rfl

/-- The second matrix product at `(p, c)`: row `p` of the left operand against column `c` of the right. -/
theorem mm2_apply (A : FVec Ideal S128x1024 .bf16) (B : FVec Ideal S1024x4 .bf16) (p : Fin 128) (c : Fin 4) :
    matmul dot_S128x1024_S1024x4_S128x4_1_0_0_1_n_n none A B (constant S128x4 .f32 0x00000000#32) (ix2 p c)
      = ∑ j : Fin 1024, A (ix2 p j) * B (ix2 j c) := by
  simp only [matmul]
  rw [Ideal.matmul_constant_zero_apply, ← Equiv.sum_comp (contrEquiv1 dot_S128x1024_S1024x4_S128x4_1_0_0_1_n_n 1024 rfl rfl).symm]
  refine Finset.sum_congr rfl fun j _ => ?_
  have hk := contrEquiv1_symm_val dot_S128x1024_S1024x4_S128x4_1_0_0_1_n_n 1024 rfl rfl j
  have el : dot_S128x1024_S1024x4_S128x4_1_0_0_1_n_n.lhsIdx (ix2 p c) ((contrEquiv1 dot_S128x1024_S1024x4_S128x4_1_0_0_1_n_n 1024 rfl rfl).symm j) = ix2 p j := funext fun a => Fin.ext (by
    match a with
    | ⟨0, _⟩ => exact mm2_lhs0 _ _
    | ⟨1, _⟩ => exact (dot_S128x1024_S1024x4_S128x4_1_0_0_1_n_n.lhsIdx_val_of_single rfl _ _).trans hk)
  have er : dot_S128x1024_S1024x4_S128x4_1_0_0_1_n_n.rhsIdx (ix2 p c) ((contrEquiv1 dot_S128x1024_S1024x4_S128x4_1_0_0_1_n_n 1024 rfl rfl).symm j) = ix2 j c := funext fun a => Fin.ext (by
    match a with
    | ⟨0, _⟩ => exact (dot_S128x1024_S1024x4_S128x4_1_0_0_1_n_n.rhsIdx_val_of_single rfl _ _).trans hk
    | ⟨1, _⟩ => exact mm2_rhs1 _ _)
  rw [el, er]

/-- A vector broadcast over the rows of a block reads, at `(p, c)`, its entry `c`. -/
theorem rowBcast_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The hidden block at `(p, k)` is the first linear layer of row `p` at unit `k`. -/
theorem hidBlk_apply (x0 : Vec Ideal S128x1280 .f32) (x1 : Vec Ideal S1280x1024 .f32) (x2 : Vec Ideal S1024 .f32) (p : Fin 128) (k : Fin 1024) :
    hidBlk x0 x1 x2 (ix2 p k) = lin (fun j => x0 (ix2 p j)) (fun j k => x1 (ix2 j k)) (fun k => x2 (ix1 k)) k := by
  unfold hidBlk lin
  rw [addf_apply, mm1_apply, rowBcast_apply]
  rfl

/-- The column of row means at `(p, u)` is the mean of row `p`. -/
theorem meanCol_apply (h : FVec Ideal S128x1024 .f32) (p : Fin 128) (u : Fin 1) :
    meanCol h (ix2 p u) = mean (fun k => h (ix2 p k)) := by
  unfold meanCol mean nHid
  rw [divf_apply, broadcast_apply, shapeCast_a_a1_apply]
  exact congrArg (fun z => Ideal.div z (Ideal.ofBits .f32 0x44800000#32))
    (rowSum_apply h 0x00000000#32 reduces_S128x1024_S128 (.inl rfl) rfl p)

/-- The centred block at `(p, k)`. -/
theorem cenBlk_apply (h : FVec Ideal S128x1024 .f32) (p : Fin 128) (k : Fin 1024) :
    cenBlk h (ix2 p k) = cen (fun k => h (ix2 p k)) k := by
  unfold cenBlk cen
  rw [subf_apply, broadcastTo_a1_ab_apply, meanCol_apply]

/-- The column of reciprocal standard deviations at `(p, u)`. -/
theorem rstdCol_apply (h : FVec Ideal S128x1024 .f32) (p : Fin 128) (u : Fin 1) :
    rstdCol h (ix2 p u) = Ideal.rsqrt (var (fun k => h (ix2 p k)) + epsW) := by
  unfold rstdCol var nHid epsW
  show Ideal.rsqrt _ = _
  refine congrArg Ideal.rsqrt ?_
  rw [addf_apply, divf_apply, broadcast_apply, broadcast_apply, shapeCast_a_a1_apply]
  refine congrArg (fun z => Ideal.div z (Ideal.ofBits .f32 0x44800000#32) + Ideal.ofBits .f32 0x3727C5AC#32)
    ((rowSum_apply (mulf (cenBlk h) (cenBlk h)) 0x00000000#32 reduces_S128x1024_S128 (.inl rfl) rfl p).trans ?_)
  refine Finset.sum_congr rfl fun k _ => ?_
  rw [mulf_apply, cenBlk_apply]

/-- The rectified block at `(p, k)`. -/
theorem actBlk_apply (h : FVec Ideal S128x1024 .f32) (x3 x4 : Vec Ideal S1024 .f32) (p : Fin 128) (k : Fin 1024) :
    actBlk h x3 x4 (ix2 p k) = act (fun k => h (ix2 p k)) (fun k => x3 (ix1 k)) (fun k => x4 (ix1 k)) k := by
  unfold actBlk act zeroW
  rw [maximumf_apply, broadcast_apply, addf_apply, mulf_apply, mulf_apply, rowBcast_apply, rowBcast_apply,
    broadcastTo_a1_ab_apply, rstdCol_apply, cenBlk_apply]
  rfl

/-- The output block at `(p, q)`: the second linear layer over row `p` of the rectified block. -/
theorem outBlk_apply (a : FVec Ideal S128x1024 .f32) (x5 : Vec Ideal S1024x4 .f32) (x6 : Vec Ideal S4 .f32) (p : Fin 128) (q : Fin 4) :
    outBlk a x5 x6 (ix2 p q) = (∑ k : Fin 1024, a (ix2 p k) * x5 (ix2 k q)) + x6 (ix1 q) := by
  unfold outBlk
  rw [addf_apply, mm2_apply, rowBcast_apply]
  rfl

/-- The body's stored value at `(p, q)` is output `q` of the perceptron on row `p` of the block of rows. -/
theorem pay_apply (x0 : Vec Ideal S128x1280 .f32) (x1 : Vec Ideal S1280x1024 .f32) (x2 x3 x4 : Vec Ideal S1024 .f32)
    (x5 : Vec Ideal S1024x4 .f32) (x6 : Vec Ideal S4 .f32) (p : Fin 128) (q : Fin 4) :
    k0_pay1 (k0_pay2 x0 x1 x2 x3 x4 x5) x6 (ix2 p q)
      = mlpOut (fun j => x0 (ix2 p j)) (fun j k => x1 (ix2 j k)) (fun k => x2 (ix1 k)) (fun k => x3 (ix1 k))
          (fun k => x4 (ix1 k)) (fun k q => x5 (ix2 k q)) (fun q => x6 (ix1 q)) q := by
  rw [pay_eq, outBlk_apply]
  unfold mlpOut
  refine congrArg (· + x6 (ix1 q)) (Finset.sum_congr rfl fun k _ => ?_)
  rw [actBlk_apply]
  refine congrArg (fun z => act z (fun k => x3 (ix1 k)) (fun k => x4 (ix1 k)) k * x5 (ix2 k q)) (funext fun k' => ?_)
  exact hidBlk_apply x0 x1 x2 p k'

end Cert.KernelIdeal.MlpValue

end
-- ==== Proof.MlpRef.lean ====
/-
  The reference's first stage at an index is the perceptron's output for that row.

  The reference computes the same tree of operations on whole arrays; read at an index, each of its operations
  reads its operands at the same row (or at the row's one entry of a column, or at the column's entry of a bias
  vector). Its row sums start from the float zero, which adds nothing.
-/
import proofs.«151001_j80075370267059_2_alg».proof.Proof.RefRead
import proofs.«151001_j80075370267059_2_alg».proof.Proof.MlpSpec
import Idealize.ShloMosaic.Lib.ValueIdx

noncomputable section

open scoped BigOperators

namespace Cert.KernelIdeal.MlpValue

open Idealize.ShloMosaic Idealize.ShloMosaic.ValueIdx Cert.ReferenceIdeal Cert.ReferenceIdeal.Read

/-- A rank-2 index with the coordinates `a`, `b` is `ix2 a b`. -/
theorem ix2_of {n0 n1 : ℕ} (i : (⟨2, ![n0, n1]⟩ : Shape).Idx) (a : Fin n0) (b : Fin n1) (h0 : (i 0).val = a.val) (h1 : (i 1).val = b.val) :
    i = ix2 a b :=
  funext fun d => Fin.ext (by match d with | ⟨0, _⟩ => exact h0 | ⟨1, _⟩ => exact h1)

/-- A rank-1 index with the coordinate `a` is `ix1 a`. -/
theorem ix1_of {n : ℕ} (i : (⟨1, ![n]⟩ : Shape).Idx) (a : Fin n) (h0 : (i 0).val = a.val) : i = ix1 a :=
  funext fun d => Fin.ext (by match d with | ⟨0, _⟩ => exact h0)

variable (X : (⟨S256x1280, .f32⟩ : BufTy).Contents (Elt Ideal)) (W1 : (⟨S1280x1024, .f32⟩ : BufTy).Contents (Elt Ideal))
  (b1 g s : (⟨S1024, .f32⟩ : BufTy).Contents (Elt Ideal)) (W2 : (⟨S1024x4, .f32⟩ : BufTy).Contents (Elt Ideal))
  (b2 : (⟨S4, .f32⟩ : BufTy).Contents (Elt Ideal))

/-- The hidden array at `(r, k)` is the first linear layer of row `r` at unit `k`. -/
theorem ref_hid (r : Fin 256) (k : Fin 1024) :
    val_main_v3 (F := Ideal) X W1 b1 (ix2 r k) = lin (fun j => X (ix2 r j)) (fun j k => W1 (ix2 j k)) (fun k => b1 (ix1 k)) k := by
  rw [val_main_v3_apply, val_main_v0_apply, val_main_v2_apply, val_main_v1_apply]
  unfold lin
  show _ + _ = _ + _
  refine congrArg₂ (· + ·) (Finset.sum_congr rfl fun j _ => congrArg₂ (· * ·) (congrArg X ?_) (congrArg W1 ?_)) (congrArg b1 ?_)
  · exact ix2_of _ _ _ rfl rfl
  · exact ix2_of _ _ _ rfl rfl
  · exact ix1_of _ _ rfl

/-- The column of row means at `(r, u)` is the mean of row `r` of the hidden array. -/
theorem ref_mean (r : Fin 256) (u : Fin 1) :
    val_main_v7 (F := Ideal) X W1 b1 (ix2 r u) = mean (fun k => val_main_v3 (F := Ideal) X W1 b1 (ix2 r k)) := by
  rw [val_main_v7_apply, val_main_v5_apply, val_main_v6_apply, val_main_v4_apply, val_main_cst_apply, val_main_cst_0_apply]
  unfold mean nHid
  simp only [Ideal.hostDivf_def, Ideal.ofBits_def, Ideal.ofBits_zero_f32, zero_add]
  exact congrArg (fun z => Ideal.div z (Ideal.ofBits .f32 0x44800000#32))
    (Finset.sum_congr rfl fun k _ => congrArg _ (ix2_of _ _ _ rfl rfl))

/-- The centred array at `(r, k)`. -/
theorem ref_cen (r : Fin 256) (k : Fin 1024) :
    val_main_v9 (F := Ideal) X W1 b1 (ix2 r k) = cen (fun k => val_main_v3 (F := Ideal) X W1 b1 (ix2 r k)) k := by
  rw [val_main_v9_apply, val_main_v8_apply, show idx_main_v8 (ix2 r k) = ix2 r (0 : Fin 1) from ix2_of _ _ _ rfl rfl, ref_mean]
  rfl

/-- The column of reciprocal standard deviations at `(r, u)`. -/
theorem ref_rstd (r : Fin 256) (u : Fin 1) :
    val_main_v19 (F := Ideal) X W1 b1 (ix2 r u)
      = Ideal.rsqrt (var (fun k => val_main_v3 (F := Ideal) X W1 b1 (ix2 r k)) + epsW) := by
  rw [val_main_v19_apply, val_main_v18_apply, val_main_v14_apply, val_main_v12_apply, val_main_v13_apply, val_main_v17_apply,
    val_main_v11_apply, val_main_cst_1_apply, val_main_cst_2_apply, val_main_cst_3_apply]
  unfold var nHid epsW
  simp only [Ideal.hostUnary_rsqrt_def, Ideal.addf_def, Ideal.hostDivf_def, Ideal.ofBits_def, Ideal.ofBits_zero_f32, zero_add]
  refine congrArg (fun z => Ideal.rsqrt (Ideal.div z (Ideal.ofBits .f32 0x44800000#32) + Ideal.ofBits .f32 0x3727C5AC#32))
    (Finset.sum_congr rfl fun k _ => ?_)
  rw [val_main_v10_apply, show idx_main_v11 (idx_main_v12 (ix2 r u)) k = ix2 r k from ix2_of _ _ _ rfl rfl, ref_cen]
  rfl

/-- The rectified array at `(r, k)`. -/
theorem ref_act (r : Fin 256) (k : Fin 1024) :
    val_main_v28 (F := Ideal) X W1 b1 g s (ix2 r k)
      = act (fun k => val_main_v3 (F := Ideal) X W1 b1 (ix2 r k)) (fun k => g (ix1 k)) (fun k => s (ix1 k)) k := by
  rw [val_main_v28_apply, val_main_v27_apply, val_main_v24_apply, val_main_v21_apply, val_main_v16_apply, val_main_v15_apply,
    val_main_v20_apply, val_main_v23_apply, val_main_v22_apply, val_main_v26_apply, val_main_v25_apply,
    val_main_call0_v0_apply, val_main_call0_cst_apply,
    show idx_main_v15 (ix2 r k) = ix2 r (0 : Fin 1) from ix2_of _ _ _ rfl rfl,
    show idx_main_v20 (ix2 r k) = ix2 r (0 : Fin 1) from ix2_of _ _ _ rfl rfl, ref_mean, ref_rstd,
    show idx_main_v22 (idx_main_v23 (ix2 r k)) = ix1 k from ix1_of _ _ rfl,
    show idx_main_v25 (idx_main_v26 (ix2 r k)) = ix1 k from ix1_of _ _ rfl]
  rfl

/-- The reference's first stage at `(r, q)` is output `q` of the perceptron on row `r`. -/
theorem ref_apply (r : Fin 256) (q : Fin 4) :
    val_main_v32 (F := Ideal) X W1 b1 g s W2 b2 (ix2 r q)
      = mlpOut (fun j => X (ix2 r j)) (fun j k => W1 (ix2 j k)) (fun k => b1 (ix1 k)) (fun k => g (ix1 k))
          (fun k => s (ix1 k)) (fun k q => W2 (ix2 k q)) (fun q => b2 (ix1 q)) q := by
  rw [val_main_v32_apply, val_main_v29_apply, val_main_v31_apply, val_main_v30_apply,
    show idx_main_v30 (idx_main_v31 (ix2 r q)) = ix1 q from ix1_of _ _ rfl]
  unfold mlpOut
  show _ + _ = _ + _
  refine congrArg (· + b2 (ix1 q)) (Finset.sum_congr rfl fun k _ => ?_)
  rw [show lidx_main_v29 (ix2 r q) k = ix2 r k from ix2_of _ _ _ rfl rfl,
    show ridx_main_v29 (ix2 r q) k = ix2 k q from ix2_of _ _ _ rfl rfl, ref_act]
  refine congrArg (fun z => act z (fun k => g (ix1 k)) (fun k => s (ix1 k)) k * W2 (ix2 k q)) (funext fun k' => ?_)
  exact ref_hid X W1 b1 r k'

end Cert.KernelIdeal.MlpValue

end
-- ==== Proof.MlpFinal.lean ====
/-
  From the blocks to the array: after the first region the result array holds the perceptron's outputs, row by row.

  The grid has two points; point `t` reads rows `128·t … 128·t + 127` of the input (the other six operands whole),
  and writes back rows `128·t … 128·t + 127` of the result. What it writes at `(p, q)` is the perceptron's output
  `q` on input row `128·t + p`, which is what the reference's first stage holds at `(128·t + p, q)`. Row `r` of the
  result is covered by point `r / 128`, so the whole array ends equal to the reference's first stage.
-/
import proofs.«151001_j80075370267059_2_alg».proof.Proof.Gen.KernelIdeal.Frame
import proofs.«151001_j80075370267059_2_alg».proof.Proof.MlpPayload
import proofs.«151001_j80075370267059_2_alg».proof.Proof.MlpRef
import Idealize.ShloMosaic.Lib.Pipeline.Value

noncomputable section

namespace Cert.KernelIdeal.MlpValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the two grid points: the input's and the result's row block is the point's number,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The grid has two points. -/
theorem lt_two (t : Fin cfg0.N) : t.val < 2 := Nat.lt_of_lt_of_eq t.isLt N_0

/-- The input's block at point `t` is rows `128·t …` of the input array. -/
theorem blk0_apply (c : Dev nD) (t : Fin cfg0.N) (p : Fin 128) (j : Fin 1280) (r : Fin 256) (hr : r.val = 128 * t.val + p.val) :
    (iblk0 V c 0 t : Vec Ideal S128x1280 .f32) (ix2 p j) = (V c main_arg1 : S256x1280.Idx → EReal) (ix2 r j) := by
  obtain ⟨e0, e1, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 128 + 1 * p.val = r.val; rw [e0, hr]; omega
  | ⟨1, _⟩ => show win0_0.index t (1 : Fin 2) * 1280 + 1 * j.val = j.val; rw [e1]; omega

/-- The first weights' one block is the whole array. -/
theorem blk1_eq (c : Dev nD) (t : Fin cfg0.N) : (iblk0 V c 1 t : Vec Ideal S1280x1024 .f32) = V c main_arg4 := by
  obtain ⟨-, -, e0, e1, -⟩ := idx_facts t
  funext y
  unfold iblk0
  rw [View.read_apply]
  show V c main_arg4 _ = V c main_arg4 y
  refine congrArg (V c main_arg4) (funext fun a => Fin.ext ?_)
  match a with
  | ⟨0, _⟩ => show win0_1.index t (0 : Fin 2) * 1280 + 1 * (y 0).val = (y 0).val; rw [e0]; omega
  | ⟨1, _⟩ => show win0_1.index t (1 : Fin 2) * 1024 + 1 * (y 1).val = (y 1).val; rw [e1]; omega

/-- The first bias's one block is the whole array. -/
theorem blk2_eq (c : Dev nD) (t : Fin cfg0.N) : (iblk0 V c 2 t : Vec Ideal S1024 .f32) = V c main_arg5 := by
  obtain ⟨-, -, -, -, e0, -⟩ := idx_facts t
  funext y
  unfold iblk0
  rw [View.read_apply]
  show V c main_arg5 _ = V c main_arg5 y
  refine congrArg (V c main_arg5) (funext fun a => Fin.ext ?_)
  match a with
  | ⟨0, _⟩ => show win0_2.index t (0 : Fin 1) * 1024 + 1 * (y 0).val = (y 0).val; rw [e0]; omega

/-- The scale's one block is the whole array. -/
theorem blk3_eq (c : Dev nD) (t : Fin cfg0.N) : (iblk0 V c 3 t : Vec Ideal S1024 .f32) = V c main_arg6 := by
  obtain ⟨-, -, -, -, -, e0, -⟩ := idx_facts t
  funext y
  unfold iblk0
  rw [View.read_apply]
  show V c main_arg6 _ = V c main_arg6 y
  refine congrArg (V c main_arg6) (funext fun a => Fin.ext ?_)
  match a with
  | ⟨0, _⟩ => show win0_3.index t (0 : Fin 1) * 1024 + 1 * (y 0).val = (y 0).val; rw [e0]; omega

/-- The shift's one block is the whole array. -/
theorem blk4_eq (c : Dev nD) (t : Fin cfg0.N) : (iblk0 V c 4 t : Vec Ideal S1024 .f32) = V c main_arg7 := by
  obtain ⟨-, -, -, -, -, -, e0, -⟩ := idx_facts t
  funext y
  unfold iblk0
  rw [View.read_apply]
  show V c main_arg7 _ = V c main_arg7 y
  refine congrArg (V c main_arg7) (funext fun a => Fin.ext ?_)
  match a with
  | ⟨0, _⟩ => show win0_4.index t (0 : Fin 1) * 1024 + 1 * (y 0).val = (y 0).val; rw [e0]; omega

/-- The second weights' one block is the whole array. -/
theorem blk5_eq (c : Dev nD) (t : Fin cfg0.N) : (iblk0 V c 5 t : Vec Ideal S1024x4 .f32) = V c main_arg8 := by
  obtain ⟨-, -, -, -, -, -, -, e0, e1, -⟩ := idx_facts t
  funext y
  unfold iblk0
  rw [View.read_apply]
  show V c main_arg8 _ = V c main_arg8 y
  refine congrArg (V c main_arg8) (funext fun a => Fin.ext ?_)
  match a with
  | ⟨0, _⟩ => show win0_5.index t (0 : Fin 2) * 1024 + 1 * (y 0).val = (y 0).val; rw [e0]; omega
  | ⟨1, _⟩ => show win0_5.index t (1 : Fin 2) * 4 + 1 * (y 1).val = (y 1).val; rw [e1]; omega

/-- The second bias's one block is the whole array. -/
theorem blk6_eq (c : Dev nD) (t : Fin cfg0.N) : (iblk0 V c 6 t : Vec Ideal S4 .f32) = V c main_arg9 := by
  obtain ⟨-, -, -, -, -, -, -, -, -, e0, -⟩ := idx_facts t
  funext y
  unfold iblk0
  rw [View.read_apply]
  show V c main_arg9 _ = V c main_arg9 y
  refine congrArg (V c main_arg9) (funext fun a => Fin.ext ?_)
  match a with
  | ⟨0, _⟩ => show win0_6.index t (0 : Fin 1) * 4 + 1 * (y 0).val = (y 0).val; rw [e0]; omega

/-- The reference's first stage of the operand arrays as the region finds them. -/
abbrev refStage (c : Dev nD) : S256x4.Idx → EReal :=
  Cert.ReferenceIdeal.Read.val_main_v32 (F := Ideal) (V c main_arg1) (V c main_arg4) (V c main_arg5) (V c main_arg6)
    (V c main_arg7) (V c main_arg8) (V c main_arg9)

/-- The rows a grid point writes back are the same rows of the reference's first stage: entry `(p, q)` of the block
    is the perceptron's output `q` on input row `128·t + p`, on both sides. -/
theorem flushed7_eq (c : Dev nD) (t : Fin cfg0.N) :
    (dat0 (F := Ideal) V c).flushed 7 t = ((cfg0.win 7).blk t).view.read (Elt Ideal) (refStage V c) := by
  show (cfg0.win 7).cut (grid0.coords t) ((dat0 V c).after 7 t) = _
  rw [after0_7]
  unfold out0_7
  rw [View.canon_unit_zero hz2]
  simp only [View.ld_unit_zero (S := S128x1280) hz2, View.ld_unit_zero (S := S1280x1024) hz2,
    View.ld_unit_zero (S := S1024) hz1, View.ld_unit_zero (S := S1024x4) hz2, View.ld_unit_zero (S := S4) hz1]
  rw [blk1_eq, blk2_eq, blk3_eq, blk4_eq, blk5_eq, blk6_eq]
  obtain ⟨-, -, -, -, -, -, -, -, -, -, e0, e1⟩ := idx_facts t
  have ht := lt_two t
  funext y
  obtain ⟨p, q, rfl⟩ : ∃ (p : Fin 128) (q : Fin 4), y = ix2 p q := ⟨y 0, y 1, eq_ix2 y⟩
  have hlt : 128 * t.val + p.val < 256 := by have := p.isLt; omega
  have hemb : ((cfg0.win 7).blk t).view.emb (ix2 p q) = (ix2 (⟨128 * t.val + p.val, hlt⟩ : Fin 256) q : S256x4.Idx) :=
    funext fun a => Fin.ext (by
      match a with
      | ⟨0, _⟩ => show win0_7.index t (0 : Fin 2) * 128 + 1 * p.val = 128 * t.val + p.val; rw [e0]; omega
      | ⟨1, _⟩ => show win0_7.index t (1 : Fin 2) * 4 + 1 * q.val = q.val; rw [e1]; omega)
  rw [View.read_apply]
  show k0_pay1 (k0_pay2 (iblk0 V c 0 t) (V c main_arg4) (V c main_arg5) (V c main_arg6) (V c main_arg7) (V c main_arg8)) (V c main_arg9) (ix2 p q)
    = refStage V c (((cfg0.win 7).blk t).view.emb (ix2 p q))
  refine (pay_apply (iblk0 V c 0 t) (V c main_arg4) (V c main_arg5) (V c main_arg6) (V c main_arg7) (V c main_arg8) (V c main_arg9) p q).trans ?_
  refine Eq.trans ?_ ((congrArg (refStage V c) hemb).trans
    (ref_apply (V c main_arg1) (V c main_arg4) (V c main_arg5) (V c main_arg6) (V c main_arg7) (V c main_arg8) (V c main_arg9)
      ⟨128 * t.val + p.val, hlt⟩ q)).symm
  refine congrArg (fun x => mlpOut x (fun j k => V c main_arg4 (ix2 j k)) (fun k => V c main_arg5 (ix1 k)) (fun k => V c main_arg6 (ix1 k))
    (fun k => V c main_arg7 (ix1 k)) (fun k q => V c main_arg8 (ix2 k q)) (fun q => V c main_arg9 (ix1 q)) q) (funext fun j => ?_)
  exact blk0_apply V c t p j ⟨128 * t.val + p.val, hlt⟩ rfl

/-- Every entry of the result array lies in the block of the point its row belongs to. -/
theorem cover7 (i : S256x4.Idx) : ∃ t : Fin cfg0.N, (cfg0.win 7).flush t = true ∧ i ∈ ((cfg0.win 7).blk t).view.set := by
  have h0 : (i 0).val < 256 := (i 0).isLt
  have h1 : (i 1).val < 4 := (i 1).isLt
  obtain ⟨t, ht⟩ : ∃ t : Fin cfg0.N, t.val = (i 0).val / 128 :=
    ⟨⟨(i 0).val / 128, Nat.lt_of_lt_of_eq (by omega) N_0.symm⟩, rfl⟩
  obtain ⟨-, -, -, -, -, -, -, -, -, -, e0, e1⟩ := idx_facts t
  refine ⟨t, flush0_7 t, ?_⟩
  show i ∈ ((View.whole main_v0).slice (win0_7.rect t)).set
  rw [View.set_slice_whole, Rect.mem_set_unit]
  intro a
  match a with
  | ⟨0, _⟩ =>
    show win0_7.index t (0 : Fin 2) * 128 ≤ (i 0).val ∧ (i 0).val < win0_7.index t (0 : Fin 2) * 128 + 128
    rw [e0, ht]; omega
  | ⟨1, _⟩ =>
    show win0_7.index t (1 : Fin 2) * 4 ≤ (i 1).val ∧ (i 1).val < win0_7.index t (1 : Fin 2) * 4 + 4
    rw [e1]; omega

/-- After the region the result array is the reference's first stage of the region's operand arrays: every row is
    written by the point it belongs to, with the value the reference has there. -/
theorem final7 (c : Dev nD) :
    (dat0 (F := Ideal) V c).arrAt 7 cfg0.N
      = Cert.ReferenceIdeal.Read.val_main_v32 (F := Ideal) (V c main_arg1) (V c main_arg4) (V c main_arg5) (V c main_arg6)
          (V c main_arg7) (V c main_arg8) (V c main_arg9) :=
  (dat0 (F := Ideal) V c).arrAt_eq_of_cover 7 (refStage V c) (fun t _ => flushed7_eq V c t) cover7

end Cert.KernelIdeal.MlpValue

end
-- ==== Proof.MpSpec.lean ====
/-
  The message-passing stage as one function of its five operand arrays, at the extended reals.

  For a batch row `b`, a target node `i` and a source node `j` the stage mixes two per-row angles and two per-row
  radii with a per-edge weight `w` and its complement `1 - w`:
      θ = w · p₀ + (1 - w) · p₁,      r = w · r₀ + (1 - w) · r₁,
  turns the radius into a gain `g = tanh (r · s) · 1.1` with the edge strength `s`, and adds up, over the source nodes,
  the rotated signal: real part `g · (cos θ · xr − sin θ · xi)`, imaginary part `g · (sin θ · xr + cos θ · xi)`.
  The per-row parameters sit in the four columns of `bp` (p₀, p₁, r₀, r₁).
  `tileR` / `tileI` are the same sums over one tile of 128 source nodes (rows and nodes local to the tile);
  `outR` / `outI` are the sums over all 256 source nodes.
  The float literals 1.0 and 1.1 are kept as their f32 words: the same word on both sides is never evaluated.
-/
import Idealize.ShloMosaic.PureOps.Ideal
import Idealize.ShloMosaic.Lib.ValueIdx

noncomputable section

namespace Cert.MpSpec

open Idealize.ShloMosaic Idealize.ShloMosaic.ValueIdx

/-- The literal 1.0 as its f32 word. -/
abbrev one : EReal := Ideal.ofBits .f32 0x3F800000#32
/-- The literal 1.1 as its f32 word. -/
abbrev c11 : EReal := Ideal.ofBits .f32 0x3F8CCCCD#32

/-- A value mixed from `a` and `b` with weight `w` and its complement. -/
def mix (w a b : EReal) : EReal := w * a + (one - w) * b

/-- The gain of one edge: `tanh (r · s) · 1.1` with the mixed radius `r`. -/
def gain (w s r0 r1 : EReal) : EReal := Ideal.tanh (mix w r0 r1 * s) * c11

/-- One edge's contribution to the real part. -/
def termR (w s p0 p1 r0 r1 xr xi : EReal) : EReal :=
  gain w s r0 r1 * (Ideal.cos (mix w p0 p1) * xr - Ideal.sin (mix w p0 p1) * xi)

/-- One edge's contribution to the imaginary part. -/
def termI (w s p0 p1 r0 r1 xr xi : EReal) : EReal :=
  gain w s r0 r1 * (Ideal.sin (mix w p0 p1) * xr + Ideal.cos (mix w p0 p1) * xi)

/-- The real part over one tile: 64 rows, 128 target nodes, 128 source nodes. -/
def tileR (bp : (⟨2, ![64, 4]⟩ : Shape).Idx → EReal) (w sr : (⟨2, ![128, 128]⟩ : Shape).Idx → EReal)
    (xr xi : (⟨2, ![64, 128]⟩ : Shape).Idx → EReal) (r : Fin 64) (i : Fin 128) : EReal :=
  ∑ j : Fin 128, termR (w (ix2 i j)) (sr (ix2 i j)) (bp (ix2 r (0 : Fin 4))) (bp (ix2 r (1 : Fin 4)))
    (bp (ix2 r (2 : Fin 4))) (bp (ix2 r (3 : Fin 4))) (xr (ix2 r j)) (xi (ix2 r j))

/-- The imaginary part over one tile. -/
def tileI (bp : (⟨2, ![64, 4]⟩ : Shape).Idx → EReal) (w sr : (⟨2, ![128, 128]⟩ : Shape).Idx → EReal)
    (xr xi : (⟨2, ![64, 128]⟩ : Shape).Idx → EReal) (r : Fin 64) (i : Fin 128) : EReal :=
  ∑ j : Fin 128, termI (w (ix2 i j)) (sr (ix2 i j)) (bp (ix2 r (0 : Fin 4))) (bp (ix2 r (1 : Fin 4)))
    (bp (ix2 r (2 : Fin 4))) (bp (ix2 r (3 : Fin 4))) (xr (ix2 r j)) (xi (ix2 r j))

/-- The real part at row `b`, target node `i`: the sum over all 256 source nodes. -/
def outRat (bp : (⟨2, ![256, 4]⟩ : Shape).Idx → EReal) (w sr xr xi : (⟨2, ![256, 256]⟩ : Shape).Idx → EReal)
    (b i : Fin 256) : EReal :=
  ∑ j : Fin 256, termR (w (ix2 i j)) (sr (ix2 i j)) (bp (ix2 b (0 : Fin 4))) (bp (ix2 b (1 : Fin 4)))
    (bp (ix2 b (2 : Fin 4))) (bp (ix2 b (3 : Fin 4))) (xr (ix2 b j)) (xi (ix2 b j))

/-- The imaginary part at row `b`, target node `i`. -/
def outIat (bp : (⟨2, ![256, 4]⟩ : Shape).Idx → EReal) (w sr xr xi : (⟨2, ![256, 256]⟩ : Shape).Idx → EReal)
    (b i : Fin 256) : EReal :=
  ∑ j : Fin 256, termI (w (ix2 i j)) (sr (ix2 i j)) (bp (ix2 b (0 : Fin 4))) (bp (ix2 b (1 : Fin 4)))
    (bp (ix2 b (2 : Fin 4))) (bp (ix2 b (3 : Fin 4))) (xr (ix2 b j)) (xi (ix2 b j))

/-- The real part as an array over (row, target node). -/
def outR (bp : (⟨2, ![256, 4]⟩ : Shape).Idx → EReal) (w sr xr xi : (⟨2, ![256, 256]⟩ : Shape).Idx → EReal) :
    (⟨2, ![256, 256]⟩ : Shape).Idx → EReal := fun y => outRat bp w sr xr xi (y 0) (y 1)

/-- The imaginary part as an array over (row, target node). -/
def outI (bp : (⟨2, ![256, 4]⟩ : Shape).Idx → EReal) (w sr xr xi : (⟨2, ![256, 256]⟩ : Shape).Idx → EReal) :
    (⟨2, ![256, 256]⟩ : Shape).Idx → EReal := fun y => outIat bp w sr xr xi (y 0) (y 1)

end Cert.MpSpec

end
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.MpArrSum.lean ====
/-
  Two tiles make the whole sum. The message-passing stage adds, for one row and one target node, a term per source
  node; the 256 source nodes come in two halves of 128, and the sum over all of them is the sum over the first half
  plus the sum over the second. Stated for the real and the imaginary part: a tile's sum over blocks that hold the
  arrays' entries at the right rows and nodes, added to the other half's, is the stage's value.
-/
import proofs.«151001_j80075370267059_2_alg».proof.Proof.MpSpec
import proofs.«151001_j80075370267059_2_alg».proof.Proof.LibBlockSum

noncomputable section

namespace Cert.KernelIdeal.MpArr

open Idealize.ShloMosaic Idealize.ShloMosaic.ValueIdx
open Cert.MpSpec

/-- Source node `j` of half `h` of the 256 source nodes: node `128 h + j`. -/
def src (h : Fin 2) (j : Fin 128) : Fin 256 := ⟨128 * h.val + j.val, by have := h.isLt; have := j.isLt; omega⟩

theorem src_val (h : Fin 2) (j : Fin 128) : (src h j).val = 128 * h.val + j.val := rfl

/-- A sum over the 256 source nodes is the sum over the first half plus the sum over the second. -/
theorem sum_halves (g : Fin 256 → EReal) :
    (∑ j : Fin 128, g (src 0 j)) + ∑ j : Fin 128, g (src 1 j) = ∑ j : Fin 256, g j := by
  rw [← Cert.LibBlockSum.sum_fin_blocks_of_eq 2 128 rfl g, Fin.sum_univ_two]
  rfl

/-- What it means for the blocks of one grid point — row block, weight and strength tiles, signal tiles — to hold, at
    local row `r`, local target node `l` and every local source node, the arrays' entries at row `b`, target node `i`
    and the source nodes of half `h`. -/
structure Reads (bp : (⟨2, ![256, 4]⟩ : Shape).Idx → EReal) (w sr xr xi : (⟨2, ![256, 256]⟩ : Shape).Idx → EReal)
    (b i : Fin 256) (h : Fin 2) (r : Fin 64) (l : Fin 128)
    (p : (⟨2, ![64, 4]⟩ : Shape).Idx → EReal) (wt st : (⟨2, ![128, 128]⟩ : Shape).Idx → EReal)
    (xrt xit : (⟨2, ![64, 128]⟩ : Shape).Idx → EReal) : Prop where
  hp : ∀ k : Fin 4, p (ix2 r k) = bp (ix2 b k)
  hw : ∀ j : Fin 128, wt (ix2 l j) = w (ix2 i (src h j))
  hs : ∀ j : Fin 128, st (ix2 l j) = sr (ix2 i (src h j))
  hxr : ∀ j : Fin 128, xrt (ix2 r j) = xr (ix2 b (src h j))
  hxi : ∀ j : Fin 128, xit (ix2 r j) = xi (ix2 b (src h j))

variable {bp : (⟨2, ![256, 4]⟩ : Shape).Idx → EReal} {w sr xr xi : (⟨2, ![256, 256]⟩ : Shape).Idx → EReal}
  {b i : Fin 256} {r : Fin 64} {l : Fin 128}
  {p0 p1 : (⟨2, ![64, 4]⟩ : Shape).Idx → EReal} {w0 w1 s0 s1 : (⟨2, ![128, 128]⟩ : Shape).Idx → EReal}
  {xr0 xr1 xi0 xi1 : (⟨2, ![64, 128]⟩ : Shape).Idx → EReal}

/-- The real part: zero plus the first half's tile sum, plus the second half's, is the sum over all source nodes. -/
theorem two_tiles_R (h0 : Reads bp w sr xr xi b i 0 r l p0 w0 s0 xr0 xi0)
    (h1 : Reads bp w sr xr xi b i 1 r l p1 w1 s1 xr1 xi1) :
    ((0 : EReal) + tileR p0 w0 s0 xr0 xi0 r l) + tileR p1 w1 s1 xr1 xi1 r l = outRat bp w sr xr xi b i := by
  unfold tileR outRat
  rw [zero_add]
  refine Eq.trans ?_ (sum_halves fun j => termR (w (ix2 i j)) (sr (ix2 i j)) (bp (ix2 b (0 : Fin 4)))
    (bp (ix2 b (1 : Fin 4))) (bp (ix2 b (2 : Fin 4))) (bp (ix2 b (3 : Fin 4))) (xr (ix2 b j)) (xi (ix2 b j)))
  refine congrArg₂ (· + ·) (Finset.sum_congr rfl fun j _ => ?_) (Finset.sum_congr rfl fun j _ => ?_)
  · rw [h0.hp, h0.hp, h0.hp, h0.hp, h0.hw, h0.hs, h0.hxr, h0.hxi]
  · rw [h1.hp, h1.hp, h1.hp, h1.hp, h1.hw, h1.hs, h1.hxr, h1.hxi]

/-- The imaginary part, likewise. -/
theorem two_tiles_I (h0 : Reads bp w sr xr xi b i 0 r l p0 w0 s0 xr0 xi0)
    (h1 : Reads bp w sr xr xi b i 1 r l p1 w1 s1 xr1 xi1) :
    ((0 : EReal) + tileI p0 w0 s0 xr0 xi0 r l) + tileI p1 w1 s1 xr1 xi1 r l = outIat bp w sr xr xi b i := by
  unfold tileI outIat
  rw [zero_add]
  refine Eq.trans ?_ (sum_halves fun j => termI (w (ix2 i j)) (sr (ix2 i j)) (bp (ix2 b (0 : Fin 4)))
    (bp (ix2 b (1 : Fin 4))) (bp (ix2 b (2 : Fin 4))) (bp (ix2 b (3 : Fin 4))) (xr (ix2 b j)) (xi (ix2 b j)))
  refine congrArg₂ (· + ·) (Finset.sum_congr rfl fun j _ => ?_) (Finset.sum_congr rfl fun j _ => ?_)
  · rw [h0.hp, h0.hp, h0.hp, h0.hp, h0.hw, h0.hs, h0.hxr, h0.hxi]
  · rw [h1.hp, h1.hp, h1.hp, h1.hp, h1.hw, h1.hs, h1.hxr, h1.hxi]

end Cert.KernelIdeal.MpArr

end
-- ==== Proof.MpArrBlk.lean ====
/-
  Reading the second kernel's input blocks. The grid has 16 points; point `t` works on row block `t / 4` (64 rows),
  target-node block `t / 2 % 2` (128 nodes) and source-node block `t % 2` (128 nodes). Each window's block index at a
  point is decided once over the grid; a block's entry at local coordinates is then the array's entry at
  block index × block size + local coordinate on each axis. Together: the five input blocks of a point hold what one
  tile of the message-passing sum reads.
-/
import proofs.«151001_j80075370267059_2_alg».proof.Proof.Gen.KernelIdeal.Frame
import proofs.«151001_j80075370267059_2_alg».proof.Proof.MpArrSum
import Idealize.ShloMosaic.Lib.Pipeline.Value
import Idealize.ShloMosaic.PureOps.Ideal
import Idealize.ShloMosaic.Lib.ValueIdx

noncomputable section

namespace Cert.KernelIdeal.MpArr

open Idealize.ShloMosaic Idealize.ShloMosaic.TcCoe Idealize.SL.Sem
open Idealize.ShloMosaic.Pipeline (Dat)
open Idealize.ShloMosaic.ValueIdx
open Cert.KernelIdeal Cert.KernelIdeal.Gen

/-- The block index of every window at every point, in closed form: decided over the 16 points. -/
theorem idx_facts : ∀ t : Fin cfg1.N,
    win1_0.index t (0 : Fin 2) = t.val / 4 ∧ win1_0.index t (1 : Fin 2) = 0
    ∧ win1_1.index t (0 : Fin 2) = t.val / 2 % 2 ∧ win1_1.index t (1 : Fin 2) = t.val % 2
    ∧ win1_2.index t (0 : Fin 2) = t.val / 2 % 2 ∧ win1_2.index t (1 : Fin 2) = t.val % 2
    ∧ win1_3.index t (0 : Fin 2) = t.val / 4 ∧ win1_3.index t (1 : Fin 2) = t.val % 2
    ∧ win1_4.index t (0 : Fin 2) = t.val / 4 ∧ win1_4.index t (1 : Fin 2) = t.val % 2
    ∧ win1_5.index t (0 : Fin 2) = t.val / 4 ∧ win1_5.index t (1 : Fin 2) = t.val / 2 % 2
    ∧ win1_6.index t (0 : Fin 2) = t.val / 4 ∧ win1_6.index t (1 : Fin 2) = t.val / 2 % 2 :=
  (by decide +kernel : ∀ t : Fin grid1.N, _)

variable (V : (c : Dev nD) → (b : Ref sig .tc) → Buf (Elt Ideal) ((c : Thread nD τ).loc b))

/-- The row-parameter block: 64 rows of the per-row table, all four columns. -/
theorem iblk1_0_apply (c : Dev nD) (t : Fin cfg1.N) (p : Fin 64) (q : Fin 4) (b : Fin 256) (k : Fin 4)
    (hb : b.val = 64 * (t.val / 4) + p.val) (hk : k.val = q.val) :
    iblk1 (F := Ideal) V c 0 t (ix2 p q) = V c main_v16 (ix2 b k) := by
  unfold iblk1
  rw [View.read_apply]
  show V c main_v16 _ = V c main_v16 _
  refine congrArg (V c main_v16) (funext fun a => Fin.ext ?_)
  obtain ⟨e0, e1, -⟩ := idx_facts t
  match a with
  | ⟨0, _⟩ => show win1_0.index t (0 : Fin 2) * 64 + 1 * p.val = b.val; rw [e0]; omega
  | ⟨1, _⟩ => show win1_0.index t (1 : Fin 2) * 4 + 1 * q.val = k.val; rw [e1]; omega

/-- The weight tile: 128 target nodes by 128 source nodes. -/
theorem iblk1_1_apply (c : Dev nD) (t : Fin cfg1.N) (p q : Fin 128) (i s : Fin 256)
    (hi : i.val = 128 * (t.val / 2 % 2) + p.val) (hs : s.val = 128 * (t.val % 2) + q.val) :
    iblk1 (F := Ideal) V c 1 t (ix2 p q) = V c main_v27 (ix2 i s) := by
  unfold iblk1
  rw [View.read_apply]
  show V c main_v27 _ = V c main_v27 _
  refine congrArg (V c main_v27) (funext fun a => Fin.ext ?_)
  obtain ⟨-, -, e0, e1, -⟩ := idx_facts t
  match a with
  | ⟨0, _⟩ => show win1_1.index t (0 : Fin 2) * 128 + 1 * p.val = i.val; rw [e0]; omega
  | ⟨1, _⟩ => show win1_1.index t (1 : Fin 2) * 128 + 1 * q.val = s.val; rw [e1]; omega

/-- The strength tile: 128 target nodes by 128 source nodes. -/
theorem iblk1_2_apply (c : Dev nD) (t : Fin cfg1.N) (p q : Fin 128) (i s : Fin 256)
    (hi : i.val = 128 * (t.val / 2 % 2) + p.val) (hs : s.val = 128 * (t.val % 2) + q.val) :
    iblk1 (F := Ideal) V c 2 t (ix2 p q) = V c main_v28 (ix2 i s) := by
  unfold iblk1
  rw [View.read_apply]
  show V c main_v28 _ = V c main_v28 _
  refine congrArg (V c main_v28) (funext fun a => Fin.ext ?_)
  obtain ⟨-, -, -, -, e0, e1, -⟩ := idx_facts t
  match a with
  | ⟨0, _⟩ => show win1_2.index t (0 : Fin 2) * 128 + 1 * p.val = i.val; rw [e0]; omega
  | ⟨1, _⟩ => show win1_2.index t (1 : Fin 2) * 128 + 1 * q.val = s.val; rw [e1]; omega

/-- The first signal channel's tile: 64 rows by 128 source nodes. -/
theorem iblk1_3_apply (c : Dev nD) (t : Fin cfg1.N) (p : Fin 64) (q : Fin 128) (b s : Fin 256)
    (hb : b.val = 64 * (t.val / 4) + p.val) (hs : s.val = 128 * (t.val % 2) + q.val) :
    iblk1 (F := Ideal) V c 3 t (ix2 p q) = V c main_v30 (ix2 b s) := by
  unfold iblk1
  rw [View.read_apply]
  show V c main_v30 _ = V c main_v30 _
  refine congrArg (V c main_v30) (funext fun a => Fin.ext ?_)
  obtain ⟨-, -, -, -, -, -, e0, e1, -⟩ := idx_facts t
  match a with
  | ⟨0, _⟩ => show win1_3.index t (0 : Fin 2) * 64 + 1 * p.val = b.val; rw [e0]; omega
  | ⟨1, _⟩ => show win1_3.index t (1 : Fin 2) * 128 + 1 * q.val = s.val; rw [e1]; omega

/-- The second signal channel's tile: 64 rows by 128 source nodes. -/
theorem iblk1_4_apply (c : Dev nD) (t : Fin cfg1.N) (p : Fin 64) (q : Fin 128) (b s : Fin 256)
    (hb : b.val = 64 * (t.val / 4) + p.val) (hs : s.val = 128 * (t.val % 2) + q.val) :
    iblk1 (F := Ideal) V c 4 t (ix2 p q) = V c main_v32 (ix2 b s) := by
  unfold iblk1
  rw [View.read_apply]
  show V c main_v32 _ = V c main_v32 _
  refine congrArg (V c main_v32) (funext fun a => Fin.ext ?_)
  obtain ⟨-, -, -, -, -, -, -, -, e0, e1, -⟩ := idx_facts t
  match a with
  | ⟨0, _⟩ => show win1_4.index t (0 : Fin 2) * 64 + 1 * p.val = b.val; rw [e0]; omega
  | ⟨1, _⟩ => show win1_4.index t (1 : Fin 2) * 128 + 1 * q.val = s.val; rw [e1]; omega

/-- The five input blocks of point `t` hold, at local row `r` and local target node `l`, what one tile of the sum reads
    of the arrays at row `b = 64 (t / 4) + r`, target node `i = 128 (t / 2 % 2) + l` and the source nodes of half
    `t % 2`. -/
theorem reads_at (c : Dev nD) (t : Fin cfg1.N) (h : Fin 2) (hh : h.val = t.val % 2) (r : Fin 64) (l : Fin 128)
    (b i : Fin 256) (hb : b.val = 64 * (t.val / 4) + r.val) (hi : i.val = 128 * (t.val / 2 % 2) + l.val) :
    Reads (V c main_v16) (V c main_v27) (V c main_v28) (V c main_v30) (V c main_v32) b i h r l
      (iblk1 (F := Ideal) V c 0 t) (iblk1 (F := Ideal) V c 1 t) (iblk1 (F := Ideal) V c 2 t)
      (iblk1 (F := Ideal) V c 3 t) (iblk1 (F := Ideal) V c 4 t) where
  hp k := iblk1_0_apply V c t r k b k hb rfl
  hw j := iblk1_1_apply V c t l j i (src h j) hi (by rw [src_val, hh])
  hs j := iblk1_2_apply V c t l j i (src h j) hi (by rw [src_val, hh])
  hxr j := iblk1_3_apply V c t r j b (src h j) hb (by rw [src_val, hh])
  hxi j := iblk1_4_apply V c t r j b (src h j) hb (by rw [src_val, hh])

end Cert.KernelIdeal.MpArr

end
-- ==== Proof.MpArrFinal.lean ====
/-
  From blocks to arrays for the second kernel's two results. Both outputs are accumulated over the two source-node
  blocks of a (row block, target-node block) pair: the even point stores zero plus its tile sum, the odd point adds its
  own tile sum to what the even point left and is the one that is written back. The chain is two points long, so no
  induction over the grid is needed. The two tile sums over 128 source nodes each make the sum over all 256, and the
  odd points' blocks cover the 256 × 256 arrays. The body's four case values are taken as hypotheses.
-/
import proofs.«151001_j80075370267059_2_alg».proof.Proof.Gen.KernelIdeal.Frame
import proofs.«151001_j80075370267059_2_alg».proof.Proof.MpSpec
import proofs.«151001_j80075370267059_2_alg».proof.Proof.MpArrSum
import proofs.«151001_j80075370267059_2_alg».proof.Proof.MpArrBlk
import Idealize.ShloMosaic.Lib.Pipeline.Value
import Idealize.ShloMosaic.PureOps.Ideal
import Idealize.ShloMosaic.Lib.ValueIdx

noncomputable section

namespace Cert.KernelIdeal.MpArr

open Idealize.ShloMosaic Idealize.ShloMosaic.TcCoe Idealize.SL.Sem
open Idealize.ShloMosaic.Pipeline (Dat)
open Idealize.ShloMosaic.ValueIdx
open Cert.KernelIdeal Cert.KernelIdeal.Gen

/-- What the body leaves in the two outputs' staging buffers, in its two cases, entry by entry: at an even point
    (the reset) zero plus the point's tile sum, at an odd point the buffer's running contents plus the tile sum. -/
structure BodyCases : Prop where
  hA5 : ∀ (c : Dev nD) (i : grid1.Coords) (a3 : Memref sig .tc .vmem S64x4 .f32) (h3 : a3.IsWhole) (a4 : Memref sig .tc .vmem S128x128 .f32) (h4 : a4.IsWhole) (a5 : Memref sig .tc .vmem S128x128 .f32) (h5 : a5.IsWhole) (a6 : Memref sig .tc .vmem S64x128 .f32) (h6 : a6.IsWhole) (a7 : Memref sig .tc .vmem S64x128 .f32) (h7 : a7.IsWhole) (a8 : Memref sig .tc .vmem S64x128 .f32) (h8 : a8.IsWhole) (a9 : Memref sig .tc .vmem S64x128 .f32) (h9 : a9.IsWhole) (hc : cond1_0 i) (x0 : Vec Ideal S64x4 .f32) (x1 x2 : Vec Ideal S128x128 .f32) (x3 x4 : Vec Ideal S64x128 .f32) (r : Fin 64) (l : Fin 128),
    out1_A_5 (F := Ideal) c i a3 h3 a4 h4 a5 h5 a6 h6 a7 h7 a8 h8 a9 h9 hc x0 x1 x2 x3 x4 (ValueIdx.ix2 r l) = (0 : EReal) + Cert.MpSpec.tileR x0 x1 x2 x3 x4 r l
  hA6 : ∀ (c : Dev nD) (i : grid1.Coords) (a3 : Memref sig .tc .vmem S64x4 .f32) (h3 : a3.IsWhole) (a4 : Memref sig .tc .vmem S128x128 .f32) (h4 : a4.IsWhole) (a5 : Memref sig .tc .vmem S128x128 .f32) (h5 : a5.IsWhole) (a6 : Memref sig .tc .vmem S64x128 .f32) (h6 : a6.IsWhole) (a7 : Memref sig .tc .vmem S64x128 .f32) (h7 : a7.IsWhole) (a8 : Memref sig .tc .vmem S64x128 .f32) (h8 : a8.IsWhole) (a9 : Memref sig .tc .vmem S64x128 .f32) (h9 : a9.IsWhole) (hc : cond1_0 i) (x0 : Vec Ideal S64x4 .f32) (x1 x2 : Vec Ideal S128x128 .f32) (x3 x4 : Vec Ideal S64x128 .f32) (r : Fin 64) (l : Fin 128),
    out1_A_6 (F := Ideal) c i a3 h3 a4 h4 a5 h5 a6 h6 a7 h7 a8 h8 a9 h9 hc x0 x1 x2 x3 x4 (ValueIdx.ix2 r l) = (0 : EReal) + Cert.MpSpec.tileI x0 x1 x2 x3 x4 r l
  hB5 : ∀ (c : Dev nD) (i : grid1.Coords) (a3 : Memref sig .tc .vmem S64x4 .f32) (h3 : a3.IsWhole) (a4 : Memref sig .tc .vmem S128x128 .f32) (h4 : a4.IsWhole) (a5 : Memref sig .tc .vmem S128x128 .f32) (h5 : a5.IsWhole) (a6 : Memref sig .tc .vmem S64x128 .f32) (h6 : a6.IsWhole) (a7 : Memref sig .tc .vmem S64x128 .f32) (h7 : a7.IsWhole) (a8 : Memref sig .tc .vmem S64x128 .f32) (h8 : a8.IsWhole) (a9 : Memref sig .tc .vmem S64x128 .f32) (h9 : a9.IsWhole) (hc : ¬cond1_0 i) (x0 : Vec Ideal S64x4 .f32) (x1 x2 : Vec Ideal S128x128 .f32) (x3 x4 : Vec Ideal S64x128 .f32) (xo5 xo6 : Vec Ideal S64x128 .f32) (r : Fin 64) (l : Fin 128),
    out1_B_5 (F := Ideal) c i a3 h3 a4 h4 a5 h5 a6 h6 a7 h7 a8 h8 a9 h9 hc x0 x1 x2 x3 x4 xo5 xo6 (ValueIdx.ix2 r l) = xo5 (ValueIdx.ix2 r l) + Cert.MpSpec.tileR x0 x1 x2 x3 x4 r l
  hB6 : ∀ (c : Dev nD) (i : grid1.Coords) (a3 : Memref sig .tc .vmem S64x4 .f32) (h3 : a3.IsWhole) (a4 : Memref sig .tc .vmem S128x128 .f32) (h4 : a4.IsWhole) (a5 : Memref sig .tc .vmem S128x128 .f32) (h5 : a5.IsWhole) (a6 : Memref sig .tc .vmem S64x128 .f32) (h6 : a6.IsWhole) (a7 : Memref sig .tc .vmem S64x128 .f32) (h7 : a7.IsWhole) (a8 : Memref sig .tc .vmem S64x128 .f32) (h8 : a8.IsWhole) (a9 : Memref sig .tc .vmem S64x128 .f32) (h9 : a9.IsWhole) (hc : ¬cond1_0 i) (x0 : Vec Ideal S64x4 .f32) (x1 x2 : Vec Ideal S128x128 .f32) (x3 x4 : Vec Ideal S64x128 .f32) (xo5 xo6 : Vec Ideal S64x128 .f32) (r : Fin 64) (l : Fin 128),
    out1_B_6 (F := Ideal) c i a3 h3 a4 h4 a5 h5 a6 h6 a7 h7 a8 h8 a9 h9 hc x0 x1 x2 x3 x4 xo5 xo6 (ValueIdx.ix2 r l) = xo6 (ValueIdx.ix2 r l) + Cert.MpSpec.tileI x0 x1 x2 x3 x4 r l

/-- The point before `t` in grid order. -/
abbrev before (t : Fin cfg1.N) : Fin cfg1.N := ⟨t.val - 1, Nat.lt_of_le_of_lt (Nat.sub_le _ _) t.isLt⟩

section
variable (V : (c : Dev nD) → (b : Ref sig .tc) → Buf (Elt Ideal) ((c : Thread nD τ).loc b))

/-- After an odd point, output 5's staging buffer holds, at local row `r` and local target node `l`, zero plus the
    tile sum of the even point before, plus the tile sum of the point itself: the accumulation is two points long. -/
theorem outs5_odd (hb : BodyCases) (c : Dev nD) (t : Fin cfg1.N) (ho : t.val % 2 = 1) (r : Fin 64) (l : Fin 128) :
    (outsAt1 (F := Ideal) V c t.val t.isLt).1 (ix2 r l)
      = ((0 : EReal) + Cert.MpSpec.tileR (iblk1 (F := Ideal) V c 0 (before t)) (iblk1 (F := Ideal) V c 1 (before t)) (iblk1 (F := Ideal) V c 2 (before t)) (iblk1 (F := Ideal) V c 3 (before t)) (iblk1 (F := Ideal) V c 4 (before t)) r l)
        + Cert.MpSpec.tileR (iblk1 (F := Ideal) V c 0 t) (iblk1 (F := Ideal) V c 1 t) (iblk1 (F := Ideal) V c 2 t) (iblk1 (F := Ideal) V c 3 t) (iblk1 (F := Ideal) V c 4 t) r l := by
  have hB : ¬t.val % 2 = 0 := by omega
  have hA : (before t).val % 2 = 0 := by show (t.val - 1) % 2 = 0; omega
  refine (congrFun (congrArg Prod.fst (outsAt1_B V c t hB)) (ix2 r l)).trans ?_
  refine (hb.hB5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => hB ((hcond1_0 t).mp h))
    (iblk1 (F := Ideal) V c 0 t) (iblk1 (F := Ideal) V c 1 t) (iblk1 (F := Ideal) V c 2 t) (iblk1 (F := Ideal) V c 3 t) (iblk1 (F := Ideal) V c 4 t)
    (outsAt1 (F := Ideal) V c (t.val - 1) (Nat.lt_of_le_of_lt (Nat.sub_le _ _) t.isLt)).1
    (outsAt1 (F := Ideal) V c (t.val - 1) (Nat.lt_of_le_of_lt (Nat.sub_le _ _) t.isLt)).2 r l).trans ?_
  refine congrArg (· + Cert.MpSpec.tileR (iblk1 (F := Ideal) V c 0 t) (iblk1 (F := Ideal) V c 1 t) (iblk1 (F := Ideal) V c 2 t) (iblk1 (F := Ideal) V c 3 t) (iblk1 (F := Ideal) V c 4 t) r l) ?_
  refine (congrFun (congrArg Prod.fst (outsAt1_A V c (before t) hA)) (ix2 r l)).trans ?_
  exact hb.hA5 c (grid1.coords (before t)) (ms1_0 (before t)) (hs1_0 (before t)) (ms1_1 (before t)) (hs1_1 (before t)) (ms1_2 (before t)) (hs1_2 (before t)) (ms1_3 (before t)) (hs1_3 (before t)) (ms1_4 (before t)) (hs1_4 (before t)) (ms1_5 (before t)) (hs1_5 (before t)) (ms1_6 (before t)) (hs1_6 (before t)) ((hcond1_0 (before t)).mpr hA)
    (iblk1 (F := Ideal) V c 0 (before t)) (iblk1 (F := Ideal) V c 1 (before t)) (iblk1 (F := Ideal) V c 2 (before t)) (iblk1 (F := Ideal) V c 3 (before t)) (iblk1 (F := Ideal) V c 4 (before t)) r l

/-- After an odd point, output 6's staging buffer holds, at local row `r` and local target node `l`, zero plus the
    tile sum of the even point before, plus the tile sum of the point itself: the accumulation is two points long. -/
theorem outs6_odd (hb : BodyCases) (c : Dev nD) (t : Fin cfg1.N) (ho : t.val % 2 = 1) (r : Fin 64) (l : Fin 128) :
    (outsAt1 (F := Ideal) V c t.val t.isLt).2 (ix2 r l)
      = ((0 : EReal) + Cert.MpSpec.tileI (iblk1 (F := Ideal) V c 0 (before t)) (iblk1 (F := Ideal) V c 1 (before t)) (iblk1 (F := Ideal) V c 2 (before t)) (iblk1 (F := Ideal) V c 3 (before t)) (iblk1 (F := Ideal) V c 4 (before t)) r l)
        + Cert.MpSpec.tileI (iblk1 (F := Ideal) V c 0 t) (iblk1 (F := Ideal) V c 1 t) (iblk1 (F := Ideal) V c 2 t) (iblk1 (F := Ideal) V c 3 t) (iblk1 (F := Ideal) V c 4 t) r l := by
  have hB : ¬t.val % 2 = 0 := by omega
  have hA : (before t).val % 2 = 0 := by show (t.val - 1) % 2 = 0; omega
  refine (congrFun (congrArg Prod.snd (outsAt1_B V c t hB)) (ix2 r l)).trans ?_
  refine (hb.hB6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => hB ((hcond1_0 t).mp h))
    (iblk1 (F := Ideal) V c 0 t) (iblk1 (F := Ideal) V c 1 t) (iblk1 (F := Ideal) V c 2 t) (iblk1 (F := Ideal) V c 3 t) (iblk1 (F := Ideal) V c 4 t)
    (outsAt1 (F := Ideal) V c (t.val - 1) (Nat.lt_of_le_of_lt (Nat.sub_le _ _) t.isLt)).1
    (outsAt1 (F := Ideal) V c (t.val - 1) (Nat.lt_of_le_of_lt (Nat.sub_le _ _) t.isLt)).2 r l).trans ?_
  refine congrArg (· + Cert.MpSpec.tileI (iblk1 (F := Ideal) V c 0 t) (iblk1 (F := Ideal) V c 1 t) (iblk1 (F := Ideal) V c 2 t) (iblk1 (F := Ideal) V c 3 t) (iblk1 (F := Ideal) V c 4 t) r l) ?_
  refine (congrFun (congrArg Prod.snd (outsAt1_A V c (before t) hA)) (ix2 r l)).trans ?_
  exact hb.hA6 c (grid1.coords (before t)) (ms1_0 (before t)) (hs1_0 (before t)) (ms1_1 (before t)) (hs1_1 (before t)) (ms1_2 (before t)) (hs1_2 (before t)) (ms1_3 (before t)) (hs1_3 (before t)) (ms1_4 (before t)) (hs1_4 (before t)) (ms1_5 (before t)) (hs1_5 (before t)) (ms1_6 (before t)) (hs1_6 (before t)) ((hcond1_0 (before t)).mpr hA)
    (iblk1 (F := Ideal) V c 0 (before t)) (iblk1 (F := Ideal) V c 1 (before t)) (iblk1 (F := Ideal) V c 2 (before t)) (iblk1 (F := Ideal) V c 3 (before t)) (iblk1 (F := Ideal) V c 4 (before t)) r l

/-- An index of the array is in point `t`'s block of output 5 iff each coordinate is in the block's range on its axis. -/
theorem mem_blk5 (t : Fin cfg1.N) (i : S256x256.Idx) :
    i ∈ ((cfg1.win 5).blk t).view.set ↔ ∀ a : Fin 2, win1_5.index t a * S64x128.size a ≤ (i a).val
      ∧ (i a).val < win1_5.index t a * S64x128.size a + S64x128.size a := by
  show i ∈ ((View.whole main_v33_0).slice (win1_5.rect t)).set ↔ _
  rw [View.set_slice_whole, Rect.mem_set_unit]
  exact Iff.rfl

/-- What an odd point writes back of output 5 is its block of the stage's value: row `64 (t / 4) + r`, target node
    `128 (t / 2 % 2) + l`, summed over all 256 source nodes. -/
theorem flushed5_eq (hb : BodyCases) (c : Dev nD) (t : Fin cfg1.N) (hf : (cfg1.win 5).flush t = true) :
    (dat1 (F := Ideal) V c).flushed 5 t
      = ((cfg1.win 5).blk t).view.read (Elt Ideal) (Cert.MpSpec.outR (V c main_v16) (V c main_v27) (V c main_v28) (V c main_v30) (V c main_v32)) := by
  have ho : t.val % 2 = 1 := (flush1_5 t).mp hf
  have hN : t.val < 16 := lt_of_lt_of_eq t.isLt N_1
  show (cfg1.win 5).cut (grid1.coords t) ((dat1 (F := Ideal) V c).after 5 t) = _
  rw [after1_5]
  funext j
  obtain ⟨r, l, rfl⟩ : ∃ (r : Fin 64) (l : Fin 128), j = ix2 r l := ⟨j 0, j 1, eq_ix2 j⟩
  rw [View.read_apply]
  have hbv : 64 * (t.val / 4) + r.val < 256 := by have := r.isLt; omega
  have hiv : 128 * (t.val / 2 % 2) + l.val < 256 := by have := l.isLt; omega
  have hemb : ((cfg1.win 5).blk t).view.emb (ix2 r l)
      = (ix2 (⟨64 * (t.val / 4) + r.val, hbv⟩ : Fin 256) (⟨128 * (t.val / 2 % 2) + l.val, hiv⟩ : Fin 256) : S256x256.Idx) := by
    obtain ⟨-, -, -, -, -, -, -, -, -, -, e50, e51, e60, e61⟩ := idx_facts t
    funext a
    apply Fin.ext
    match a with
    | ⟨0, _⟩ => show win1_5.index t (0 : Fin 2) * 64 + 1 * r.val = 64 * (t.val / 4) + r.val; rw [e50]; omega
    | ⟨1, _⟩ => show win1_5.index t (1 : Fin 2) * 128 + 1 * l.val = 128 * (t.val / 2 % 2) + l.val; rw [e51]; omega
  rw [hemb]
  show (outsAt1 (F := Ideal) V c t.val t.isLt).1 (ix2 r l)
    = Cert.MpSpec.outRat (V c main_v16) (V c main_v27) (V c main_v28) (V c main_v30) (V c main_v32) (⟨64 * (t.val / 4) + r.val, hbv⟩ : Fin 256) (⟨128 * (t.val / 2 % 2) + l.val, hiv⟩ : Fin 256)
  refine (outs5_odd V hb c t ho r l).trans ?_
  refine two_tiles_R (reads_at V c (before t) 0 ?_ r l _ _ ?_ ?_) (reads_at V c t 1 ?_ r l _ _ rfl rfl)
  · show (0 : Fin 2).val = (t.val - 1) % 2; rw [Fin.val_zero]; omega
  · show 64 * (t.val / 4) + r.val = 64 * ((t.val - 1) / 4) + r.val; omega
  · show 128 * (t.val / 2 % 2) + l.val = 128 * ((t.val - 1) / 2 % 2) + l.val; omega
  · show (1 : Fin 2).val = t.val % 2; rw [Fin.val_one]; omega

/-- An index of the array is in point `t`'s block of output 6 iff each coordinate is in the block's range on its axis. -/
theorem mem_blk6 (t : Fin cfg1.N) (i : S256x256.Idx) :
    i ∈ ((cfg1.win 6).blk t).view.set ↔ ∀ a : Fin 2, win1_6.index t a * S64x128.size a ≤ (i a).val
      ∧ (i a).val < win1_6.index t a * S64x128.size a + S64x128.size a := by
  show i ∈ ((View.whole main_v33_1).slice (win1_6.rect t)).set ↔ _
  rw [View.set_slice_whole, Rect.mem_set_unit]
  exact Iff.rfl

/-- What an odd point writes back of output 6 is its block of the stage's value: row `64 (t / 4) + r`, target node
    `128 (t / 2 % 2) + l`, summed over all 256 source nodes. -/
theorem flushed6_eq (hb : BodyCases) (c : Dev nD) (t : Fin cfg1.N) (hf : (cfg1.win 6).flush t = true) :
    (dat1 (F := Ideal) V c).flushed 6 t
      = ((cfg1.win 6).blk t).view.read (Elt Ideal) (Cert.MpSpec.outI (V c main_v16) (V c main_v27) (V c main_v28) (V c main_v30) (V c main_v32)) := by
  have ho : t.val % 2 = 1 := (flush1_6 t).mp hf
  have hN : t.val < 16 := lt_of_lt_of_eq t.isLt N_1
  show (cfg1.win 6).cut (grid1.coords t) ((dat1 (F := Ideal) V c).after 6 t) = _
  rw [after1_6]
  funext j
  obtain ⟨r, l, rfl⟩ : ∃ (r : Fin 64) (l : Fin 128), j = ix2 r l := ⟨j 0, j 1, eq_ix2 j⟩
  rw [View.read_apply]
  have hbv : 64 * (t.val / 4) + r.val < 256 := by have := r.isLt; omega
  have hiv : 128 * (t.val / 2 % 2) + l.val < 256 := by have := l.isLt; omega
  have hemb : ((cfg1.win 6).blk t).view.emb (ix2 r l)
      = (ix2 (⟨64 * (t.val / 4) + r.val, hbv⟩ : Fin 256) (⟨128 * (t.val / 2 % 2) + l.val, hiv⟩ : Fin 256) : S256x256.Idx) := by
    obtain ⟨-, -, -, -, -, -, -, -, -, -, e50, e51, e60, e61⟩ := idx_facts t
    funext a
    apply Fin.ext
    match a with
    | ⟨0, _⟩ => show win1_6.index t (0 : Fin 2) * 64 + 1 * r.val = 64 * (t.val / 4) + r.val; rw [e60]; omega
    | ⟨1, _⟩ => show win1_6.index t (1 : Fin 2) * 128 + 1 * l.val = 128 * (t.val / 2 % 2) + l.val; rw [e61]; omega
  rw [hemb]
  show (outsAt1 (F := Ideal) V c t.val t.isLt).2 (ix2 r l)
    = Cert.MpSpec.outIat (V c main_v16) (V c main_v27) (V c main_v28) (V c main_v30) (V c main_v32) (⟨64 * (t.val / 4) + r.val, hbv⟩ : Fin 256) (⟨128 * (t.val / 2 % 2) + l.val, hiv⟩ : Fin 256)
  refine (outs6_odd V hb c t ho r l).trans ?_
  refine two_tiles_I (reads_at V c (before t) 0 ?_ r l _ _ ?_ ?_) (reads_at V c t 1 ?_ r l _ _ rfl rfl)
  · show (0 : Fin 2).val = (t.val - 1) % 2; rw [Fin.val_zero]; omega
  · show 64 * (t.val / 4) + r.val = 64 * ((t.val - 1) / 4) + r.val; omega
  · show 128 * (t.val / 2 % 2) + l.val = 128 * ((t.val - 1) / 2 % 2) + l.val; omega
  · show (1 : Fin 2).val = t.val % 2; rw [Fin.val_one]; omega

/-- Every entry (b, i) of output 5's array is in the block of an odd point, `4 (b / 64) + 2 (i / 128) + 1`. -/
theorem cover5 (i : S256x256.Idx) :
    ∃ t : Fin cfg1.N, (cfg1.win 5).flush t = true ∧ i ∈ ((cfg1.win 5).blk t).view.set := by
  have h0 : (i 0 : Nat) < 256 := (i 0).isLt
  have h1 : (i 1 : Nat) < 256 := (i 1).isLt
  have ht : 4 * ((i 0 : Nat) / 64) + 2 * ((i 1 : Nat) / 128) + 1 < cfg1.N := by
    show _ < grid1.N; rw [N_1]; omega
  refine ⟨⟨4 * ((i 0 : Nat) / 64) + 2 * ((i 1 : Nat) / 128) + 1, ht⟩,
    (flush1_5 _).mpr (by show (4 * ((i 0 : Nat) / 64) + 2 * ((i 1 : Nat) / 128) + 1) % 2 = 1; omega), ?_⟩
  rw [mem_blk5]
  obtain ⟨-, -, -, -, -, -, -, -, -, -, e50, e51, e60, e61⟩ :=
    idx_facts ⟨4 * ((i 0 : Nat) / 64) + 2 * ((i 1 : Nat) / 128) + 1, ht⟩
  intro a
  match a with
  | ⟨0, _⟩ =>
    show win1_5.index _ (0 : Fin 2) * 64 ≤ (i 0 : Nat) ∧ (i 0 : Nat) < win1_5.index _ (0 : Fin 2) * 64 + 64
    rw [e50]
    show (4 * ((i 0 : Nat) / 64) + 2 * ((i 1 : Nat) / 128) + 1) / 4 * 64 ≤ (i 0 : Nat)
      ∧ (i 0 : Nat) < (4 * ((i 0 : Nat) / 64) + 2 * ((i 1 : Nat) / 128) + 1) / 4 * 64 + 64
    omega
  | ⟨1, _⟩ =>
    show win1_5.index _ (1 : Fin 2) * 128 ≤ (i 1 : Nat) ∧ (i 1 : Nat) < win1_5.index _ (1 : Fin 2) * 128 + 128
    rw [e51]
    show (4 * ((i 0 : Nat) / 64) + 2 * ((i 1 : Nat) / 128) + 1) / 2 % 2 * 128 ≤ (i 1 : Nat)
      ∧ (i 1 : Nat) < (4 * ((i 0 : Nat) / 64) + 2 * ((i 1 : Nat) / 128) + 1) / 2 % 2 * 128 + 128
    omega

/-- Every entry (b, i) of output 6's array is in the block of an odd point, `4 (b / 64) + 2 (i / 128) + 1`. -/
theorem cover6 (i : S256x256.Idx) :
    ∃ t : Fin cfg1.N, (cfg1.win 6).flush t = true ∧ i ∈ ((cfg1.win 6).blk t).view.set := by
  have h0 : (i 0 : Nat) < 256 := (i 0).isLt
  have h1 : (i 1 : Nat) < 256 := (i 1).isLt
  have ht : 4 * ((i 0 : Nat) / 64) + 2 * ((i 1 : Nat) / 128) + 1 < cfg1.N := by
    show _ < grid1.N; rw [N_1]; omega
  refine ⟨⟨4 * ((i 0 : Nat) / 64) + 2 * ((i 1 : Nat) / 128) + 1, ht⟩,
    (flush1_6 _).mpr (by show (4 * ((i 0 : Nat) / 64) + 2 * ((i 1 : Nat) / 128) + 1) % 2 = 1; omega), ?_⟩
  rw [mem_blk6]
  obtain ⟨-, -, -, -, -, -, -, -, -, -, e50, e51, e60, e61⟩ :=
    idx_facts ⟨4 * ((i 0 : Nat) / 64) + 2 * ((i 1 : Nat) / 128) + 1, ht⟩
  intro a
  match a with
  | ⟨0, _⟩ =>
    show win1_6.index _ (0 : Fin 2) * 64 ≤ (i 0 : Nat) ∧ (i 0 : Nat) < win1_6.index _ (0 : Fin 2) * 64 + 64
    rw [e60]
    show (4 * ((i 0 : Nat) / 64) + 2 * ((i 1 : Nat) / 128) + 1) / 4 * 64 ≤ (i 0 : Nat)
      ∧ (i 0 : Nat) < (4 * ((i 0 : Nat) / 64) + 2 * ((i 1 : Nat) / 128) + 1) / 4 * 64 + 64
    omega
  | ⟨1, _⟩ =>
    show win1_6.index _ (1 : Fin 2) * 128 ≤ (i 1 : Nat) ∧ (i 1 : Nat) < win1_6.index _ (1 : Fin 2) * 128 + 128
    rw [e61]
    show (4 * ((i 0 : Nat) / 64) + 2 * ((i 1 : Nat) / 128) + 1) / 2 % 2 * 128 ≤ (i 1 : Nat)
      ∧ (i 1 : Nat) < (4 * ((i 0 : Nat) / 64) + 2 * ((i 1 : Nat) / 128) + 1) / 2 % 2 * 128 + 128
    omega

end

/-- The array of the real part ends holding the stage's value everywhere: every odd point writes back its block of it,
    and the odd points' blocks cover the array. -/
theorem final5 (hb : BodyCases) (V : (c : Dev nD) → (b : Ref sig .tc) → Buf (Elt Ideal) ((c : Thread nD τ).loc b))
    (c : Dev nD) :
    (dat1 (F := Ideal) V c).arrAt 5 cfg1.N = Cert.MpSpec.outR (V c main_v16) (V c main_v27) (V c main_v28) (V c main_v30) (V c main_v32) :=
  (dat1 (F := Ideal) V c).arrAt_eq_of_cover 5 (Cert.MpSpec.outR (V c main_v16) (V c main_v27) (V c main_v28) (V c main_v30) (V c main_v32))
    (fun t hf => flushed5_eq V hb c t hf) cover5

/-- The array of the imaginary part ends holding the stage's value everywhere: every odd point writes back its block of it,
    and the odd points' blocks cover the array. -/
theorem final6 (hb : BodyCases) (V : (c : Dev nD) → (b : Ref sig .tc) → Buf (Elt Ideal) ((c : Thread nD τ).loc b))
    (c : Dev nD) :
    (dat1 (F := Ideal) V c).arrAt 6 cfg1.N = Cert.MpSpec.outI (V c main_v16) (V c main_v27) (V c main_v28) (V c main_v30) (V c main_v32) :=
  (dat1 (F := Ideal) V c).arrAt_eq_of_cover 6 (Cert.MpSpec.outI (V c main_v16) (V c main_v27) (V c main_v28) (V c main_v30) (V c main_v32))
    (fun t hf => flushed6_eq V hb c t hf) cover6

end Cert.KernelIdeal.MpArr

end
-- ==== Proof.MpBodyOps.lean ====
/-
  The vector operations the message-passing body applies, each read at ONE index given by coordinates, at the
  extended reals. A layout operation (a broadcast along unit axes, a cast that adds a unit axis, a one-column
  slice) reads its operand at one index; a pointwise operation reads through; the sum along the last axis of an
  [8, 128, 128] block at (row, node) is the sum over the last coordinate.
-/
import proofs.«151001_j80075370267059_2_alg».proof.KernelIdeal
import Idealize.ShloMosaic.Lib.ValueLayout
import Idealize.ShloMosaic.PureOps.Ideal.Laws

noncomputable section

namespace Cert.KernelIdeal.MpBody

open Idealize.ShloMosaic Idealize.ShloMosaic.ValueIdx

section Layout
variable {α : Type}

/-- One [128, 128] plane broadcast over 8 rows reads the plane. -/
theorem bcast_plane (v : (⟨3, ![1, 128, 128]⟩ : Shape).Idx → α)
    (h : (⟨3, ![1, 128, 128]⟩ : Shape).Broadcasts ⟨3, ![8, 128, 128]⟩) (r : Fin 8) (l j : Fin 128) :
    broadcastTo ⟨3, ![8, 128, 128]⟩ v h (ix3 r l j) = v (ix3 (0 : Fin 1) l j) :=
  broadcastTo_apply v h _ _ fun a => by
    match a with
    | ⟨0, _⟩ => rfl
    | ⟨1, _⟩ => rfl
    | ⟨2, _⟩ => rfl

/-- A per-row scalar broadcast over a plane reads the row's scalar. -/
theorem bcast_row (v : (⟨3, ![8, 1, 1]⟩ : Shape).Idx → α)
    (h : (⟨3, ![8, 1, 1]⟩ : Shape).Broadcasts ⟨3, ![8, 128, 128]⟩) (r : Fin 8) (l j : Fin 128) :
    broadcastTo ⟨3, ![8, 128, 128]⟩ v h (ix3 r l j) = v (ix3 r (0 : Fin 1) (0 : Fin 1)) :=
  broadcastTo_apply v h _ _ fun a => by
    match a with
    | ⟨0, _⟩ => rfl
    | ⟨1, _⟩ => rfl
    | ⟨2, _⟩ => rfl

/-- A per-(row, source) value broadcast over the target nodes reads it. -/
theorem bcast_src (v : (⟨3, ![8, 1, 128]⟩ : Shape).Idx → α)
    (h : (⟨3, ![8, 1, 128]⟩ : Shape).Broadcasts ⟨3, ![8, 128, 128]⟩) (r : Fin 8) (l j : Fin 128) :
    broadcastTo ⟨3, ![8, 128, 128]⟩ v h (ix3 r l j) = v (ix3 r (0 : Fin 1) j) :=
  broadcastTo_apply v h _ _ fun a => by
    match a with
    | ⟨0, _⟩ => rfl
    | ⟨1, _⟩ => rfl
    | ⟨2, _⟩ => rfl

/-- [128, 128] viewed [1, 128, 128]. -/
theorem cast_plane (v : (⟨2, ![128, 128]⟩ : Shape).Idx → α)
    (h : (⟨2, ![128, 128]⟩ : Shape).ShapeCasts ⟨3, ![1, 128, 128]⟩) (u : Fin 1) (l j : Fin 128) :
    shapeCast ⟨3, ![1, 128, 128]⟩ v h (ix3 u l j) = v (ix2 l j) :=
  shapeCast_ab_1ab_apply v h u l j

/-- [8, 1] viewed [8, 1, 1]. -/
theorem cast_col (v : (⟨2, ![8, 1]⟩ : Shape).Idx → α)
    (h : (⟨2, ![8, 1]⟩ : Shape).ShapeCasts ⟨3, ![8, 1, 1]⟩) (r : Fin 8) (u u' : Fin 1) :
    shapeCast ⟨3, ![8, 1, 1]⟩ v h (ix3 r u u') = v (ix2 r (0 : Fin 1)) :=
  shapeCast_apply v h _ _ (by
    have hu : u.val = 0 := by omega
    have hu' : u'.val = 0 := by omega
    rw [Shape.rowMajor_val_three, Shape.rowMajor_val_two]
    show r.val * 1 + 0 = (r.val * 1 + u.val) * 1 + u'.val
    rw [hu, hu']; omega)

/-- [8, 128] viewed [8, 1, 128]. -/
theorem cast_src (v : (⟨2, ![8, 128]⟩ : Shape).Idx → α)
    (h : (⟨2, ![8, 128]⟩ : Shape).ShapeCasts ⟨3, ![8, 1, 128]⟩) (r : Fin 8) (u : Fin 1) (j : Fin 128) :
    shapeCast ⟨3, ![8, 1, 128]⟩ v h (ix3 r u j) = v (ix2 r j) :=
  shapeCast_apply v h _ _ (by
    have hu : u.val = 0 := by omega
    rw [Shape.rowMajor_val_three, Shape.rowMajor_val_two]
    show r.val * 128 + j.val = (r.val * 1 + u.val) * 128 + j.val
    rw [hu]; omega)

/-- Column `c` of an [8, 4] table, as an [8, 1] column. -/
theorem col_apply (c : Nat) (v : (⟨2, ![8, 4]⟩ : Shape).Idx → α)
    (h : (⟨2, ![8, 4]⟩ : Shape).Slices ![0, c] ⟨2, ![8, 1]⟩) (r : Fin 8) (u : Fin 1) (k : Fin 4) (hk : k.val = c) :
    extractStridedSlice ⟨2, ![8, 1]⟩ ![0, c] v h (ix2 r u) = v (ix2 r k) :=
  slice2_axis1_apply c v h r u k (by have : u.val = 0 := by omega
                                     omega)

/-- The four columns of the [8, 4] table as rewrite rules. -/
theorem col0 (v : (⟨2, ![8, 4]⟩ : Shape).Idx → α) (h : (⟨2, ![8, 4]⟩ : Shape).Slices ![0, 0] ⟨2, ![8, 1]⟩) (r : Fin 8) (u : Fin 1) :
    extractStridedSlice ⟨2, ![8, 1]⟩ ![0, 0] v h (ix2 r u) = v (ix2 r (0 : Fin 4)) := col_apply 0 v h r u 0 rfl
theorem col1 (v : (⟨2, ![8, 4]⟩ : Shape).Idx → α) (h : (⟨2, ![8, 4]⟩ : Shape).Slices ![0, 1] ⟨2, ![8, 1]⟩) (r : Fin 8) (u : Fin 1) :
    extractStridedSlice ⟨2, ![8, 1]⟩ ![0, 1] v h (ix2 r u) = v (ix2 r (1 : Fin 4)) := col_apply 1 v h r u 1 rfl
theorem col2 (v : (⟨2, ![8, 4]⟩ : Shape).Idx → α) (h : (⟨2, ![8, 4]⟩ : Shape).Slices ![0, 2] ⟨2, ![8, 1]⟩) (r : Fin 8) (u : Fin 1) :
    extractStridedSlice ⟨2, ![8, 1]⟩ ![0, 2] v h (ix2 r u) = v (ix2 r (2 : Fin 4)) := col_apply 2 v h r u 2 rfl
theorem col3 (v : (⟨2, ![8, 4]⟩ : Shape).Idx → α) (h : (⟨2, ![8, 4]⟩ : Shape).Slices ![0, 3] ⟨2, ![8, 1]⟩) (r : Fin 8) (u : Fin 1) :
    extractStridedSlice ⟨2, ![8, 1]⟩ ![0, 3] v h (ix2 r u) = v (ix2 r (3 : Fin 4)) := col_apply 3 v h r u 3 rfl

end Layout

section Pointwise
variable {s : Shape} {φ : FTy}

theorem cos_apply (a : FVec Ideal s φ) (i : s.Idx) : cos a i = Ideal.cos (a i) := rfl
theorem sin_apply (a : FVec Ideal s φ) (i : s.Idx) : sin a i = Ideal.sin (a i) := rfl
theorem tanh_apply (a : FVec Ideal s φ) (i : s.Idx) : tanh a i = Ideal.tanh (a i) := rfl
theorem splat_apply (b : BitVec 32) (i : s.Idx) :
    (broadcast s (Scalar.ofBits (F := Ideal) .f32 b) : FVec Ideal s .f32) i = Ideal.ofBits .f32 b := rfl

end Pointwise

/-- The sum along the last axis of an [8, 128, 128] block, read at (row, node): the sum over the last coordinate
    (the accumulator is the neutral zero word, which the reading drops). -/
theorem lane_sum (src : FVec Ideal ⟨3, ![8, 128, 128]⟩ .f32)
    (h : (⟨3, ![8, 128, 128]⟩ : Shape).Reduces [2] ⟨2, ![8, 128]⟩) (hφ : FKind.Formats .f32)
    (hacc : (0x00000000#32 : BitVec 32) = 0x00000000#32) (r : Fin 8) (l : Fin 128) :
    multiReduction .add [2] ⟨2, ![8, 128]⟩ src 0x00000000#32 h hφ hacc (ix2 r l) = ∑ j : Fin 128, src (ix3 r l j) := by
  refine (Ideal.multiReduction_add_single src 0x00000000#32 h hφ hacc (ix2 r l)).trans ?_
  refine Finset.sum_congr rfl fun j _ => congrArg src ?_
  funext a
  refine Fin.ext ?_
  rw [h.lift_val]
  match a with
  | ⟨0, _⟩ => rfl
  | ⟨1, _⟩ => rfl
  | ⟨2, _⟩ => rfl

end Cert.KernelIdeal.MpBody

end
-- ==== Proof.MpBodyRows.lean ====
/-
  Eight rows at a time. The body works on rows [o, o + 8) of the 64-row blocks: `rows8` cuts those rows out of a
  block, `rowsR` / `rowsI` are the tile sums of the specification stated for an 8-row slab, and the slab sums of
  the cut rows are the tile sums at row `o + r`. A store of 8 rows whose value at local (r, l) is a function of the
  global (o + r, l) is that function under the store's rectangle; a load of 8 rows from a whole buffer reads the
  cut rows, a load of the whole buffer reads it all. Last, for the first case of the body: a list of stores all of
  which lie above row `o` except a final store of zeros over the whole block reads zero from row `o` down.
-/
import proofs.«151001_j80075370267059_2_alg».proof.KernelIdeal
import proofs.«151001_j80075370267059_2_alg».proof.Proof.MpSpec
import Idealize.ShloMosaic.Lib.Pipeline.Value
import Idealize.ShloMosaic.PureOps.Ideal.Laws

noncomputable section

namespace Cert.KernelIdeal.MpBody

open Idealize.ShloMosaic Idealize.ShloMosaic.ValueIdx Idealize.ShloMosaic.TcCoe Cert.KernelIdeal Cert.MpSpec

/-- Rows [o, o + 8) of a 64-row array. -/
def rows8 {α : Type} {c : Nat} (o : Nat) (ho : o + 8 ≤ 64) (X : (⟨2, ![64, c]⟩ : Shape).Idx → α) :
    (⟨2, ![8, c]⟩ : Shape).Idx → α :=
  fun y => X (ix2 (⟨o + (y 0).val, by have := idx2_lt0 y; omega⟩ : Fin 64) (⟨(y 1).val, idx2_lt1 y⟩ : Fin c))

/-- The real part's sum over the tile's source nodes, for an 8-row slab. -/
def rowsR (bp : (⟨2, ![8, 4]⟩ : Shape).Idx → EReal) (w sr : (⟨2, ![128, 128]⟩ : Shape).Idx → EReal)
    (xr xi : (⟨2, ![8, 128]⟩ : Shape).Idx → EReal) (r : Fin 8) (i : Fin 128) : EReal :=
  ∑ j : Fin 128, termR (w (ix2 i j)) (sr (ix2 i j)) (bp (ix2 r (0 : Fin 4))) (bp (ix2 r (1 : Fin 4)))
    (bp (ix2 r (2 : Fin 4))) (bp (ix2 r (3 : Fin 4))) (xr (ix2 r j)) (xi (ix2 r j))

/-- The imaginary part's sum over the tile's source nodes, for an 8-row slab. -/
def rowsI (bp : (⟨2, ![8, 4]⟩ : Shape).Idx → EReal) (w sr : (⟨2, ![128, 128]⟩ : Shape).Idx → EReal)
    (xr xi : (⟨2, ![8, 128]⟩ : Shape).Idx → EReal) (r : Fin 8) (i : Fin 128) : EReal :=
  ∑ j : Fin 128, termI (w (ix2 i j)) (sr (ix2 i j)) (bp (ix2 r (0 : Fin 4))) (bp (ix2 r (1 : Fin 4)))
    (bp (ix2 r (2 : Fin 4))) (bp (ix2 r (3 : Fin 4))) (xr (ix2 r j)) (xi (ix2 r j))

/-- The slab sums of the cut rows are the tile sums at row `o + r`. -/
theorem rowsR_rows8 (o : Nat) (ho : o + 8 ≤ 64) (x0 : (⟨2, ![64, 4]⟩ : Shape).Idx → EReal)
    (x1 x2 : (⟨2, ![128, 128]⟩ : Shape).Idx → EReal) (x3 x4 : (⟨2, ![64, 128]⟩ : Shape).Idx → EReal) (r : Fin 8) (l : Fin 128) :
    rowsR (rows8 o ho x0) x1 x2 (rows8 o ho x3) (rows8 o ho x4) r l
      = tileR x0 x1 x2 x3 x4 (⟨o + r.val, by omega⟩ : Fin 64) l := rfl

theorem rowsI_rows8 (o : Nat) (ho : o + 8 ≤ 64) (x0 : (⟨2, ![64, 4]⟩ : Shape).Idx → EReal)
    (x1 x2 : (⟨2, ![128, 128]⟩ : Shape).Idx → EReal) (x3 x4 : (⟨2, ![64, 128]⟩ : Shape).Idx → EReal) (r : Fin 8) (l : Fin 128) :
    rowsI (rows8 o ho x0) x1 x2 (rows8 o ho x3) (rows8 o ho x4) r l
      = tileI x0 x1 x2 x3 x4 (⟨o + r.val, by omega⟩ : Fin 64) l := rfl

/-- A chunk's result over loads that are the cut rows (and the two whole [128, 128] blocks), with the old contents the
    cut rows of `xo`: old + the tile sum at row `o + r`. `T8` / `T` are the slab sum and the tile sum. -/
theorem glue_old (o : Nat) (ho : o + 8 ≤ 64) (xo : (⟨2, ![64, 128]⟩ : Shape).Idx → EReal)
    (old : (⟨2, ![8, 128]⟩ : Shape).Idx → EReal) (hold : old = rows8 o ho xo) (a b : EReal) (hab : a = b) (r : Fin 8) (l : Fin 128) :
    old (ix2 r l) + a = xo (ix2 (⟨o + r.val, by omega⟩ : Fin 64) l) + b := by
  subst hold; subst hab; rfl

/-- The same when the old contents read zero. -/
theorem glue_zero (old : (⟨2, ![8, 128]⟩ : Shape).Idx → EReal) (r : Fin 8) (l : Fin 128) (hold : old (ix2 r l) = 0)
    (a b : EReal) (hab : a = b) : old (ix2 r l) + a = (0 : EReal) + b := by
  rw [hold, hab]

theorem rowsR_of_loads (o : Nat) (ho : o + 8 ≤ 64) (x0 : (⟨2, ![64, 4]⟩ : Shape).Idx → EReal)
    (x1 x2 : (⟨2, ![128, 128]⟩ : Shape).Idx → EReal) (x3 x4 : (⟨2, ![64, 128]⟩ : Shape).Idx → EReal)
    (bp : (⟨2, ![8, 4]⟩ : Shape).Idx → EReal) (w s : (⟨2, ![128, 128]⟩ : Shape).Idx → EReal)
    (xr xi : (⟨2, ![8, 128]⟩ : Shape).Idx → EReal)
    (hbp : bp = rows8 o ho x0) (hw : w = x1) (hs : s = x2) (hxr : xr = rows8 o ho x3) (hxi : xi = rows8 o ho x4)
    (r : Fin 8) (l : Fin 128) :
    rowsR bp w s xr xi r l = tileR x0 x1 x2 x3 x4 (⟨o + r.val, by omega⟩ : Fin 64) l := by
  subst hbp hw hs hxr hxi; rfl

theorem rowsI_of_loads (o : Nat) (ho : o + 8 ≤ 64) (x0 : (⟨2, ![64, 4]⟩ : Shape).Idx → EReal)
    (x1 x2 : (⟨2, ![128, 128]⟩ : Shape).Idx → EReal) (x3 x4 : (⟨2, ![64, 128]⟩ : Shape).Idx → EReal)
    (bp : (⟨2, ![8, 4]⟩ : Shape).Idx → EReal) (w s : (⟨2, ![128, 128]⟩ : Shape).Idx → EReal)
    (xr xi : (⟨2, ![8, 128]⟩ : Shape).Idx → EReal)
    (hbp : bp = rows8 o ho x0) (hw : w = x1) (hs : s = x2) (hxr : xr = rows8 o ho x3) (hxi : xi = rows8 o ho x4)
    (r : Fin 8) (l : Fin 128) :
    rowsI bp w s xr xi r l = tileI x0 x1 x2 x3 x4 (⟨o + r.val, by omega⟩ : Fin 64) l := by
  subst hbp hw hs hxr hxi; rfl

/-! ## Stores and loads of 8 rows -/

/-- The global index under local (r, l) of the rectangle of rows [o, o + 8). -/
theorem emb_rows {c : Nat} (o : Nat) (inb : ∀ a, (![o, 0] : Fin 2 → Nat) a + (![8, c] : Fin 2 → Nat) a ≤ (⟨2, ![64, c]⟩ : Shape).size a)
    (ho : o + 8 ≤ 64) (y : (⟨2, ![8, c]⟩ : Shape).Idx) :
    (Rect.unit (s := ⟨2, ![64, c]⟩) ![o, 0] ![8, c] inb).idx y
      = ix2 (⟨o + (y 0).val, by have := idx2_lt0 y; omega⟩ : Fin 64) (⟨(y 1).val, idx2_lt1 y⟩ : Fin c) := by
  funext a
  refine Fin.ext ?_
  match a with
  | ⟨0, _⟩ => show o + 1 * (y 0).val = o + (y 0).val; omega
  | ⟨1, _⟩ => show 0 + 1 * (y 1).val = (y 1).val; omega

/-- A store over rows [o, o + 8) whose value at local (r, l) is `xo (o + r, l) + T (o + r) l` is, under its rectangle,
    the function `y ↦ xo y + T (y 0) (y 1)` of the block index. -/
theorem piece_of_rows (o : Nat) (ho : o + 8 ≤ 64)
    (inb : ∀ a, (![o, 0] : Fin 2 → Nat) a + (![8, 128] : Fin 2 → Nat) a ≤ (⟨2, ![64, 128]⟩ : Shape).size a)
    (P : (⟨2, ![8, 128]⟩ : Shape).Idx → EReal) (G : (⟨2, ![64, 128]⟩ : Shape).Idx → EReal)
    (hP : ∀ (r : Fin 8) (l : Fin 128), P (ix2 r l) = G (ix2 (⟨o + r.val, by omega⟩ : Fin 64) l)) :
    ∀ x : (Rect.unit (s := ⟨2, ![64, 128]⟩) ![o, 0] ![8, 128] inb).shape.Idx,
      P x = G ((Rect.unit (s := ⟨2, ![64, 128]⟩) ![o, 0] ![8, 128] inb).emb x) := by
  intro x
  have hx : (Rect.unit (s := ⟨2, ![64, 128]⟩) ![o, 0] ![8, 128] inb).emb x
      = ix2 (⟨o + (x 0).val, by have := idx2_lt0 x; omega⟩ : Fin 64) (⟨(x 1).val, idx2_lt1 x⟩ : Fin 128) :=
    emb_rows o inb ho x
  rw [hx]
  have e := hP (⟨(x 0).val, idx2_lt0 x⟩ : Fin 8) (⟨(x 1).val, idx2_lt1 x⟩ : Fin 128)
  rw [← e]
  exact congrArg P (eq_ix2 x)

section Loads
variable {sg : RefSig}

/-- A load of rows [o, o + 8) from a whole buffer holding `x` reads the cut rows. -/
theorem load_rows {c : Nat} (a : Memref sg .tc .vmem ⟨2, ![64, c]⟩ .f32) (h : a.IsWhole)
    (x : Vec Ideal ⟨2, ![64, c]⟩ .f32) (o : Nat) (ho : o + 8 ≤ 64)
    (inb : ∀ b, (![o, 0] : Fin 2 → Nat) b + (![8, c] : Fin 2 → Nat) b ≤ (⟨2, ![64, c]⟩ : Shape).size b) :
    View.readAt (Elt Ideal) a.view (Rect.unit (s := ⟨2, ![64, c]⟩) ![o, 0] ![8, c] inb).toLoadRect (h.unread x)
      = rows8 o ho x := by
  rw [View.readAt_eq_ld, h.read_unread]
  funext y
  show x ((Rect.unit (s := ⟨2, ![64, c]⟩) ![o, 0] ![8, c] inb).idx y) = _
  rw [emb_rows o inb ho y]
  rfl

/-- A load of a whole buffer holding `x` reads `x`. -/
theorem load_whole {S : Shape} (a : Memref sg .tc .vmem S .f32) (h : a.IsWhole) (x : Vec Ideal S .f32)
    (off : Fin S.rank → Nat) (hoff : off = fun _ => 0) (inb : ∀ b, off b + S.size b ≤ S.size b) :
    View.readAt (Elt Ideal) a.view (Rect.unit off S.size inb).toLoadRect (h.unread x) = x := by
  rw [View.readAt_eq_ld, h.read_unread, View.ld_unit_zero hoff]

end Loads

theorem hz2 : (![0, 0] : Fin 2 → Nat) = fun _ => 0 := funext fun a => by
  match a with
  | ⟨0, _⟩ => rfl
  | ⟨1, _⟩ => rfl

end Cert.KernelIdeal.MpBody

end
-- ==== Proof.MpBodyChunkRa.lean ====
/-
  The real part of the result of chunks 0, 1, 2, 3 of the body (rows [8k, 8k + 8)), read at (row, target node):
  the chunk's stored value is the old contents plus the sum over the tile's 128 source nodes of the edge terms of
  the specification. Each statement spells the stored value as the body computes it from the chunk's loads — the
  weights `w`, the strengths `s`, the 8 rows `bp` of the per-row table, the 8 rows `xr`, `xi` of the two signal blocks
  and the 8 rows `old` of the output block; the proof reads the lane sum at (r, l) and every layout and pointwise
  operation under it at (r, l, j).
-/
import proofs.«151001_j80075370267059_2_alg».proof.Proof.Gen.KernelIdeal.Skeleton
import proofs.«151001_j80075370267059_2_alg».proof.Proof.MpBodyOps
import proofs.«151001_j80075370267059_2_alg».proof.Proof.MpBodyRows

noncomputable section

namespace Cert.KernelIdeal.MpBody

open Idealize.ShloMosaic Idealize.ShloMosaic.ValueIdx Cert.KernelIdeal Cert.KernelIdeal.Gen Cert.MpSpec

theorem chunkR_0 (w s : Vec Ideal S128x128 .f32) (bp : Vec Ideal S8x4 .f32) (xr xi old : Vec Ideal S8x128 .f32)
    (r : Fin 8) (l : Fin 128) :
    (k1_pay16 (k1_pay8 w bp) (k1_pay9 w s bp) (k1_pay10 (F := Ideal)) xr xi old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkR_1 (w s : Vec Ideal S128x128 .f32) (bp : Vec Ideal S8x4 .f32) (xr xi old : Vec Ideal S8x128 .f32)
    (r : Fin 8) (l : Fin 128) :
    (k1_pay29 (k1_pay4 w) (k1_pay5 s) (k1_pay6 w) (k1_pay18 bp) (k1_pay19 bp) (k1_pay20 bp) (k1_pay21 bp) xr xi old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkR_2 (w s : Vec Ideal S128x128 .f32) (bp : Vec Ideal S8x4 .f32) (xr xi old : Vec Ideal S8x128 .f32)
    (r : Fin 8) (l : Fin 128) :
    (k1_pay38 (k1_pay33 (k1_pay4 w) (k1_pay5 s) (k1_pay6 w) bp) (k1_pay34 (k1_pay4 w) (k1_pay6 w) bp) (k1_pay35 (k1_pay4 w) (k1_pay6 w) bp) xr xi old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkR_3 (w s : Vec Ideal S128x128 .f32) (bp : Vec Ideal S8x4 .f32) (xr xi old : Vec Ideal S8x128 .f32)
    (r : Fin 8) (l : Fin 128) :
    (k1_pay53 (k1_pay4 w) (k1_pay5 s) (k1_pay6 w) (k1_pay41 bp) (k1_pay42 bp) (k1_pay43 bp) (k1_pay44 (k1_pay4 w)) (k1_pay45 bp) xr xi old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

end Cert.KernelIdeal.MpBody

end
-- ==== Proof.MpBodyChunkRb.lean ====
/-
  The real part of the result of chunks 4, 5, 6, 7 of the body (rows [8k, 8k + 8)), read at (row, target node):
  the chunk's stored value is the old contents plus the sum over the tile's 128 source nodes of the edge terms of
  the specification. Each statement spells the stored value as the body computes it from the chunk's loads — the
  weights `w`, the strengths `s`, the 8 rows `bp` of the per-row table, the 8 rows `xr`, `xi` of the two signal blocks
  and the 8 rows `old` of the output block; the proof reads the lane sum at (r, l) and every layout and pointwise
  operation under it at (r, l, j).
-/
import proofs.«151001_j80075370267059_2_alg».proof.Proof.Gen.KernelIdeal.Skeleton
import proofs.«151001_j80075370267059_2_alg».proof.Proof.MpBodyOps
import proofs.«151001_j80075370267059_2_alg».proof.Proof.MpBodyRows

noncomputable section

namespace Cert.KernelIdeal.MpBody

open Idealize.ShloMosaic Idealize.ShloMosaic.ValueIdx Cert.KernelIdeal Cert.KernelIdeal.Gen Cert.MpSpec

theorem chunkR_4 (w s : Vec Ideal S128x128 .f32) (bp : Vec Ideal S8x4 .f32) (xr xi old : Vec Ideal S8x128 .f32)
    (r : Fin 8) (l : Fin 128) :
    (k1_pay63 (k1_pay57 (k1_pay4 w) (k1_pay5 s) (k1_pay6 w) bp) (k1_pay58 (k1_pay4 w) (k1_pay6 w) bp) (k1_pay59 (k1_pay4 w) (k1_pay6 w) bp) (k1_pay60 xr) (k1_pay61 xi) old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkR_5 (w s : Vec Ideal S128x128 .f32) (bp : Vec Ideal S8x4 .f32) (xr xi old : Vec Ideal S8x128 .f32)
    (r : Fin 8) (l : Fin 128) :
    (k1_pay74 (k1_pay4 w) (k1_pay5 s) (k1_pay6 w) (k1_pay66 bp) (k1_pay67 bp) (k1_pay68 (k1_pay4 w) (k1_pay6 w) bp) xr xi old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkR_6 (w s : Vec Ideal S128x128 .f32) (bp : Vec Ideal S8x4 .f32) (xr xi old : Vec Ideal S8x128 .f32)
    (r : Fin 8) (l : Fin 128) :
    (k1_pay84 (k1_pay78 (k1_pay4 w) (k1_pay5 s) (k1_pay6 w) bp) (k1_pay83 (k1_pay4 w) (k1_pay6 w) bp xr xi) old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkR_7 (w s : Vec Ideal S128x128 .f32) (bp : Vec Ideal S8x4 .f32) (xr xi old : Vec Ideal S8x128 .f32)
    (r : Fin 8) (l : Fin 128) :
    (k1_pay97 (k1_pay5 s) (k1_pay87 bp) (k1_pay88 (k1_pay4 w) (k1_pay6 w) bp) (k1_pay89 (k1_pay4 w) bp) (k1_pay90 (k1_pay6 w)) xr xi old : FVec Ideal S8x128 .f32) (ix2 r l) = old (ix2 r l) + rowsR bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

end Cert.KernelIdeal.MpBody

end
-- ==== Proof.MpBodyChunkIa.lean ====
/-
  The imaginary part of the result of chunks 0, 1, 2, 3 of the body (rows [8k, 8k + 8)), read at (row, target node):
  the chunk's stored value is the old contents plus the sum over the tile's 128 source nodes of the edge terms of
  the specification. Each statement spells the stored value as the body computes it from the chunk's loads — the
  weights `w`, the strengths `s`, the 8 rows `bp` of the per-row table, the 8 rows `xr`, `xi` of the two signal blocks
  and the 8 rows `old` of the output block; the proof reads the lane sum at (r, l) and every layout and pointwise
  operation under it at (r, l, j).
-/
import proofs.«151001_j80075370267059_2_alg».proof.Proof.Gen.KernelIdeal.Skeleton
import proofs.«151001_j80075370267059_2_alg».proof.Proof.MpBodyOps
import proofs.«151001_j80075370267059_2_alg».proof.Proof.MpBodyRows

noncomputable section

namespace Cert.KernelIdeal.MpBody

open Idealize.ShloMosaic Idealize.ShloMosaic.ValueIdx Cert.KernelIdeal Cert.KernelIdeal.Gen Cert.MpSpec

theorem chunkI_0 (w s : Vec Ideal S128x128 .f32) (bp : Vec Ideal S8x4 .f32) (xr xi old : Vec Ideal S8x128 .f32)
    (r : Fin 8) (l : Fin 128) :
    (k1_pay17 (k1_pay8 w bp) (k1_pay9 w s bp) (k1_pay10 (F := Ideal)) xr xi old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkI_1 (w s : Vec Ideal S128x128 .f32) (bp : Vec Ideal S8x4 .f32) (xr xi old : Vec Ideal S8x128 .f32)
    (r : Fin 8) (l : Fin 128) :
    (k1_pay30 (k1_pay28 (k1_pay4 w) (k1_pay5 s) (k1_pay6 w) (k1_pay18 bp) (k1_pay19 bp) (k1_pay20 bp) (k1_pay21 bp) xr xi) old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkI_2 (w s : Vec Ideal S128x128 .f32) (bp : Vec Ideal S8x4 .f32) (xr xi old : Vec Ideal S8x128 .f32)
    (r : Fin 8) (l : Fin 128) :
    (k1_pay39 (k1_pay33 (k1_pay4 w) (k1_pay5 s) (k1_pay6 w) bp) (k1_pay34 (k1_pay4 w) (k1_pay6 w) bp) (k1_pay35 (k1_pay4 w) (k1_pay6 w) bp) xr xi old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkI_3 (w s : Vec Ideal S128x128 .f32) (bp : Vec Ideal S8x4 .f32) (xr xi old : Vec Ideal S8x128 .f32)
    (r : Fin 8) (l : Fin 128) :
    (k1_pay54 (k1_pay52 (k1_pay4 w) (k1_pay5 s) (k1_pay6 w) (k1_pay41 bp) (k1_pay42 bp) (k1_pay43 bp) (k1_pay44 (k1_pay4 w)) (k1_pay45 bp) xr xi) old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

end Cert.KernelIdeal.MpBody

end
-- ==== Proof.MpBodyChunkIb.lean ====
/-
  The imaginary part of the result of chunks 4, 5, 6, 7 of the body (rows [8k, 8k + 8)), read at (row, target node):
  the chunk's stored value is the old contents plus the sum over the tile's 128 source nodes of the edge terms of
  the specification. Each statement spells the stored value as the body computes it from the chunk's loads — the
  weights `w`, the strengths `s`, the 8 rows `bp` of the per-row table, the 8 rows `xr`, `xi` of the two signal blocks
  and the 8 rows `old` of the output block; the proof reads the lane sum at (r, l) and every layout and pointwise
  operation under it at (r, l, j).
-/
import proofs.«151001_j80075370267059_2_alg».proof.Proof.Gen.KernelIdeal.Skeleton
import proofs.«151001_j80075370267059_2_alg».proof.Proof.MpBodyOps
import proofs.«151001_j80075370267059_2_alg».proof.Proof.MpBodyRows

noncomputable section

namespace Cert.KernelIdeal.MpBody

open Idealize.ShloMosaic Idealize.ShloMosaic.ValueIdx Cert.KernelIdeal Cert.KernelIdeal.Gen Cert.MpSpec

theorem chunkI_4 (w s : Vec Ideal S128x128 .f32) (bp : Vec Ideal S8x4 .f32) (xr xi old : Vec Ideal S8x128 .f32)
    (r : Fin 8) (l : Fin 128) :
    (k1_pay64 (k1_pay57 (k1_pay4 w) (k1_pay5 s) (k1_pay6 w) bp) (k1_pay58 (k1_pay4 w) (k1_pay6 w) bp) (k1_pay59 (k1_pay4 w) (k1_pay6 w) bp) (k1_pay60 xr) (k1_pay61 xi) old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkI_5 (w s : Vec Ideal S128x128 .f32) (bp : Vec Ideal S8x4 .f32) (xr xi old : Vec Ideal S8x128 .f32)
    (r : Fin 8) (l : Fin 128) :
    (k1_pay75 (k1_pay4 w) (k1_pay5 s) (k1_pay6 w) (k1_pay66 bp) (k1_pay67 bp) (k1_pay68 (k1_pay4 w) (k1_pay6 w) bp) xr xi old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkI_6 (w s : Vec Ideal S128x128 .f32) (bp : Vec Ideal S8x4 .f32) (xr xi old : Vec Ideal S8x128 .f32)
    (r : Fin 8) (l : Fin 128) :
    (k1_pay85 (k1_pay78 (k1_pay4 w) (k1_pay5 s) (k1_pay6 w) bp) (k1_pay79 (k1_pay4 w) (k1_pay6 w) bp) (k1_pay80 (k1_pay4 w) (k1_pay6 w) bp) (k1_pay81 xr) (k1_pay82 xi) old : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

theorem chunkI_7 (w s : Vec Ideal S128x128 .f32) (bp : Vec Ideal S8x4 .f32) (xr xi old : Vec Ideal S8x128 .f32)
    (r : Fin 8) (l : Fin 128) :
    (k1_pay1 (k1_pay96 (k1_pay5 s) (k1_pay87 bp) (k1_pay88 (k1_pay4 w) (k1_pay6 w) bp) (k1_pay89 (k1_pay4 w) bp) (k1_pay90 (k1_pay6 w)) xr xi) (k1_pay98 old) : FVec Ideal S8x128 .f32) (ix2 r l) = old (ix2 r l) + rowsI bp w s xr xi r l := by
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, addf_apply, shapeCast_self]
  refine congrArg (fun t => old (ix2 r l) + t) ((lane_sum _ _ _ _ r l).trans (Finset.sum_congr rfl fun j _ => ?_))
  simp only [mulf_apply, addf_apply, subf_apply, cos_apply, sin_apply, tanh_apply, broadcast_apply, shapeCast_self,
    bcast_plane, bcast_row, bcast_src, cast_plane, cast_col, cast_src, col0, col1, col2, col3]
  rfl

end Cert.KernelIdeal.MpBody

end
-- ==== Proof.MpBodyZero.lean ====
/-
  What the first case of the body needs beyond the second: there the body first stores zeros over the whole output
  block, and each chunk's read of its 8 rows comes after the earlier chunks' stores and that zero store.
  * In-bounds proofs of our own for the row rectangles (any proof serves: a rectangle does not depend on it), and the
    store and load lemmas stated with them.
  * `canon_apply_of_pieces_tail`: a list of stores whose first stores all agree with one function `G` of the block
    index reads `G` wherever one of those first stores covers, whatever stores come after them in the list (earlier
    in time).
  * `ZeroBelow o L`: every store of `L` but the last lies in rows below `o`, and the last covers the block with
    zeros; then `L` reads zero from row `o` on, and so does a load of rows [o, o + 8) after `L`.
-/
import proofs.«151001_j80075370267059_2_alg».proof.Proof.MpBodyRows

noncomputable section

namespace Cert.KernelIdeal.MpBody

open Idealize.ShloMosaic Idealize.ShloMosaic.ValueIdx Idealize.ShloMosaic.TcCoe Cert.KernelIdeal Cert.MpSpec

/-! ## In-bounds proofs, and the store and load lemmas at them -/

theorem inb_rows {c : Nat} (o : Nat) (ho : o + 8 ≤ 64) :
    ∀ a, (![o, 0] : Fin 2 → Nat) a + (![8, c] : Fin 2 → Nat) a ≤ (⟨2, ![64, c]⟩ : Shape).size a := fun a => by
  match a with
  | ⟨0, _⟩ => exact ho
  | ⟨1, _⟩ => show 0 + c ≤ c; omega

theorem inb_whole (n m : Nat) :
    ∀ a, (![0, 0] : Fin 2 → Nat) a + (⟨2, ![n, m]⟩ : Shape).size a ≤ (⟨2, ![n, m]⟩ : Shape).size a := fun a => by
  match a with
  | ⟨0, _⟩ => show 0 + n ≤ n; omega
  | ⟨1, _⟩ => show 0 + m ≤ m; omega

theorem piece_rows (o : Nat) (ho : o + 8 ≤ 64) (P : (⟨2, ![8, 128]⟩ : Shape).Idx → EReal)
    (G : (⟨2, ![64, 128]⟩ : Shape).Idx → EReal)
    (hP : ∀ (r : Fin 8) (l : Fin 128), P (ix2 r l) = G (ix2 (⟨o + r.val, by omega⟩ : Fin 64) l)) :
    ∀ x : (Rect.unit (s := ⟨2, ![64, 128]⟩) ![o, 0] ![8, 128] (inb_rows o ho)).shape.Idx,
      P x = G ((Rect.unit (s := ⟨2, ![64, 128]⟩) ![o, 0] ![8, 128] (inb_rows o ho)).emb x) :=
  piece_of_rows o ho (inb_rows o ho) P G hP

section Loads
variable {sg : RefSig}

theorem ld_rows {c : Nat} (a : Memref sg .tc .vmem ⟨2, ![64, c]⟩ .f32) (h : a.IsWhole)
    (x : Vec Ideal ⟨2, ![64, c]⟩ .f32) (o : Nat) (ho : o + 8 ≤ 64) :
    View.readAt (Elt Ideal) a.view (Rect.unit (s := ⟨2, ![64, c]⟩) ![o, 0] ![8, c] (inb_rows o ho)).toLoadRect (h.unread x)
      = rows8 o ho x :=
  load_rows a h x o ho (inb_rows o ho)

theorem ld_whole {n m : Nat} (a : Memref sg .tc .vmem ⟨2, ![n, m]⟩ .f32) (h : a.IsWhole) (x : Vec Ideal ⟨2, ![n, m]⟩ .f32) :
    View.readAt (Elt Ideal) a.view (Rect.unit (s := ⟨2, ![n, m]⟩) ![0, 0] (⟨2, ![n, m]⟩ : Shape).size (inb_whole n m)).toLoadRect
      (h.unread x) = x :=
  load_whole a h x _ hz2 (inb_whole n m)

end Loads

/-! ## Stores that agree with one function, followed by any others -/

theorem canon_apply_of_pieces_tail {S : Shape} {e : EltTy} (G : S.Idx → Elt Ideal e) (T : List (View.Piece (Elt Ideal) S e)) :
    ∀ (L : List (View.Piece (Elt Ideal) S e)) (_ : ∀ p ∈ L, ∀ x : p.1.shape.Idx, p.2 x = G (p.1.emb x)) (y : S.Idx)
      (_ : ∃ p ∈ L, y ∈ p.1.set), View.canon (L ++ T) y = G y
  | [], _, _, hy => by obtain ⟨p, hp, _⟩ := hy; simp at hp
  | p :: L, hL, y, hy => by
    by_cases hm : y ∈ p.1.set
    · obtain ⟨x, rfl⟩ := p.1.exists_idx_of_mem hm
      show View.canon (p :: (L ++ T)) (p.1.idx x) = _
      rw [show p.1.idx x = p.1.emb x from rfl, View.canon_cons_emb]
      exact hL p (by simp) x
    · show View.canon (p :: (L ++ T)) y = _
      rw [View.canon_cons_of_not_mem _ _ hm]
      refine canon_apply_of_pieces_tail G T L (fun q hq => hL q (by simp [hq])) y ?_
      obtain ⟨q, hq, hyq⟩ := hy
      rcases List.mem_cons.mp hq with rfl | hq'
      · exact absurd hyq hm
      · exact ⟨q, hq', hyq⟩

/-- (r, l) lies under the rectangle of rows [o, o + 8) when `o ≤ r < o + 8`. -/
theorem rows_mem (o : Nat) (ho : o + 8 ≤ 64) (r : Fin 64) (l : Fin 128) (h1 : o ≤ r.val) (h2 : r.val < o + 8) :
    (ix2 r l : (⟨2, ![64, 128]⟩ : Shape).Idx) ∈ (Rect.unit (s := ⟨2, ![64, 128]⟩) ![o, 0] ![8, 128] (inb_rows o ho)).set :=
  Rect.mem_set_unit.2 fun a => by
    match a with
    | ⟨0, _⟩ => exact ⟨h1, h2⟩
    | ⟨1, _⟩ => exact ⟨Nat.zero_le _, by show l.val < 0 + 128; omega⟩

/-! ## Stores above row `o`, over a block of zeros -/

inductive ZeroBelow (o : Nat) : List (View.Piece (Elt Ideal) (⟨2, ![64, 128]⟩ : Shape) .f32) → Prop
  | last (inb : ∀ a, (![0, 0] : Fin 2 → Nat) a + (⟨2, ![64, 128]⟩ : Shape).size a ≤ (⟨2, ![64, 128]⟩ : Shape).size a)
      (w : (Rect.unit (s := ⟨2, ![64, 128]⟩) ![0, 0] (⟨2, ![64, 128]⟩ : Shape).size inb).shape.Idx → Elt Ideal .f32)
      (hval : ∀ x, w x = (0 : EReal)) : ZeroBelow o [⟨Rect.unit (s := ⟨2, ![64, 128]⟩) ![0, 0] (⟨2, ![64, 128]⟩ : Shape).size inb, w⟩]
  | cons (o' : Nat) (inb : ∀ a, (![o', 0] : Fin 2 → Nat) a + (![8, 128] : Fin 2 → Nat) a ≤ (⟨2, ![64, 128]⟩ : Shape).size a)
      (w : (Rect.unit (s := ⟨2, ![64, 128]⟩) ![o', 0] ![8, 128] inb).shape.Idx → Elt Ideal .f32)
      (L : List (View.Piece (Elt Ideal) (⟨2, ![64, 128]⟩ : Shape) .f32)) (h : o' + 8 ≤ o) (hL : ZeroBelow o L) :
      ZeroBelow o (⟨Rect.unit (s := ⟨2, ![64, 128]⟩) ![o', 0] ![8, 128] inb, w⟩ :: L)

theorem ZeroBelow.canon_eq {o : Nat} {L : List (View.Piece (Elt Ideal) (⟨2, ![64, 128]⟩ : Shape) .f32)} (h : ZeroBelow o L)
    (y : (⟨2, ![64, 128]⟩ : Shape).Idx) (hy : o ≤ (y 0).val) : View.canon L y = (0 : EReal) := by
  induction h with
  | last inb w hval =>
    exact (congrFun (View.canon_unit_zero (S := ⟨2, ![64, 128]⟩) hz2 inb w) y).trans (hval y)
  | cons o' inb w L h _ ih =>
    have hnm : y ∉ (Rect.unit (s := ⟨2, ![64, 128]⟩) ![o', 0] ![8, 128] inb).set := by
      intro hm
      have h2 : (y 0).val < o' + 8 := (Rect.mem_set_unit.1 hm 0).2
      omega
    exact (View.canon_cons_of_not_mem ⟨Rect.unit (s := ⟨2, ![64, 128]⟩) ![o', 0] ![8, 128] inb, w⟩ L hnm).trans ih

/-- A load of rows [o, o + 8) after stores that read zero from row `o` on reads zero. -/
theorem readCov_rows_zero {sg : RefSig} (v : View sg .tc .vmem (⟨2, ![64, 128]⟩ : Shape) .f32)
    (L : List (View.Piece (Elt Ideal) (⟨2, ![64, 128]⟩ : Shape) .f32)) (o : Nat) (ho : o + 8 ≤ 64) (hL : ZeroBelow o L)
    (r : Fin 8) (l : Fin 128) :
    v.readCov L (Rect.unit (s := ⟨2, ![64, 128]⟩) ![o, 0] ![8, 128] (inb_rows o ho)).toLoadRect (ix2 r l) = (0 : EReal) := by
  rw [View.readCov_eq_canon']
  refine hL.canon_eq _ ?_
  show o ≤ o + 1 * r.val
  omega

end Cert.KernelIdeal.MpBody

end
-- ==== Proof.MpBodyA.lean ====
/-
  The first case of the message-passing body (grid points whose last coordinate is 0): the body first stores zeros
  over both output blocks, then runs the same eight chunks. The staging buffer's contents are nine stores; the eight
  chunk stores cover the block and each is the block of `G (row, node) = 0 + tile sum`: chunk k's read of rows
  [8k, 8k + 8) of the output comes after the stores of chunks 0 … k-1, which lie in rows below 8k, and the zero
  store, so it reads zero. The zero store itself is overwritten everywhere and is never read at the end.
-/
import proofs.«151001_j80075370267059_2_alg».proof.Proof.MpBodyChunkRa
import proofs.«151001_j80075370267059_2_alg».proof.Proof.MpBodyChunkRb
import proofs.«151001_j80075370267059_2_alg».proof.Proof.MpBodyChunkIa
import proofs.«151001_j80075370267059_2_alg».proof.Proof.MpBodyChunkIb
import proofs.«151001_j80075370267059_2_alg».proof.Proof.MpBodyZero
import proofs.«151001_j80075370267059_2_alg».proof.Proof.Gen.KernelIdeal.Frame
import Idealize.ShloMosaic.Lib.Pipeline.Value
import Idealize.ShloMosaic.Lib.Tactic

noncomputable section

namespace Cert.KernelIdeal.MpBody

open Idealize.ShloMosaic Idealize.ShloMosaic.ValueIdx Idealize.ShloMosaic.TcCoe Idealize.SL.Sem Cert.KernelIdeal Cert.KernelIdeal.Gen

/-- The zero store's value is zero everywhere. -/
theorem zero_pay2 (x : S64x128.Idx) : (k1_pay2 (F := Ideal)) x = (0 : EReal) := Ideal.ofBits_zero_f32
theorem zero_pay3 (x : S64x128.Idx) : (k1_pay3 (F := Ideal)) x = (0 : EReal) := Ideal.ofBits_zero_f32

/-- The first case of the body (the block zeroed first): output 5's block ends at zero plus the tile's
    real sum. The eight chunk stores cover the block; each chunk's read of its rows, made after the earlier chunks' stores
    and the zero store, reads the zeros. -/
theorem out_A5 (c : Dev nD) (i : grid1.Coords)
    (a3 : Memref sig .tc .vmem S64x4 .f32) (h3 : a3.IsWhole) (a4 : Memref sig .tc .vmem S128x128 .f32) (h4 : a4.IsWhole)
    (a5 : Memref sig .tc .vmem S128x128 .f32) (h5 : a5.IsWhole) (a6 : Memref sig .tc .vmem S64x128 .f32) (h6 : a6.IsWhole)
    (a7 : Memref sig .tc .vmem S64x128 .f32) (h7 : a7.IsWhole) (a8 : Memref sig .tc .vmem S64x128 .f32) (h8 : a8.IsWhole)
    (a9 : Memref sig .tc .vmem S64x128 .f32) (h9 : a9.IsWhole) (hc : cond1_0 i)
    (x0 : Vec Ideal S64x4 .f32) (x1 x2 : Vec Ideal S128x128 .f32) (x3 x4 : Vec Ideal S64x128 .f32) (r : Fin 64) (l : Fin 128) :
    out1_A_5 (F := Ideal) c i a3 h3 a4 h4 a5 h5 a6 h6 a7 h7 a8 h8 a9 h9 hc x0 x1 x2 x3 x4 (ValueIdx.ix2 r l)
      = (0 : EReal) + Cert.MpSpec.tileR x0 x1 x2 x3 x4 r l := by
  have hcov := cover1_A_5 (F := Ideal) c i a3 h3 a4 h4 a5 h5 a6 h6 a7 h7 a8 h8 a9 h9 hc x0 x1 x2 x3 x4
  unfold out1_A_5
  rw [View.read_writes_eq_canon _ _ _ hcov]
  clear hcov
  let G : S64x128.Idx → EReal := fun y => (0 : EReal) + Cert.MpSpec.tileR x0 x1 x2 x3 x4 (y 0) (y 1)
  unfold kernelRun1_A
  dsimp only
  sl_unfold_words
  refine (canon_apply_of_pieces_tail G [_] [_, _, _, _, _, _, _, _] ?_ (ValueIdx.ix2 r l) ?_).trans rfl
  · refine List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, List.forall_mem_cons.2 ⟨?_,
      fun _ h => (List.not_mem_nil h).elim⟩⟩⟩⟩⟩⟩⟩⟩
    · exact piece_rows 56 (by omega) _ G fun r' l' =>
      (chunkR_7 _ _ _ _ _ _ r' l').trans
        (glue_zero _ r' l' (readCov_rows_zero _ _ 56 (by omega) (ZeroBelow.cons 48 _ _ _ (by omega) (ZeroBelow.cons 40 _ _ _ (by omega) (ZeroBelow.cons 32 _ _ _ (by omega) (ZeroBelow.cons 24 _ _ _ (by omega) (ZeroBelow.cons 16 _ _ _ (by omega) (ZeroBelow.cons 8 _ _ _ (by omega) (ZeroBelow.cons 0 _ _ _ (by omega) (ZeroBelow.last _ _ zero_pay2)))))))) r' l') _ _
          (rowsR_of_loads 56 (by omega) x0 x1 x2 x3 x4 _ _ _ _ _ (ld_rows a3 h3 x0 56 (by omega))
            (ld_whole a4 h4 x1) (ld_whole a5 h5 x2) (ld_rows a6 h6 x3 56 (by omega))
            (ld_rows a7 h7 x4 56 (by omega)) r' l'))
    · exact piece_rows 48 (by omega) _ G fun r' l' =>
      (chunkR_6 _ _ _ _ _ _ r' l').trans
        (glue_zero _ r' l' (readCov_rows_zero _ _ 48 (by omega) (ZeroBelow.cons 40 _ _ _ (by omega) (ZeroBelow.cons 32 _ _ _ (by omega) (ZeroBelow.cons 24 _ _ _ (by omega) (ZeroBelow.cons 16 _ _ _ (by omega) (ZeroBelow.cons 8 _ _ _ (by omega) (ZeroBelow.cons 0 _ _ _ (by omega) (ZeroBelow.last _ _ zero_pay2))))))) r' l') _ _
          (rowsR_of_loads 48 (by omega) x0 x1 x2 x3 x4 _ _ _ _ _ (ld_rows a3 h3 x0 48 (by omega))
            (ld_whole a4 h4 x1) (ld_whole a5 h5 x2) (ld_rows a6 h6 x3 48 (by omega))
            (ld_rows a7 h7 x4 48 (by omega)) r' l'))
    · exact piece_rows 40 (by omega) _ G fun r' l' =>
      (chunkR_5 _ _ _ _ _ _ r' l').trans
        (glue_zero _ r' l' (readCov_rows_zero _ _ 40 (by omega) (ZeroBelow.cons 32 _ _ _ (by omega) (ZeroBelow.cons 24 _ _ _ (by omega) (ZeroBelow.cons 16 _ _ _ (by omega) (ZeroBelow.cons 8 _ _ _ (by omega) (ZeroBelow.cons 0 _ _ _ (by omega) (ZeroBelow.last _ _ zero_pay2)))))) r' l') _ _
          (rowsR_of_loads 40 (by omega) x0 x1 x2 x3 x4 _ _ _ _ _ (ld_rows a3 h3 x0 40 (by omega))
            (ld_whole a4 h4 x1) (ld_whole a5 h5 x2) (ld_rows a6 h6 x3 40 (by omega))
            (ld_rows a7 h7 x4 40 (by omega)) r' l'))
    · exact piece_rows 32 (by omega) _ G fun r' l' =>
      (chunkR_4 _ _ _ _ _ _ r' l').trans
        (glue_zero _ r' l' (readCov_rows_zero _ _ 32 (by omega) (ZeroBelow.cons 24 _ _ _ (by omega) (ZeroBelow.cons 16 _ _ _ (by omega) (ZeroBelow.cons 8 _ _ _ (by omega) (ZeroBelow.cons 0 _ _ _ (by omega) (ZeroBelow.last _ _ zero_pay2))))) r' l') _ _
          (rowsR_of_loads 32 (by omega) x0 x1 x2 x3 x4 _ _ _ _ _ (ld_rows a3 h3 x0 32 (by omega))
            (ld_whole a4 h4 x1) (ld_whole a5 h5 x2) (ld_rows a6 h6 x3 32 (by omega))
            (ld_rows a7 h7 x4 32 (by omega)) r' l'))
    · exact piece_rows 24 (by omega) _ G fun r' l' =>
      (chunkR_3 _ _ _ _ _ _ r' l').trans
        (glue_zero _ r' l' (readCov_rows_zero _ _ 24 (by omega) (ZeroBelow.cons 16 _ _ _ (by omega) (ZeroBelow.cons 8 _ _ _ (by omega) (ZeroBelow.cons 0 _ _ _ (by omega) (ZeroBelow.last _ _ zero_pay2)))) r' l') _ _
          (rowsR_of_loads 24 (by omega) x0 x1 x2 x3 x4 _ _ _ _ _ (ld_rows a3 h3 x0 24 (by omega))
            (ld_whole a4 h4 x1) (ld_whole a5 h5 x2) (ld_rows a6 h6 x3 24 (by omega))
            (ld_rows a7 h7 x4 24 (by omega)) r' l'))
    · exact piece_rows 16 (by omega) _ G fun r' l' =>
      (chunkR_2 _ _ _ _ _ _ r' l').trans
        (glue_zero _ r' l' (readCov_rows_zero _ _ 16 (by omega) (ZeroBelow.cons 8 _ _ _ (by omega) (ZeroBelow.cons 0 _ _ _ (by omega) (ZeroBelow.last _ _ zero_pay2))) r' l') _ _
          (rowsR_of_loads 16 (by omega) x0 x1 x2 x3 x4 _ _ _ _ _ (ld_rows a3 h3 x0 16 (by omega))
            (ld_whole a4 h4 x1) (ld_whole a5 h5 x2) (ld_rows a6 h6 x3 16 (by omega))
            (ld_rows a7 h7 x4 16 (by omega)) r' l'))
    · exact piece_rows 8 (by omega) _ G fun r' l' =>
      (chunkR_1 _ _ _ _ _ _ r' l').trans
        (glue_zero _ r' l' (readCov_rows_zero _ _ 8 (by omega) (ZeroBelow.cons 0 _ _ _ (by omega) (ZeroBelow.last _ _ zero_pay2)) r' l') _ _
          (rowsR_of_loads 8 (by omega) x0 x1 x2 x3 x4 _ _ _ _ _ (ld_rows a3 h3 x0 8 (by omega))
            (ld_whole a4 h4 x1) (ld_whole a5 h5 x2) (ld_rows a6 h6 x3 8 (by omega))
            (ld_rows a7 h7 x4 8 (by omega)) r' l'))
    · exact piece_rows 0 (by omega) _ G fun r' l' =>
      (chunkR_0 _ _ _ _ _ _ r' l').trans
        (glue_zero _ r' l' (readCov_rows_zero _ _ 0 (by omega) (ZeroBelow.last _ _ zero_pay2) r' l') _ _
          (rowsR_of_loads 0 (by omega) x0 x1 x2 x3 x4 _ _ _ _ _ (ld_rows a3 h3 x0 0 (by omega))
            (ld_whole a4 h4 x1) (ld_whole a5 h5 x2) (ld_rows a6 h6 x3 0 (by omega))
            (ld_rows a7 h7 x4 0 (by omega)) r' l'))
  · have hr := r.isLt
    rcases (show r.val < 8 ∨ (8 ≤ r.val ∧ r.val < 16) ∨ (16 ≤ r.val ∧ r.val < 24) ∨ (24 ≤ r.val ∧ r.val < 32)
        ∨ (32 ≤ r.val ∧ r.val < 40) ∨ (40 ≤ r.val ∧ r.val < 48) ∨ (48 ≤ r.val ∧ r.val < 56) ∨ 56 ≤ r.val from by omega)
      with h | h | h | h | h | h | h | h
    · exact ⟨_, List.Mem.tail _ (List.Mem.tail _ (List.Mem.tail _ (List.Mem.tail _ (List.Mem.tail _ (List.Mem.tail _ (List.Mem.tail _ (List.Mem.head _))))))), rows_mem 0 (by omega) r l (by omega) (by omega)⟩
    · exact ⟨_, List.Mem.tail _ (List.Mem.tail _ (List.Mem.tail _ (List.Mem.tail _ (List.Mem.tail _ (List.Mem.tail _ (List.Mem.head _)))))), rows_mem 8 (by omega) r l (by omega) (by omega)⟩
    · exact ⟨_, List.Mem.tail _ (List.Mem.tail _ (List.Mem.tail _ (List.Mem.tail _ (List.Mem.tail _ (List.Mem.head _))))), rows_mem 16 (by omega) r l (by omega) (by omega)⟩
    · exact ⟨_, List.Mem.tail _ (List.Mem.tail _ (List.Mem.tail _ (List.Mem.tail _ (List.Mem.head _)))), rows_mem 24 (by omega) r l (by omega) (by omega)⟩
    · exact ⟨_, List.Mem.tail _ (List.Mem.tail _ (List.Mem.tail _ (List.Mem.head _))), rows_mem 32 (by omega) r l (by omega) (by omega)⟩
    · exact ⟨_, List.Mem.tail _ (List.Mem.tail _ (List.Mem.head _)), rows_mem 40 (by omega) r l (by omega) (by omega)⟩
    · exact ⟨_, List.Mem.tail _ (List.Mem.head _), rows_mem 48 (by omega) r l (by omega) (by omega)⟩
    · exact ⟨_, List.Mem.head _, rows_mem 56 (by omega) r l (by omega) (by omega)⟩

/-- The first case of the body (the block zeroed first): output 6's block ends at zero plus the tile's
    imaginary sum. The eight chunk stores cover the block; each chunk's read of its rows, made after the earlier chunks' stores
    and the zero store, reads the zeros. -/
theorem out_A6 (c : Dev nD) (i : grid1.Coords)
    (a3 : Memref sig .tc .vmem S64x4 .f32) (h3 : a3.IsWhole) (a4 : Memref sig .tc .vmem S128x128 .f32) (h4 : a4.IsWhole)
    (a5 : Memref sig .tc .vmem S128x128 .f32) (h5 : a5.IsWhole) (a6 : Memref sig .tc .vmem S64x128 .f32) (h6 : a6.IsWhole)
    (a7 : Memref sig .tc .vmem S64x128 .f32) (h7 : a7.IsWhole) (a8 : Memref sig .tc .vmem S64x128 .f32) (h8 : a8.IsWhole)
    (a9 : Memref sig .tc .vmem S64x128 .f32) (h9 : a9.IsWhole) (hc : cond1_0 i)
    (x0 : Vec Ideal S64x4 .f32) (x1 x2 : Vec Ideal S128x128 .f32) (x3 x4 : Vec Ideal S64x128 .f32) (r : Fin 64) (l : Fin 128) :
    out1_A_6 (F := Ideal) c i a3 h3 a4 h4 a5 h5 a6 h6 a7 h7 a8 h8 a9 h9 hc x0 x1 x2 x3 x4 (ValueIdx.ix2 r l)
      = (0 : EReal) + Cert.MpSpec.tileI x0 x1 x2 x3 x4 r l := by
  have hcov := cover1_A_6 (F := Ideal) c i a3 h3 a4 h4 a5 h5 a6 h6 a7 h7 a8 h8 a9 h9 hc x0 x1 x2 x3 x4
  unfold out1_A_6
  rw [View.read_writes_eq_canon _ _ _ hcov]
  clear hcov
  let G : S64x128.Idx → EReal := fun y => (0 : EReal) + Cert.MpSpec.tileI x0 x1 x2 x3 x4 (y 0) (y 1)
  unfold kernelRun1_A
  dsimp only
  sl_unfold_words
  refine (canon_apply_of_pieces_tail G [_] [_, _, _, _, _, _, _, _] ?_ (ValueIdx.ix2 r l) ?_).trans rfl
  · refine List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, List.forall_mem_cons.2 ⟨?_,
      fun _ h => (List.not_mem_nil h).elim⟩⟩⟩⟩⟩⟩⟩⟩
    · exact piece_rows 56 (by omega) _ G fun r' l' =>
      (chunkI_7 _ _ _ _ _ _ r' l').trans
        (glue_zero _ r' l' (readCov_rows_zero _ _ 56 (by omega) (ZeroBelow.cons 48 _ _ _ (by omega) (ZeroBelow.cons 40 _ _ _ (by omega) (ZeroBelow.cons 32 _ _ _ (by omega) (ZeroBelow.cons 24 _ _ _ (by omega) (ZeroBelow.cons 16 _ _ _ (by omega) (ZeroBelow.cons 8 _ _ _ (by omega) (ZeroBelow.cons 0 _ _ _ (by omega) (ZeroBelow.last _ _ zero_pay3)))))))) r' l') _ _
          (rowsI_of_loads 56 (by omega) x0 x1 x2 x3 x4 _ _ _ _ _ (ld_rows a3 h3 x0 56 (by omega))
            (ld_whole a4 h4 x1) (ld_whole a5 h5 x2) (ld_rows a6 h6 x3 56 (by omega))
            (ld_rows a7 h7 x4 56 (by omega)) r' l'))
    · exact piece_rows 48 (by omega) _ G fun r' l' =>
      (chunkI_6 _ _ _ _ _ _ r' l').trans
        (glue_zero _ r' l' (readCov_rows_zero _ _ 48 (by omega) (ZeroBelow.cons 40 _ _ _ (by omega) (ZeroBelow.cons 32 _ _ _ (by omega) (ZeroBelow.cons 24 _ _ _ (by omega) (ZeroBelow.cons 16 _ _ _ (by omega) (ZeroBelow.cons 8 _ _ _ (by omega) (ZeroBelow.cons 0 _ _ _ (by omega) (ZeroBelow.last _ _ zero_pay3))))))) r' l') _ _
          (rowsI_of_loads 48 (by omega) x0 x1 x2 x3 x4 _ _ _ _ _ (ld_rows a3 h3 x0 48 (by omega))
            (ld_whole a4 h4 x1) (ld_whole a5 h5 x2) (ld_rows a6 h6 x3 48 (by omega))
            (ld_rows a7 h7 x4 48 (by omega)) r' l'))
    · exact piece_rows 40 (by omega) _ G fun r' l' =>
      (chunkI_5 _ _ _ _ _ _ r' l').trans
        (glue_zero _ r' l' (readCov_rows_zero _ _ 40 (by omega) (ZeroBelow.cons 32 _ _ _ (by omega) (ZeroBelow.cons 24 _ _ _ (by omega) (ZeroBelow.cons 16 _ _ _ (by omega) (ZeroBelow.cons 8 _ _ _ (by omega) (ZeroBelow.cons 0 _ _ _ (by omega) (ZeroBelow.last _ _ zero_pay3)))))) r' l') _ _
          (rowsI_of_loads 40 (by omega) x0 x1 x2 x3 x4 _ _ _ _ _ (ld_rows a3 h3 x0 40 (by omega))
            (ld_whole a4 h4 x1) (ld_whole a5 h5 x2) (ld_rows a6 h6 x3 40 (by omega))
            (ld_rows a7 h7 x4 40 (by omega)) r' l'))
    · exact piece_rows 32 (by omega) _ G fun r' l' =>
      (chunkI_4 _ _ _ _ _ _ r' l').trans
        (glue_zero _ r' l' (readCov_rows_zero _ _ 32 (by omega) (ZeroBelow.cons 24 _ _ _ (by omega) (ZeroBelow.cons 16 _ _ _ (by omega) (ZeroBelow.cons 8 _ _ _ (by omega) (ZeroBelow.cons 0 _ _ _ (by omega) (ZeroBelow.last _ _ zero_pay3))))) r' l') _ _
          (rowsI_of_loads 32 (by omega) x0 x1 x2 x3 x4 _ _ _ _ _ (ld_rows a3 h3 x0 32 (by omega))
            (ld_whole a4 h4 x1) (ld_whole a5 h5 x2) (ld_rows a6 h6 x3 32 (by omega))
            (ld_rows a7 h7 x4 32 (by omega)) r' l'))
    · exact piece_rows 24 (by omega) _ G fun r' l' =>
      (chunkI_3 _ _ _ _ _ _ r' l').trans
        (glue_zero _ r' l' (readCov_rows_zero _ _ 24 (by omega) (ZeroBelow.cons 16 _ _ _ (by omega) (ZeroBelow.cons 8 _ _ _ (by omega) (ZeroBelow.cons 0 _ _ _ (by omega) (ZeroBelow.last _ _ zero_pay3)))) r' l') _ _
          (rowsI_of_loads 24 (by omega) x0 x1 x2 x3 x4 _ _ _ _ _ (ld_rows a3 h3 x0 24 (by omega))
            (ld_whole a4 h4 x1) (ld_whole a5 h5 x2) (ld_rows a6 h6 x3 24 (by omega))
            (ld_rows a7 h7 x4 24 (by omega)) r' l'))
    · exact piece_rows 16 (by omega) _ G fun r' l' =>
      (chunkI_2 _ _ _ _ _ _ r' l').trans
        (glue_zero _ r' l' (readCov_rows_zero _ _ 16 (by omega) (ZeroBelow.cons 8 _ _ _ (by omega) (ZeroBelow.cons 0 _ _ _ (by omega) (ZeroBelow.last _ _ zero_pay3))) r' l') _ _
          (rowsI_of_loads 16 (by omega) x0 x1 x2 x3 x4 _ _ _ _ _ (ld_rows a3 h3 x0 16 (by omega))
            (ld_whole a4 h4 x1) (ld_whole a5 h5 x2) (ld_rows a6 h6 x3 16 (by omega))
            (ld_rows a7 h7 x4 16 (by omega)) r' l'))
    · exact piece_rows 8 (by omega) _ G fun r' l' =>
      (chunkI_1 _ _ _ _ _ _ r' l').trans
        (glue_zero _ r' l' (readCov_rows_zero _ _ 8 (by omega) (ZeroBelow.cons 0 _ _ _ (by omega) (ZeroBelow.last _ _ zero_pay3)) r' l') _ _
          (rowsI_of_loads 8 (by omega) x0 x1 x2 x3 x4 _ _ _ _ _ (ld_rows a3 h3 x0 8 (by omega))
            (ld_whole a4 h4 x1) (ld_whole a5 h5 x2) (ld_rows a6 h6 x3 8 (by omega))
            (ld_rows a7 h7 x4 8 (by omega)) r' l'))
    · exact piece_rows 0 (by omega) _ G fun r' l' =>
      (chunkI_0 _ _ _ _ _ _ r' l').trans
        (glue_zero _ r' l' (readCov_rows_zero _ _ 0 (by omega) (ZeroBelow.last _ _ zero_pay3) r' l') _ _
          (rowsI_of_loads 0 (by omega) x0 x1 x2 x3 x4 _ _ _ _ _ (ld_rows a3 h3 x0 0 (by omega))
            (ld_whole a4 h4 x1) (ld_whole a5 h5 x2) (ld_rows a6 h6 x3 0 (by omega))
            (ld_rows a7 h7 x4 0 (by omega)) r' l'))
  · have hr := r.isLt
    rcases (show r.val < 8 ∨ (8 ≤ r.val ∧ r.val < 16) ∨ (16 ≤ r.val ∧ r.val < 24) ∨ (24 ≤ r.val ∧ r.val < 32)
        ∨ (32 ≤ r.val ∧ r.val < 40) ∨ (40 ≤ r.val ∧ r.val < 48) ∨ (48 ≤ r.val ∧ r.val < 56) ∨ 56 ≤ r.val from by omega)
      with h | h | h | h | h | h | h | h
    · exact ⟨_, List.Mem.tail _ (List.Mem.tail _ (List.Mem.tail _ (List.Mem.tail _ (List.Mem.tail _ (List.Mem.tail _ (List.Mem.tail _ (List.Mem.head _))))))), rows_mem 0 (by omega) r l (by omega) (by omega)⟩
    · exact ⟨_, List.Mem.tail _ (List.Mem.tail _ (List.Mem.tail _ (List.Mem.tail _ (List.Mem.tail _ (List.Mem.tail _ (List.Mem.head _)))))), rows_mem 8 (by omega) r l (by omega) (by omega)⟩
    · exact ⟨_, List.Mem.tail _ (List.Mem.tail _ (List.Mem.tail _ (List.Mem.tail _ (List.Mem.tail _ (List.Mem.head _))))), rows_mem 16 (by omega) r l (by omega) (by omega)⟩
    · exact ⟨_, List.Mem.tail _ (List.Mem.tail _ (List.Mem.tail _ (List.Mem.tail _ (List.Mem.head _)))), rows_mem 24 (by omega) r l (by omega) (by omega)⟩
    · exact ⟨_, List.Mem.tail _ (List.Mem.tail _ (List.Mem.tail _ (List.Mem.head _))), rows_mem 32 (by omega) r l (by omega) (by omega)⟩
    · exact ⟨_, List.Mem.tail _ (List.Mem.tail _ (List.Mem.head _)), rows_mem 40 (by omega) r l (by omega) (by omega)⟩
    · exact ⟨_, List.Mem.tail _ (List.Mem.head _), rows_mem 48 (by omega) r l (by omega) (by omega)⟩
    · exact ⟨_, List.Mem.head _, rows_mem 56 (by omega) r l (by omega) (by omega)⟩

end Cert.KernelIdeal.MpBody

end
-- ==== Proof.MpBodyB.lean ====
/-
  The second case of the message-passing body (grid points whose last coordinate is not 0): the two output blocks
  arrive holding the running sums `xo5`, `xo6`, and the body adds the tile's contribution. What the body leaves in
  each output's staging buffer is the list of its eight stores, one per chunk of 8 rows; store k covers rows
  [8k, 8k + 8) with the chunk's result, which at local (r, l) is the old contents at (8k + r, l) plus the sum over
  the tile's 128 source nodes of the edge terms — the loads of the chunk read rows [8k, 8k + 8) of the per-row table,
  of the two signal blocks and of the output block, and the whole weight and strength tiles. So every store is the
  block of one function `G (row, node) = old + tile sum`, and the list reads `G` wherever a store covers: everywhere.
-/
import proofs.«151001_j80075370267059_2_alg».proof.Proof.MpBodyChunkRa
import proofs.«151001_j80075370267059_2_alg».proof.Proof.MpBodyChunkRb
import proofs.«151001_j80075370267059_2_alg».proof.Proof.MpBodyChunkIa
import proofs.«151001_j80075370267059_2_alg».proof.Proof.MpBodyChunkIb
import proofs.«151001_j80075370267059_2_alg».proof.Proof.MpBodyZero
import proofs.«151001_j80075370267059_2_alg».proof.Proof.Gen.KernelIdeal.Frame
import Idealize.ShloMosaic.Lib.Pipeline.Value
import Idealize.ShloMosaic.Lib.Tactic

noncomputable section

namespace Cert.KernelIdeal.MpBody

open Idealize.ShloMosaic Idealize.ShloMosaic.ValueIdx Idealize.ShloMosaic.TcCoe Idealize.SL.Sem Cert.KernelIdeal Cert.KernelIdeal.Gen

/-- The second case of the body (the block's contents carried over): output 5's block ends at its old contents plus
    the tile's real sum. Each of the eight stores covers 8 rows with that chunk's result. -/
theorem out_B5 (c : Dev nD) (i : grid1.Coords)
    (a3 : Memref sig .tc .vmem S64x4 .f32) (h3 : a3.IsWhole) (a4 : Memref sig .tc .vmem S128x128 .f32) (h4 : a4.IsWhole)
    (a5 : Memref sig .tc .vmem S128x128 .f32) (h5 : a5.IsWhole) (a6 : Memref sig .tc .vmem S64x128 .f32) (h6 : a6.IsWhole)
    (a7 : Memref sig .tc .vmem S64x128 .f32) (h7 : a7.IsWhole) (a8 : Memref sig .tc .vmem S64x128 .f32) (h8 : a8.IsWhole)
    (a9 : Memref sig .tc .vmem S64x128 .f32) (h9 : a9.IsWhole) (hc : ¬cond1_0 i)
    (x0 : Vec Ideal S64x4 .f32) (x1 x2 : Vec Ideal S128x128 .f32) (x3 x4 : Vec Ideal S64x128 .f32) (xo5 xo6 : Vec Ideal S64x128 .f32) (r : Fin 64) (l : Fin 128) :
    out1_B_5 (F := Ideal) c i a3 h3 a4 h4 a5 h5 a6 h6 a7 h7 a8 h8 a9 h9 hc x0 x1 x2 x3 x4 xo5 xo6 (ValueIdx.ix2 r l)
      = xo5 (ValueIdx.ix2 r l) + Cert.MpSpec.tileR x0 x1 x2 x3 x4 r l := by
  have hcov := cover1_B_5 (F := Ideal) c i a3 h3 a4 h4 a5 h5 a6 h6 a7 h7 a8 h8 a9 h9 hc x0 x1 x2 x3 x4 xo5 xo6
  unfold out1_B_5
  rw [View.read_writes_eq_canon _ _ _ hcov]
  let G : S64x128.Idx → EReal := fun y => xo5 y + Cert.MpSpec.tileR x0 x1 x2 x3 x4 (y 0) (y 1)
  refine (View.canon_apply_of_pieces G _ ?_ (ValueIdx.ix2 r l) (hcov (ValueIdx.ix2 r l))).trans rfl
  clear hcov
  unfold kernelRun1_B
  dsimp only
  sl_unfold_words
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
    fun _ h => (List.not_mem_nil h).elim⟩⟩⟩⟩⟩⟩⟩⟩
  · exact piece_rows 56 (by omega) _ G fun r' l' =>
      (chunkR_7 _ _ _ _ _ _ r' l').trans
        (glue_old 56 (by omega) xo5 _ (ld_rows a8 h8 xo5 56 (by omega)) _ _
          (rowsR_of_loads 56 (by omega) x0 x1 x2 x3 x4 _ _ _ _ _ (ld_rows a3 h3 x0 56 (by omega))
            (ld_whole a4 h4 x1) (ld_whole a5 h5 x2) (ld_rows a6 h6 x3 56 (by omega))
            (ld_rows a7 h7 x4 56 (by omega)) r' l') r' l')
  · exact piece_rows 48 (by omega) _ G fun r' l' =>
      (chunkR_6 _ _ _ _ _ _ r' l').trans
        (glue_old 48 (by omega) xo5 _ (ld_rows a8 h8 xo5 48 (by omega)) _ _
          (rowsR_of_loads 48 (by omega) x0 x1 x2 x3 x4 _ _ _ _ _ (ld_rows a3 h3 x0 48 (by omega))
            (ld_whole a4 h4 x1) (ld_whole a5 h5 x2) (ld_rows a6 h6 x3 48 (by omega))
            (ld_rows a7 h7 x4 48 (by omega)) r' l') r' l')
  · exact piece_rows 40 (by omega) _ G fun r' l' =>
      (chunkR_5 _ _ _ _ _ _ r' l').trans
        (glue_old 40 (by omega) xo5 _ (ld_rows a8 h8 xo5 40 (by omega)) _ _
          (rowsR_of_loads 40 (by omega) x0 x1 x2 x3 x4 _ _ _ _ _ (ld_rows a3 h3 x0 40 (by omega))
            (ld_whole a4 h4 x1) (ld_whole a5 h5 x2) (ld_rows a6 h6 x3 40 (by omega))
            (ld_rows a7 h7 x4 40 (by omega)) r' l') r' l')
  · exact piece_rows 32 (by omega) _ G fun r' l' =>
      (chunkR_4 _ _ _ _ _ _ r' l').trans
        (glue_old 32 (by omega) xo5 _ (ld_rows a8 h8 xo5 32 (by omega)) _ _
          (rowsR_of_loads 32 (by omega) x0 x1 x2 x3 x4 _ _ _ _ _ (ld_rows a3 h3 x0 32 (by omega))
            (ld_whole a4 h4 x1) (ld_whole a5 h5 x2) (ld_rows a6 h6 x3 32 (by omega))
            (ld_rows a7 h7 x4 32 (by omega)) r' l') r' l')
  · exact piece_rows 24 (by omega) _ G fun r' l' =>
      (chunkR_3 _ _ _ _ _ _ r' l').trans
        (glue_old 24 (by omega) xo5 _ (ld_rows a8 h8 xo5 24 (by omega)) _ _
          (rowsR_of_loads 24 (by omega) x0 x1 x2 x3 x4 _ _ _ _ _ (ld_rows a3 h3 x0 24 (by omega))
            (ld_whole a4 h4 x1) (ld_whole a5 h5 x2) (ld_rows a6 h6 x3 24 (by omega))
            (ld_rows a7 h7 x4 24 (by omega)) r' l') r' l')
  · exact piece_rows 16 (by omega) _ G fun r' l' =>
      (chunkR_2 _ _ _ _ _ _ r' l').trans
        (glue_old 16 (by omega) xo5 _ (ld_rows a8 h8 xo5 16 (by omega)) _ _
          (rowsR_of_loads 16 (by omega) x0 x1 x2 x3 x4 _ _ _ _ _ (ld_rows a3 h3 x0 16 (by omega))
            (ld_whole a4 h4 x1) (ld_whole a5 h5 x2) (ld_rows a6 h6 x3 16 (by omega))
            (ld_rows a7 h7 x4 16 (by omega)) r' l') r' l')
  · exact piece_rows 8 (by omega) _ G fun r' l' =>
      (chunkR_1 _ _ _ _ _ _ r' l').trans
        (glue_old 8 (by omega) xo5 _ (ld_rows a8 h8 xo5 8 (by omega)) _ _
          (rowsR_of_loads 8 (by omega) x0 x1 x2 x3 x4 _ _ _ _ _ (ld_rows a3 h3 x0 8 (by omega))
            (ld_whole a4 h4 x1) (ld_whole a5 h5 x2) (ld_rows a6 h6 x3 8 (by omega))
            (ld_rows a7 h7 x4 8 (by omega)) r' l') r' l')
  · exact piece_rows 0 (by omega) _ G fun r' l' =>
      (chunkR_0 _ _ _ _ _ _ r' l').trans
        (glue_old 0 (by omega) xo5 _ (ld_rows a8 h8 xo5 0 (by omega)) _ _
          (rowsR_of_loads 0 (by omega) x0 x1 x2 x3 x4 _ _ _ _ _ (ld_rows a3 h3 x0 0 (by omega))
            (ld_whole a4 h4 x1) (ld_whole a5 h5 x2) (ld_rows a6 h6 x3 0 (by omega))
            (ld_rows a7 h7 x4 0 (by omega)) r' l') r' l')

/-- The second case of the body (the block's contents carried over): output 6's block ends at its old contents plus
    the tile's imaginary sum. Each of the eight stores covers 8 rows with that chunk's result. -/
theorem out_B6 (c : Dev nD) (i : grid1.Coords)
    (a3 : Memref sig .tc .vmem S64x4 .f32) (h3 : a3.IsWhole) (a4 : Memref sig .tc .vmem S128x128 .f32) (h4 : a4.IsWhole)
    (a5 : Memref sig .tc .vmem S128x128 .f32) (h5 : a5.IsWhole) (a6 : Memref sig .tc .vmem S64x128 .f32) (h6 : a6.IsWhole)
    (a7 : Memref sig .tc .vmem S64x128 .f32) (h7 : a7.IsWhole) (a8 : Memref sig .tc .vmem S64x128 .f32) (h8 : a8.IsWhole)
    (a9 : Memref sig .tc .vmem S64x128 .f32) (h9 : a9.IsWhole) (hc : ¬cond1_0 i)
    (x0 : Vec Ideal S64x4 .f32) (x1 x2 : Vec Ideal S128x128 .f32) (x3 x4 : Vec Ideal S64x128 .f32) (xo5 xo6 : Vec Ideal S64x128 .f32) (r : Fin 64) (l : Fin 128) :
    out1_B_6 (F := Ideal) c i a3 h3 a4 h4 a5 h5 a6 h6 a7 h7 a8 h8 a9 h9 hc x0 x1 x2 x3 x4 xo5 xo6 (ValueIdx.ix2 r l)
      = xo6 (ValueIdx.ix2 r l) + Cert.MpSpec.tileI x0 x1 x2 x3 x4 r l := by
  have hcov := cover1_B_6 (F := Ideal) c i a3 h3 a4 h4 a5 h5 a6 h6 a7 h7 a8 h8 a9 h9 hc x0 x1 x2 x3 x4 xo5 xo6
  unfold out1_B_6
  rw [View.read_writes_eq_canon _ _ _ hcov]
  let G : S64x128.Idx → EReal := fun y => xo6 y + Cert.MpSpec.tileI x0 x1 x2 x3 x4 (y 0) (y 1)
  refine (View.canon_apply_of_pieces G _ ?_ (ValueIdx.ix2 r l) (hcov (ValueIdx.ix2 r l))).trans rfl
  clear hcov
  unfold kernelRun1_B
  dsimp only
  sl_unfold_words
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
    fun _ h => (List.not_mem_nil h).elim⟩⟩⟩⟩⟩⟩⟩⟩
  · exact piece_rows 56 (by omega) _ G fun r' l' =>
      (chunkI_7 _ _ _ _ _ _ r' l').trans
        (glue_old 56 (by omega) xo6 _ (ld_rows a9 h9 xo6 56 (by omega)) _ _
          (rowsI_of_loads 56 (by omega) x0 x1 x2 x3 x4 _ _ _ _ _ (ld_rows a3 h3 x0 56 (by omega))
            (ld_whole a4 h4 x1) (ld_whole a5 h5 x2) (ld_rows a6 h6 x3 56 (by omega))
            (ld_rows a7 h7 x4 56 (by omega)) r' l') r' l')
  · exact piece_rows 48 (by omega) _ G fun r' l' =>
      (chunkI_6 _ _ _ _ _ _ r' l').trans
        (glue_old 48 (by omega) xo6 _ (ld_rows a9 h9 xo6 48 (by omega)) _ _
          (rowsI_of_loads 48 (by omega) x0 x1 x2 x3 x4 _ _ _ _ _ (ld_rows a3 h3 x0 48 (by omega))
            (ld_whole a4 h4 x1) (ld_whole a5 h5 x2) (ld_rows a6 h6 x3 48 (by omega))
            (ld_rows a7 h7 x4 48 (by omega)) r' l') r' l')
  · exact piece_rows 40 (by omega) _ G fun r' l' =>
      (chunkI_5 _ _ _ _ _ _ r' l').trans
        (glue_old 40 (by omega) xo6 _ (ld_rows a9 h9 xo6 40 (by omega)) _ _
          (rowsI_of_loads 40 (by omega) x0 x1 x2 x3 x4 _ _ _ _ _ (ld_rows a3 h3 x0 40 (by omega))
            (ld_whole a4 h4 x1) (ld_whole a5 h5 x2) (ld_rows a6 h6 x3 40 (by omega))
            (ld_rows a7 h7 x4 40 (by omega)) r' l') r' l')
  · exact piece_rows 32 (by omega) _ G fun r' l' =>
      (chunkI_4 _ _ _ _ _ _ r' l').trans
        (glue_old 32 (by omega) xo6 _ (ld_rows a9 h9 xo6 32 (by omega)) _ _
          (rowsI_of_loads 32 (by omega) x0 x1 x2 x3 x4 _ _ _ _ _ (ld_rows a3 h3 x0 32 (by omega))
            (ld_whole a4 h4 x1) (ld_whole a5 h5 x2) (ld_rows a6 h6 x3 32 (by omega))
            (ld_rows a7 h7 x4 32 (by omega)) r' l') r' l')
  · exact piece_rows 24 (by omega) _ G fun r' l' =>
      (chunkI_3 _ _ _ _ _ _ r' l').trans
        (glue_old 24 (by omega) xo6 _ (ld_rows a9 h9 xo6 24 (by omega)) _ _
          (rowsI_of_loads 24 (by omega) x0 x1 x2 x3 x4 _ _ _ _ _ (ld_rows a3 h3 x0 24 (by omega))
            (ld_whole a4 h4 x1) (ld_whole a5 h5 x2) (ld_rows a6 h6 x3 24 (by omega))
            (ld_rows a7 h7 x4 24 (by omega)) r' l') r' l')
  · exact piece_rows 16 (by omega) _ G fun r' l' =>
      (chunkI_2 _ _ _ _ _ _ r' l').trans
        (glue_old 16 (by omega) xo6 _ (ld_rows a9 h9 xo6 16 (by omega)) _ _
          (rowsI_of_loads 16 (by omega) x0 x1 x2 x3 x4 _ _ _ _ _ (ld_rows a3 h3 x0 16 (by omega))
            (ld_whole a4 h4 x1) (ld_whole a5 h5 x2) (ld_rows a6 h6 x3 16 (by omega))
            (ld_rows a7 h7 x4 16 (by omega)) r' l') r' l')
  · exact piece_rows 8 (by omega) _ G fun r' l' =>
      (chunkI_1 _ _ _ _ _ _ r' l').trans
        (glue_old 8 (by omega) xo6 _ (ld_rows a9 h9 xo6 8 (by omega)) _ _
          (rowsI_of_loads 8 (by omega) x0 x1 x2 x3 x4 _ _ _ _ _ (ld_rows a3 h3 x0 8 (by omega))
            (ld_whole a4 h4 x1) (ld_whole a5 h5 x2) (ld_rows a6 h6 x3 8 (by omega))
            (ld_rows a7 h7 x4 8 (by omega)) r' l') r' l')
  · exact piece_rows 0 (by omega) _ G fun r' l' =>
      (chunkI_0 _ _ _ _ _ _ r' l').trans
        (glue_old 0 (by omega) xo6 _ (ld_rows a9 h9 xo6 0 (by omega)) _ _
          (rowsI_of_loads 0 (by omega) x0 x1 x2 x3 x4 _ _ _ _ _ (ld_rows a3 h3 x0 0 (by omega))
            (ld_whole a4 h4 x1) (ld_whole a5 h5 x2) (ld_rows a6 h6 x3 0 (by omega))
            (ld_rows a7 h7 x4 0 (by omega)) r' l') r' l')

end Cert.KernelIdeal.MpBody

end
-- ==== Proof.MpBody.lean ====
/-
  Region 1's body, case by case: what each of the two control cases of the message-passing kernel leaves in the two
  output blocks, at (row, target node) — the old contents (zero in the first case) plus the tile's real resp.
  imaginary sum of the specification. The four statements are `out_A5`, `out_A6` (MpBodyA) and `out_B5`, `out_B6`
  (MpBodyB).
-/
import proofs.«151001_j80075370267059_2_alg».proof.Proof.MpBodyA
import proofs.«151001_j80075370267059_2_alg».proof.Proof.MpBodyB
-- ==== Proof.RefEasy.lean ====
/-
  The reference's per-row and per-edge operands are the host terms of the kernel's program.

  The reference cuts the angle steps, the angles and the radii out of the four-column table with the same operations,
  in the same order, as the kernel's program does around its two kernels; likewise the edge strength (the larger of
  the entry and zero), the two signal channels, and the final pairing of the two result channels along a new last
  axis.  Each equation below is between two spellings of one chain of operations, so unfolding the definitions
  closes it; the side conditions the operations carry are proofs of propositions and do not matter.
-/
import proofs.«151001_j80075370267059_2_alg».proof.Proof.RefRead
import proofs.«151001_j80075370267059_2_alg».proof.Proof.HostTerms

noncomputable section

namespace Cert.ReferenceIdeal.RefValue

open Idealize.ShloMosaic Cert.ReferenceIdeal Cert.ReferenceIdeal.Read Cert.KernelIdeal.HostTerms

variable (x0 : (⟨Cert.ReferenceIdeal.S256x256x2, .f32⟩ : BufTy).Contents (Elt Ideal))
  (x1 : (⟨Cert.ReferenceIdeal.S256x1280, .f32⟩ : BufTy).Contents (Elt Ideal))
  (x2 : (⟨Cert.ReferenceIdeal.S256x2, .f32⟩ : BufTy).Contents (Elt Ideal))
  (x3 : (⟨Cert.ReferenceIdeal.S256x256, .f32⟩ : BufTy).Contents (Elt Ideal))
  (x4 : (⟨Cert.ReferenceIdeal.S1280x1024, .f32⟩ : BufTy).Contents (Elt Ideal))
  (x5 x6 x7 : (⟨Cert.ReferenceIdeal.S1024, .f32⟩ : BufTy).Contents (Elt Ideal))
  (x8 : (⟨Cert.ReferenceIdeal.S1024x4, .f32⟩ : BufTy).Contents (Elt Ideal))
  (x9 : (⟨Cert.ReferenceIdeal.S4, .f32⟩ : BufTy).Contents (Elt Ideal))
  (x10 : (⟨Cert.ReferenceIdeal.S256x256x2, .f32⟩ : BufTy).Contents (Elt Ideal))

/-- The reference's angle steps are `tanh` of the table's first entries times the literal, as in the kernel's program. -/
theorem ref_dphi :
    val_main_v38 (F := Ideal) x1 x4 x5 x6 x7 x8 x9 = dphi (val_main_v32 (F := Ideal) x1 x4 x5 x6 x7 x8 x9) := rfl

/-- The reference's angles are the previous angles plus the steps. -/
theorem ref_phi :
    val_main_v39 (F := Ideal) x1 x2 x4 x5 x6 x7 x8 x9 = phi x2 (val_main_v32 (F := Ideal) x1 x4 x5 x6 x7 x8 x9) := rfl

/-- The reference's radii are `1 / (1 + exp (-x))` of the table's second entries. -/
theorem ref_radii :
    val_main_v47 (F := Ideal) x1 x4 x5 x6 x7 x8 x9 = radii (val_main_v32 (F := Ideal) x1 x4 x5 x6 x7 x8 x9) := rfl

/-- The reference's edge strength is the larger of the entry and zero. -/
theorem ref_strength : val_main_v61 (F := Ideal) x3 = strength x3 := rfl

/-- The reference's first signal channel. -/
theorem ref_chan0 : val_main_v71 (F := Ideal) x0 = chan0 x0 := rfl

/-- The reference's second signal channel. -/
theorem ref_chan1 : val_main_v74 (F := Ideal) x0 = chan1 x0 := rfl

/-- The reference's result is its two result channels paired along a new last axis. -/
theorem ref_pair :
    val_main_v92 (F := Ideal) x0 x1 x2 x3 x4 x5 x6 x7 x8 x9 x10
      = pairUp (val_main_v82 (F := Ideal) x0 x1 x2 x3 x4 x5 x6 x7 x8 x9 x10)
          (val_main_v89 (F := Ideal) x0 x1 x2 x3 x4 x5 x6 x7 x8 x9 x10) := rfl

end Cert.ReferenceIdeal.RefValue

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.MixLaw.lean ====
/-
  The two-way softmax against the logistic function.

  For two real numbers `a`, `b` and any real shift `m` the softmax weights
      e₀ / (e₀ + e₁),  e₁ / (e₀ + e₁)      with  e₀ = exp (a − m),  e₁ = exp (b − m)
  are  1 / (1 + exp (−(a − b)))  and its complement to one: dividing numerator and denominator by `e₀` leaves
  `e₁ / e₀ = exp (b − a)`, and the shift cancels.  The law is proved over the reals and then carried to the extended
  reals, where it holds for real `a`, `b`, `m` (at an infinite argument the two sides differ, which is why finiteness
  is asked).  The last lemma is the form the message-passing stage uses: a two-term dot product with the softmax
  weights is the mix with the logistic weight.
-/
import Idealize.ShloMosaic.PureOps.Ideal
import proofs.«151001_j80075370267059_2_alg».proof.Proof.LibFinite
import proofs.«151001_j80075370267059_2_alg».proof.Proof.MpSpec

noncomputable section

namespace Cert.MixLaw

open Idealize.ShloMosaic Cert.LibFinite

/-! ### Over the reals -/

/-- The weight of the first entry. -/
theorem softmax_fst_real (a b m : ℝ) :
    Real.exp (a - m) / (Real.exp (a - m) + Real.exp (b - m)) = 1 / (1 + Real.exp (-(a - b))) := by
  have ha : Real.exp (a - m) ≠ 0 := (Real.exp_pos _).ne'
  have h1 : Real.exp (b - m) = Real.exp (a - m) * Real.exp (-(a - b)) := by
    rw [← Real.exp_add]; congr 1; ring
  have hpos : (0 : ℝ) < 1 + Real.exp (-(a - b)) := by positivity
  rw [h1, div_eq_div_iff (by rw [← mul_one_add]; exact mul_ne_zero ha hpos.ne') hpos.ne']
  ring

/-- The weight of the second entry is the complement of the first. -/
theorem softmax_snd_real (a b m : ℝ) :
    Real.exp (b - m) / (Real.exp (a - m) + Real.exp (b - m)) = 1 - 1 / (1 + Real.exp (-(a - b))) := by
  rw [← softmax_fst_real a b m]
  have hpos : (0 : ℝ) < Real.exp (a - m) + Real.exp (b - m) := by positivity
  field_simp
  ring

/-! ### Over the extended reals -/

/-- A quotient of reals with a nonzero denominator is the real quotient. -/
theorem div_coe_coe (x y : ℝ) (hy : y ≠ 0) : Ideal.div (x : EReal) (y : EReal) = ((x / y : ℝ) : EReal) := by
  have h0 : (y : EReal) ≠ 0 := by exact_mod_cast hy
  rw [Ideal.div, if_neg h0, ← EReal.coe_inv, ← EReal.coe_mul, div_eq_mul_inv]

/-- The first softmax weight of two reals, shifted by a real, is the logistic weight of their difference. -/
theorem softmax_fst {a b m : EReal} (ha : IsFin a) (hb : IsFin b) (hm : IsFin m) :
    Ideal.div (Ideal.exp (a - m)) (Ideal.exp (a - m) + Ideal.exp (b - m))
      = Ideal.div Cert.MpSpec.one (Cert.MpSpec.one + Ideal.exp (-(a - b))) := by
  obtain ⟨a, rfl⟩ := ha
  obtain ⟨b, rfl⟩ := hb
  obtain ⟨m, rfl⟩ := hm
  have hpos : Real.exp (a - m) + Real.exp (b - m) ≠ 0 := by positivity
  have hpos' : 1 + Real.exp (-(a - b)) ≠ 0 := by positivity
  rw [show Cert.MpSpec.one = ((1 : ℝ) : EReal) from ofBits_one]
  rw [← EReal.coe_sub, ← EReal.coe_sub, ← EReal.coe_sub, ← EReal.coe_neg, Ideal.exp_coe, Ideal.exp_coe, Ideal.exp_coe,
    ← EReal.coe_add, ← EReal.coe_add, div_coe_coe _ _ hpos, div_coe_coe _ _ hpos', softmax_fst_real]

/-- The second softmax weight is the complement of the logistic weight. -/
theorem softmax_snd {a b m : EReal} (ha : IsFin a) (hb : IsFin b) (hm : IsFin m) :
    Ideal.div (Ideal.exp (b - m)) (Ideal.exp (a - m) + Ideal.exp (b - m))
      = Cert.MpSpec.one - Ideal.div Cert.MpSpec.one (Cert.MpSpec.one + Ideal.exp (-(a - b))) := by
  obtain ⟨a, rfl⟩ := ha
  obtain ⟨b, rfl⟩ := hb
  obtain ⟨m, rfl⟩ := hm
  have hpos : Real.exp (a - m) + Real.exp (b - m) ≠ 0 := by positivity
  have hpos' : 1 + Real.exp (-(a - b)) ≠ 0 := by positivity
  rw [show Cert.MpSpec.one = ((1 : ℝ) : EReal) from ofBits_one]
  rw [← EReal.coe_sub, ← EReal.coe_sub, ← EReal.coe_sub, ← EReal.coe_neg, Ideal.exp_coe, Ideal.exp_coe, Ideal.exp_coe,
    ← EReal.coe_add, ← EReal.coe_add, div_coe_coe _ _ hpos, div_coe_coe _ _ hpos', ← EReal.coe_sub, softmax_snd_real]

/-- A two-term dot product with the weights `w` and `1 − w` is the mix: only commutativity of the product. -/
theorem dot_eq_mix (w p0 p1 : EReal) : p0 * w + p1 * (Cert.MpSpec.one - w) = Cert.MpSpec.mix w p0 p1 := by
  unfold Cert.MpSpec.mix
  rw [mul_comm p0 w, mul_comm p1]

end Cert.MixLaw

end
-- ==== Proof.RefEdge.lean ====
/-
  One edge of the graph: the reference's two softmax weights are the kernel program's edge weight and its complement.

  At an edge (i, j) the reference shifts the two path weights `a`, `b` by their maximum `M` (a real number when both are),
  takes `e₀ = exp (a − M)`, `e₁ = exp (b − M)`, and divides each by `0 + (e₀ + e₁)`.  The kernel's program takes
  `w = 1 / (1 + exp (−(a − b)))`.  For real `a`, `b` the first quotient is `w` and the second `1 − w`; this is the
  only place the finiteness of the inputs is used.
-/
import proofs.«151001_j80075370267059_2_alg».proof.Proof.RefEasy
import proofs.«151001_j80075370267059_2_alg».proof.Proof.MixLaw
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.Read
  Cert.KernelIdeal.HostTerms Cert.LibFinite

/-! ### Finiteness of a maximum over a nonempty family of reals -/

/-- An extended real that is neither infinity is a real. -/
theorem isFin_of_ne {x : EReal} (h1 : x ≠ ⊥) (h2 : x ≠ ⊤) : IsFin x :=
  ⟨x.toReal, (EReal.coe_toReal h2 h1).symm⟩

/-- The maximum of a nonempty finite family of reals, started from any value below `+∞`, is a real: it is above
    one of the family, hence not `−∞`, and every entry and the start are below `+∞`. -/
theorem isFin_fold_max {ι : Type} [Fintype ι] (f : ι → EReal) (hf : ∀ k, IsFin (f k)) (k0 : ι) (b : EReal) (hb : b ≠ ⊤) :
    IsFin ((Finset.univ : Finset ι).fold max b f) := by
  refine isFin_of_ne (ne_of_gt ?_) (ne_of_lt ?_)
  · refine (Finset.lt_fold_max _).2 (Or.inr ⟨k0, Finset.mem_univ _, ?_⟩)
    obtain ⟨r, hr⟩ := hf k0
    rw [hr]; exact EReal.bot_lt_coe r
  · refine (Finset.fold_max_lt _).2 ⟨lt_top_iff_ne_top.2 hb, fun k _ => ?_⟩
    obtain ⟨r, hr⟩ := hf k
    rw [hr]; exact EReal.coe_lt_top r

/-- The word of `−∞` is the least element, so a maximum against it is the other operand. -/
theorem max_negInf (y : EReal) : max (Ideal.ofBits .f32 0xFF800000#32) y = y := by
  simp [Ideal.ofBits, Ideal.ieee]

theorem negInf_ne_top : Ideal.ofBits .f32 0xFF800000#32 ≠ (⊤ : EReal) := by
  simp [Ideal.ofBits, Ideal.ieee]

/-! ### The channels of a two-channel array at an edge -/

variable (x : (⟨Cert.ReferenceIdeal.S256x256x2, .f32⟩ : BufTy).Contents (Elt Ideal))

/-- Channel 0 at (i, j) is the entry (i, j, 0). -/
theorem chan0_at (i j : Fin 256) : chan0 x (ix2 i j) = x (ix3 i j (0 : Fin 2)) := by
  rw [← ref_chan0, val_main_v71_apply, val_main_v70_apply]
  exact congrArg x (funext fun a => Fin.ext (by
    match a with
    | ⟨0, _⟩ => show (i.val * 256 + j.val) / 256 = i.val; omega
    | ⟨1, _⟩ => show (i.val * 256 + j.val) / 1 % 256 = j.val; omega
    | ⟨2, _⟩ => rfl))

/-- Channel 1 at (i, j) is the entry (i, j, 1). -/
theorem chan1_at (i j : Fin 256) : chan1 x (ix2 i j) = x (ix3 i j (1 : Fin 2)) := by
  rw [← ref_chan1, val_main_v74_apply, val_main_v73_apply]
  exact congrArg x (funext fun a => Fin.ext (by
    match a with
    | ⟨0, _⟩ => show (i.val * 256 + j.val) / 256 = i.val; omega
    | ⟨1, _⟩ => show (i.val * 256 + j.val) / 1 % 256 = j.val; omega
    | ⟨2, _⟩ => rfl))

/-! ### The kernel program's edge weight at an edge -/

/-- The edge weight at (i, j) is `1 / (1 + exp (−(a − b)))` of the two path weights there. -/
theorem edgeWeight_at (i j : Fin 256) :
    edgeWeight x (ix2 i j)
      = Ideal.div Cert.MpSpec.one
          (Cert.MpSpec.one + Ideal.exp (-(x (ix3 i j (0 : Fin 2)) - x (ix3 i j (1 : Fin 2))))) := by
  have hb : (broadcastInDim Cert.KernelIdeal.S256x256 ![] Cert.KernelIdeal.Facts₀.bcast_S_S256x256
      (constant (F := Ideal) Cert.KernelIdeal.S_ .f32 0x3F800000#32)) (ix2 i j) = Cert.MpSpec.one :=
    broadcastInDim_apply _ _ _ (ix2 i j) (fun a => a.elim0) (fun a => a.elim0)
  unfold edgeWeight
  show Ideal.div _ (_ + Ideal.exp (-(chan0 x (ix2 i j) - chan1 x (ix2 i j)))) = _
  rw [hb, chan0_at, chan1_at]

/-! ### The reference's softmax at an edge -/

/-- The reference's shift at (i, j): the maximum of the two path weights there, a real when they are. -/
theorem shift_isFin (hfin : ∀ i, IsFin (x i)) (i j : Fin 256) : IsFin (val_main_v50 (F := Ideal) x (ix2 i j)) := by
  rw [val_main_v50_apply, val_main_v49_apply, val_main_cst_8_apply]
  show IsFin (max (Ideal.ofBits .f32 0xFF800000#32) _)
  rw [max_negInf]
  unfold val_main_v48
  have h : Cert.ReferenceIdeal.S256x256x2.Reduces [2] Cert.ReferenceIdeal.S256x256 := by decide
  rw [Host.reduce_eq_fold_single (FloatOps.maximumf (F := Ideal) (φ := .f32)) x (val_main_cst_7 (F := Ideal)) _ h _ (ix2 i j)]
  exact isFin_fold_max _ (fun k => hfin _) ⟨0, by decide⟩ _ negInf_ne_top

/-- The reference's exponential at (i, j, k): `exp` of the path weight less the shift. -/
theorem expo_at (i j : Fin 256) (k : Fin 2) :
    val_main_v54 (F := Ideal) x (ix3 i j k) = Ideal.exp (x (ix3 i j k) - val_main_v50 (F := Ideal) x (ix2 i j)) := by
  rw [val_main_v54_apply, val_main_v53_apply, val_main_v52_apply, val_main_v51_apply]
  have e : idx_main_v51 (idx_main_v52 (ix3 i j k)) = ix2 i j :=
    funext fun a => Fin.ext (by match a with | ⟨0, _⟩ => rfl | ⟨1, _⟩ => rfl)
  rw [e]
  rfl

/-- The reference's normaliser at (i, j, k): the sum of the two exponentials. -/
theorem norm_at (i j : Fin 256) (k : Fin 2) :
    val_main_v57 (F := Ideal) x (ix3 i j k)
      = Ideal.exp (x (ix3 i j (0 : Fin 2)) - val_main_v50 (F := Ideal) x (ix2 i j))
        + Ideal.exp (x (ix3 i j (1 : Fin 2)) - val_main_v50 (F := Ideal) x (ix2 i j)) := by
  rw [val_main_v57_apply, val_main_v56_apply, val_main_v55_apply, Fin.sum_univ_two, val_main_cst_9_apply]
  have e : idx_main_v56 (idx_main_v57 (ix3 i j k)) = ix2 i j :=
    funext fun a => Fin.ext (by match a with | ⟨0, _⟩ => rfl | ⟨1, _⟩ => rfl)
  have e0 : idx_main_v55 (ix2 i j) (0 : Fin 2) = ix3 i j (0 : Fin 2) :=
    funext fun a => Fin.ext (by match a with | ⟨0, _⟩ => rfl | ⟨1, _⟩ => rfl | ⟨2, _⟩ => rfl)
  have e1 : idx_main_v55 (ix2 i j) (1 : Fin 2) = ix3 i j (1 : Fin 2) :=
    funext fun a => Fin.ext (by match a with | ⟨0, _⟩ => rfl | ⟨1, _⟩ => rfl | ⟨2, _⟩ => rfl)
  rw [e, e0, e1, expo_at, expo_at]
  show Ideal.ofBits .f32 0x00000000#32 + _ = _
  rw [ofBits_zero, zero_add]

/-- The first softmax weight at an edge is the kernel program's edge weight. -/
theorem softmax_at0 (hfin : ∀ i, IsFin (x i)) (i j : Fin 256) :
    val_main_v58 (F := Ideal) x (ix3 i j (0 : Fin 2)) = edgeWeight x (ix2 i j) := by
  rw [val_main_v58_apply, norm_at, expo_at, edgeWeight_at]
  exact Cert.MixLaw.softmax_fst (hfin _) (hfin _) (shift_isFin x hfin i j)

/-- The second softmax weight at an edge is the complement of the edge weight. -/
theorem softmax_at1 (hfin : ∀ i, IsFin (x i)) (i j : Fin 256) :
    val_main_v58 (F := Ideal) x (ix3 i j (1 : Fin 2)) = Cert.MpSpec.one - edgeWeight x (ix2 i j) := by
  rw [val_main_v58_apply, norm_at, expo_at, edgeWeight_at]
  exact Cert.MixLaw.softmax_snd (hfin _) (hfin _) (shift_isFin x hfin i j)

end Cert.ReferenceIdeal.RefValue

end
-- ==== Proof.RefTerm.lean ====
/-
  One term of the message-passing sums: the reference at (row b, target i, source j) is the specification's term.

  The reference contracts the softmax weights of the edge (i, j) with the row's two angles, and with its two radii:
  two-term dot products, which by the edge lemma are the mixes with the kernel program's edge weight.  The angles
  and radii are columns 0, 1 and 2, 3 of the four-column table the kernel's program builds by joining them; the edge
  strength and the two signal channels are broadcast along the axes they do not depend on.  With these readings the
  reference's product of gain and rotated signal is, factor by factor, the specification's term.
-/
import proofs.«151001_j80075370267059_2_alg».proof.Proof.RefEdge

noncomputable section

namespace Cert.ReferenceIdeal.RefValue

open Idealize.ShloMosaic Idealize.ShloMosaic.ValueIdx Cert.ReferenceIdeal Cert.ReferenceIdeal.Read
  Cert.KernelIdeal.HostTerms Cert.LibFinite

/-! ### The four-column table read at a column -/

section Table
variable (prev : (⟨Cert.ReferenceIdeal.S256x2, .f32⟩ : BufTy).Contents (Elt Ideal))
  (p : (⟨Cert.ReferenceIdeal.S256x4, .f32⟩ : BufTy).Contents (Elt Ideal))

/-- Column 0 of the table is the first angle. -/
theorem rowTable_at0 (b : Fin 256) : rowTable prev p (ix2 b (0 : Fin 4)) = phi prev p (ix2 b (0 : Fin 2)) := by
  unfold rowTable
  exact concatenate_pair_apply_left _ (phi prev p) (radii p) _ (ix2 b (0 : Fin 4)) rfl (ix2 b (0 : Fin 2))
    (fun c => by match c with | ⟨0, _⟩ => rfl | ⟨1, _⟩ => rfl)

/-- Column 1 of the table is the second angle. -/
theorem rowTable_at1 (b : Fin 256) : rowTable prev p (ix2 b (1 : Fin 4)) = phi prev p (ix2 b (1 : Fin 2)) := by
  unfold rowTable
  exact concatenate_pair_apply_left _ (phi prev p) (radii p) _ (ix2 b (1 : Fin 4)) rfl (ix2 b (1 : Fin 2))
    (fun c => by match c with | ⟨0, _⟩ => rfl | ⟨1, _⟩ => rfl)

/-- Column 2 of the table is the first radius. -/
theorem rowTable_at2 (b : Fin 256) : rowTable prev p (ix2 b (2 : Fin 4)) = radii p (ix2 b (0 : Fin 2)) := by
  unfold rowTable
  exact concatenate_pair_apply_right _ (phi prev p) (radii p) _ (ix2 b (2 : Fin 4)) rfl rfl (ix2 b (0 : Fin 2))
    (fun c => by match c with | ⟨0, _⟩ => exact fun _ => rfl | ⟨1, _⟩ => exact fun h => absurd rfl h) rfl

/-- Column 3 of the table is the second radius. -/
theorem rowTable_at3 (b : Fin 256) : rowTable prev p (ix2 b (3 : Fin 4)) = radii p (ix2 b (1 : Fin 2)) := by
  unfold rowTable
  exact concatenate_pair_apply_right _ (phi prev p) (radii p) _ (ix2 b (3 : Fin 4)) rfl rfl (ix2 b (1 : Fin 2))
    (fun c => by match c with | ⟨0, _⟩ => exact fun _ => rfl | ⟨1, _⟩ => exact fun h => absurd rfl h) rfl

end Table

variable (x0 : (⟨Cert.ReferenceIdeal.S256x256x2, .f32⟩ : BufTy).Contents (Elt Ideal))
  (x1 : (⟨Cert.ReferenceIdeal.S256x1280, .f32⟩ : BufTy).Contents (Elt Ideal))
  (x2 : (⟨Cert.ReferenceIdeal.S256x2, .f32⟩ : BufTy).Contents (Elt Ideal))
  (x3 : (⟨Cert.ReferenceIdeal.S256x256, .f32⟩ : BufTy).Contents (Elt Ideal))
  (x4 : (⟨Cert.ReferenceIdeal.S1280x1024, .f32⟩ : BufTy).Contents (Elt Ideal))
  (x5 x6 x7 : (⟨Cert.ReferenceIdeal.S1024, .f32⟩ : BufTy).Contents (Elt Ideal))
  (x8 : (⟨Cert.ReferenceIdeal.S1024x4, .f32⟩ : BufTy).Contents (Elt Ideal))
  (x9 : (⟨Cert.ReferenceIdeal.S4, .f32⟩ : BufTy).Contents (Elt Ideal))
  (x10 : (⟨Cert.ReferenceIdeal.S256x256x2, .f32⟩ : BufTy).Contents (Elt Ideal))

/-! ### The broadcast operands at (b, i, j) -/

/-- The edge strength does not depend on the row. -/
theorem strength_at (b i j : Fin 256) : val_main_v63 (F := Ideal) x3 (ix3 b i j) = strength x3 (ix2 i j) := by
  rw [val_main_v63_apply, val_main_v62_apply, ref_strength]
  exact congrArg (strength x3) (funext fun a => Fin.ext (by match a with | ⟨0, _⟩ => rfl | ⟨1, _⟩ => rfl))

/-- The first channel does not depend on the target node. -/
theorem xr_at (b i j : Fin 256) : val_main_v76 (F := Ideal) x0 (ix3 b i j) = chan0 x0 (ix2 b j) := by
  rw [val_main_v76_apply, val_main_v72_apply, ref_chan0]
  exact congrArg (chan0 x0) (funext fun a => Fin.ext (by match a with | ⟨0, _⟩ => rfl | ⟨1, _⟩ => rfl))

/-- The second channel does not depend on the target node. -/
theorem xi_at (b i j : Fin 256) : val_main_v78 (F := Ideal) x0 (ix3 b i j) = chan1 x0 (ix2 b j) := by
  rw [val_main_v78_apply, val_main_v75_apply, ref_chan1]
  exact congrArg (chan1 x0) (funext fun a => Fin.ext (by match a with | ⟨0, _⟩ => rfl | ⟨1, _⟩ => rfl))

/-- The first channel again, as the imaginary part reads it. -/
theorem xr_at' (b i j : Fin 256) : val_main_v83 (F := Ideal) x0 (ix3 b i j) = chan0 x0 (ix2 b j) := by
  rw [val_main_v83_apply, val_main_v72_apply, ref_chan0]
  exact congrArg (chan0 x0) (funext fun a => Fin.ext (by match a with | ⟨0, _⟩ => rfl | ⟨1, _⟩ => rfl))

/-- The second channel again, as the imaginary part reads it. -/
theorem xi_at' (b i j : Fin 256) : val_main_v85 (F := Ideal) x0 (ix3 b i j) = chan1 x0 (ix2 b j) := by
  rw [val_main_v85_apply, val_main_v75_apply, ref_chan1]
  exact congrArg (chan1 x0) (funext fun a => Fin.ext (by match a with | ⟨0, _⟩ => rfl | ⟨1, _⟩ => rfl))

/-! ### The two contractions at (b, i, j) -/

/-- The mixed angle: the softmax weights against the row's two angles. -/
theorem theta_at (hfin : ∀ i, IsFin (x10 i)) (b i j : Fin 256) :
    val_main_v59 (F := Ideal) x1 x2 x4 x5 x6 x7 x8 x9 x10 (ix3 b i j)
      = Cert.MpSpec.mix (edgeWeight x10 (ix2 i j)) (rowTable x2 (val_main_v32 (F := Ideal) x1 x4 x5 x6 x7 x8 x9) (ix2 b (0 : Fin 4)))
          (rowTable x2 (val_main_v32 (F := Ideal) x1 x4 x5 x6 x7 x8 x9) (ix2 b (1 : Fin 4))) := by
  have l0 : lidx_main_v59 (ix3 b i j) (0 : Fin 2) = ix2 b (0 : Fin 2) :=
    funext fun a => Fin.ext (by match a with | ⟨0, _⟩ => rfl | ⟨1, _⟩ => rfl)
  have l1 : lidx_main_v59 (ix3 b i j) (1 : Fin 2) = ix2 b (1 : Fin 2) :=
    funext fun a => Fin.ext (by match a with | ⟨0, _⟩ => rfl | ⟨1, _⟩ => rfl)
  have r0 : ridx_main_v59 (ix3 b i j) (0 : Fin 2) = ix3 i j (0 : Fin 2) :=
    funext fun a => Fin.ext (by match a with | ⟨0, _⟩ => rfl | ⟨1, _⟩ => rfl | ⟨2, _⟩ => rfl)
  have r1 : ridx_main_v59 (ix3 b i j) (1 : Fin 2) = ix3 i j (1 : Fin 2) :=
    funext fun a => Fin.ext (by match a with | ⟨0, _⟩ => rfl | ⟨1, _⟩ => rfl | ⟨2, _⟩ => rfl)
  rw [val_main_v59_apply, Fin.sum_univ_two, l0, l1, r0, r1, softmax_at0 x10 hfin, softmax_at1 x10 hfin, ref_phi,
    rowTable_at0, rowTable_at1]
  exact Cert.MixLaw.dot_eq_mix _ _ _

/-- The mixed radius: the softmax weights against the row's two radii. -/
theorem rad_at (hfin : ∀ i, IsFin (x10 i)) (b i j : Fin 256) :
    val_main_v60 (F := Ideal) x1 x4 x5 x6 x7 x8 x9 x10 (ix3 b i j)
      = Cert.MpSpec.mix (edgeWeight x10 (ix2 i j)) (rowTable x2 (val_main_v32 (F := Ideal) x1 x4 x5 x6 x7 x8 x9) (ix2 b (2 : Fin 4)))
          (rowTable x2 (val_main_v32 (F := Ideal) x1 x4 x5 x6 x7 x8 x9) (ix2 b (3 : Fin 4))) := by
  have l0 : lidx_main_v60 (ix3 b i j) (0 : Fin 2) = ix2 b (0 : Fin 2) :=
    funext fun a => Fin.ext (by match a with | ⟨0, _⟩ => rfl | ⟨1, _⟩ => rfl)
  have l1 : lidx_main_v60 (ix3 b i j) (1 : Fin 2) = ix2 b (1 : Fin 2) :=
    funext fun a => Fin.ext (by match a with | ⟨0, _⟩ => rfl | ⟨1, _⟩ => rfl)
  have r0 : ridx_main_v60 (ix3 b i j) (0 : Fin 2) = ix3 i j (0 : Fin 2) :=
    funext fun a => Fin.ext (by match a with | ⟨0, _⟩ => rfl | ⟨1, _⟩ => rfl | ⟨2, _⟩ => rfl)
  have r1 : ridx_main_v60 (ix3 b i j) (1 : Fin 2) = ix3 i j (1 : Fin 2) :=
    funext fun a => Fin.ext (by match a with | ⟨0, _⟩ => rfl | ⟨1, _⟩ => rfl | ⟨2, _⟩ => rfl)
  rw [val_main_v60_apply, Fin.sum_univ_two, l0, l1, r0, r1, softmax_at0 x10 hfin, softmax_at1 x10 hfin, ref_radii,
    rowTable_at2, rowTable_at3]
  exact Cert.MixLaw.dot_eq_mix _ _ _

/-! ### The terms -/

/-- The reference's real-part term at (b, i, j). -/
theorem termR_at (hfin : ∀ i, IsFin (x10 i)) (b i j : Fin 256) :
    val_main_v81 (F := Ideal) x0 x1 x2 x3 x4 x5 x6 x7 x8 x9 x10 (ix3 b i j)
      = Cert.MpSpec.termR (edgeWeight x10 (ix2 i j)) (strength x3 (ix2 i j))
          (rowTable x2 (val_main_v32 (F := Ideal) x1 x4 x5 x6 x7 x8 x9) (ix2 b (0 : Fin 4))) (rowTable x2 (val_main_v32 (F := Ideal) x1 x4 x5 x6 x7 x8 x9) (ix2 b (1 : Fin 4)))
          (rowTable x2 (val_main_v32 (F := Ideal) x1 x4 x5 x6 x7 x8 x9) (ix2 b (2 : Fin 4))) (rowTable x2 (val_main_v32 (F := Ideal) x1 x4 x5 x6 x7 x8 x9) (ix2 b (3 : Fin 4)))
          (chan0 x0 (ix2 b j)) (chan1 x0 (ix2 b j)) := by
  rw [val_main_v81_apply, val_main_v67_apply, val_main_v65_apply, val_main_v64_apply, val_main_v66_apply,
    val_main_cst_10_apply, val_main_v80_apply, val_main_v77_apply, val_main_v79_apply, val_main_v68_apply,
    val_main_v69_apply, theta_at x1 x2 x4 x5 x6 x7 x8 x9 x10 hfin, rad_at x1 x2 x4 x5 x6 x7 x8 x9 x10 hfin,
    strength_at, xr_at, xi_at]
  rfl

/-- The reference's imaginary-part term at (b, i, j). -/
theorem termI_at (hfin : ∀ i, IsFin (x10 i)) (b i j : Fin 256) :
    val_main_v88 (F := Ideal) x0 x1 x2 x3 x4 x5 x6 x7 x8 x9 x10 (ix3 b i j)
      = Cert.MpSpec.termI (edgeWeight x10 (ix2 i j)) (strength x3 (ix2 i j))
          (rowTable x2 (val_main_v32 (F := Ideal) x1 x4 x5 x6 x7 x8 x9) (ix2 b (0 : Fin 4))) (rowTable x2 (val_main_v32 (F := Ideal) x1 x4 x5 x6 x7 x8 x9) (ix2 b (1 : Fin 4)))
          (rowTable x2 (val_main_v32 (F := Ideal) x1 x4 x5 x6 x7 x8 x9) (ix2 b (2 : Fin 4))) (rowTable x2 (val_main_v32 (F := Ideal) x1 x4 x5 x6 x7 x8 x9) (ix2 b (3 : Fin 4)))
          (chan0 x0 (ix2 b j)) (chan1 x0 (ix2 b j)) := by
  rw [val_main_v88_apply, val_main_v67_apply, val_main_v65_apply, val_main_v64_apply, val_main_v66_apply,
    val_main_cst_10_apply, val_main_v87_apply, val_main_v84_apply, val_main_v86_apply, val_main_v68_apply,
    val_main_v69_apply, theta_at x1 x2 x4 x5 x6 x7 x8 x9 x10 hfin, rad_at x1 x2 x4 x5 x6 x7 x8 x9 x10 hfin,
    strength_at, xr_at', xi_at']
  rfl

end Cert.ReferenceIdeal.RefValue

end
-- ==== Proof.RefOut.lean ====
/-
  The reference's two result channels are the specification's sums.

  At (row b, target i) the reference adds, from zero, its terms over the 256 source nodes j; each term is the
  specification's term for the edge (i, j) and the row b, with the kernel program's host terms as operands.  The
  sums therefore agree term by term.  The precondition enters only through the terms: the two path weights of every
  edge are real numbers.
-/
import proofs.«151001_j80075370267059_2_alg».proof.Proof.RefTerm

noncomputable section

namespace Cert.ReferenceIdeal.RefValue

open Idealize.ShloMosaic Idealize.ShloMosaic.ValueIdx Cert.ReferenceIdeal Cert.ReferenceIdeal.Read
  Cert.KernelIdeal.HostTerms Cert.LibFinite

variable (x0 : (⟨Cert.ReferenceIdeal.S256x256x2, .f32⟩ : BufTy).Contents (Elt Ideal))
  (x1 : (⟨Cert.ReferenceIdeal.S256x1280, .f32⟩ : BufTy).Contents (Elt Ideal))
  (x2 : (⟨Cert.ReferenceIdeal.S256x2, .f32⟩ : BufTy).Contents (Elt Ideal))
  (x3 : (⟨Cert.ReferenceIdeal.S256x256, .f32⟩ : BufTy).Contents (Elt Ideal))
  (x4 : (⟨Cert.ReferenceIdeal.S1280x1024, .f32⟩ : BufTy).Contents (Elt Ideal))
  (x5 x6 x7 : (⟨Cert.ReferenceIdeal.S1024, .f32⟩ : BufTy).Contents (Elt Ideal))
  (x8 : (⟨Cert.ReferenceIdeal.S1024x4, .f32⟩ : BufTy).Contents (Elt Ideal))
  (x9 : (⟨Cert.ReferenceIdeal.S4, .f32⟩ : BufTy).Contents (Elt Ideal))
  (x10 : (⟨Cert.ReferenceIdeal.S256x256x2, .f32⟩ : BufTy).Contents (Elt Ideal))

/-- The reference's real part is the specification's sum over the source nodes. -/
theorem ref_real (hfin : ∀ i, Cert.LibFinite.IsFin (x10 i)) :
    val_main_v82 (F := Ideal) x0 x1 x2 x3 x4 x5 x6 x7 x8 x9 x10
      = Cert.MpSpec.outR (rowTable x2 (val_main_v32 (F := Ideal) x1 x4 x5 x6 x7 x8 x9)) (edgeWeight x10) (strength x3) (chan0 x0) (chan1 x0) := by
  funext y
  obtain ⟨b, i, rfl⟩ : ∃ (b i : Fin 256), y = ix2 b i := ⟨y 0, y 1, eq_ix2 y⟩
  rw [val_main_v82_apply, val_main_cst_11_apply]
  show Ideal.ofBits .f32 0x00000000#32 + _ = Cert.MpSpec.outRat _ _ _ _ _ b i
  rw [ofBits_zero, zero_add]
  unfold Cert.MpSpec.outRat
  refine Finset.sum_congr rfl fun j _ => ?_
  have e : idx_main_v82 (ix2 b i) j = ix3 b i j :=
    funext fun a => Fin.ext (by match a with | ⟨0, _⟩ => rfl | ⟨1, _⟩ => rfl | ⟨2, _⟩ => rfl)
  rw [e]
  exact termR_at x0 x1 x2 x3 x4 x5 x6 x7 x8 x9 x10 hfin b i j

/-- The reference's imaginary part is the specification's sum over the source nodes. -/
theorem ref_imag (hfin : ∀ i, Cert.LibFinite.IsFin (x10 i)) :
    val_main_v89 (F := Ideal) x0 x1 x2 x3 x4 x5 x6 x7 x8 x9 x10
      = Cert.MpSpec.outI (rowTable x2 (val_main_v32 (F := Ideal) x1 x4 x5 x6 x7 x8 x9)) (edgeWeight x10) (strength x3) (chan0 x0) (chan1 x0) := by
  funext y
  obtain ⟨b, i, rfl⟩ : ∃ (b i : Fin 256), y = ix2 b i := ⟨y 0, y 1, eq_ix2 y⟩
  rw [val_main_v89_apply, val_main_cst_12_apply]
  show Ideal.ofBits .f32 0x00000000#32 + _ = Cert.MpSpec.outIat _ _ _ _ _ b i
  rw [ofBits_zero, zero_add]
  unfold Cert.MpSpec.outIat
  refine Finset.sum_congr rfl fun j _ => ?_
  have e : idx_main_v89 (ix2 b i) j = ix3 b i j :=
    funext fun a => Fin.ext (by match a with | ⟨0, _⟩ => rfl | ⟨1, _⟩ => rfl | ⟨2, _⟩ => rfl)
  rw [e]
  exact termI_at x0 x1 x2 x3 x4 x5 x6 x7 x8 x9 x10 hfin b i j

end Cert.ReferenceIdeal.RefValue

end
-- ==== Proof.Bridge.lean ====
/-
  The kernel program's three results are the reference's three values of the same arguments.
  The first kernel's result array is the reference's parameter table (the two programs compute it by the same
  operations, row block by row block against all rows at once). The operations between the kernels are the
  reference's own, so the angles and the angle steps agree, and the second kernel reads the row table, the edge
  weights, the strengths and the signal channels of the arguments. Its two result arrays are the sums over all
  source nodes of the rotated signal; the reference's sums are the same sums once its two-way softmax weights are
  written as the logistic weight and its complement, which holds because the path weights are real numbers.
-/
import proofs.«151001_j80075370267059_2_alg».proof.Proof.HostGlue
import proofs.«151001_j80075370267059_2_alg».proof.Proof.MlpFinal
import proofs.«151001_j80075370267059_2_alg».proof.Proof.MpArrFinal
import proofs.«151001_j80075370267059_2_alg».proof.Proof.MpBody
import proofs.«151001_j80075370267059_2_alg».proof.Proof.RefEasy
import proofs.«151001_j80075370267059_2_alg».proof.Proof.RefOut
import proofs.«151001_j80075370267059_2_alg».proof.Proof.RefRead

noncomputable section

namespace Cert.Bridge

open Cert.KernelIdeal Cert.KernelIdeal.Gen Cert.KernelIdeal.HostTerms Cert.KernelIdeal.Glue
open Idealize.ShloMosaic Idealize.ShloMosaic.TcCoe Idealize.SL.Sem

variable (m : (ℓ : Loc nD τ sig) → Buf (Elt Ideal) ℓ) (ρ : Dev nD → PrngReg)

/-- The second kernel's body, case by case, as the block lemmas take it. -/
theorem bodyCases : Cert.KernelIdeal.MpArr.BodyCases :=
  ⟨Cert.KernelIdeal.MpBody.out_A5, Cert.KernelIdeal.MpBody.out_A6, Cert.KernelIdeal.MpBody.out_B5, Cert.KernelIdeal.MpBody.out_B6⟩

/-- The first kernel's result array is the reference's parameter table of the arguments. -/
theorem table_eq (c : Dev nD) :
    table m ρ c = Cert.ReferenceIdeal.Read.val_main_v32 (F := Ideal) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) :=
  Cert.KernelIdeal.MlpValue.final7 (V0 m ρ) c

/-- The angles. -/
theorem v7_eq (c : Dev nD) :
    W6 m ρ c (Proc.devRef .tc main_v7) = Cert.ReferenceIdeal.Read.val_main_v39 (F := Ideal) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  rw [W6_v7, table_eq, Cert.ReferenceIdeal.RefValue.ref_phi]

/-- The angle steps. -/
theorem v6_eq (c : Dev nD) :
    W6 m ρ c (Proc.devRef .tc main_v6) = Cert.ReferenceIdeal.Read.val_main_v38 (F := Ideal) (m ((c : Thread nD τ).loc main_arg1))
      (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  rw [W6_v6, table_eq, Cert.ReferenceIdeal.RefValue.ref_dphi]

/-- The rotated signal, both channels paired. -/
theorem v36_eq (c : Dev nD) (hfin : ∀ i, Cert.LibFinite.IsFin (m ((c : Thread nD τ).loc main_arg10) i)) :
    W6 m ρ c (Proc.devRef .tc main_v36) = Cert.ReferenceIdeal.Read.val_main_v92 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  rw [W6_v36, Cert.KernelIdeal.MpArr.final5 bodyCases (V4 m ρ) c, Cert.KernelIdeal.MpArr.final6 bodyCases (V4 m ρ) c,
    V4_v16, V4_v27, V4_v28, V4_v30, V4_v32, table_eq, Cert.ReferenceIdeal.RefValue.ref_pair,
    Cert.ReferenceIdeal.RefValue.ref_real _ _ _ _ _ _ _ _ _ _ _ hfin, Cert.ReferenceIdeal.RefValue.ref_imag _ _ _ _ _ _ _ _ _ _ _ hfin]

end Cert.Bridge

end
-- ==== Proof.PreFinite.lean ====
/-
  The precondition, decoded for the path weights: every entry is a real number.
  The precondition is a conjunction, one conjunct per argument, each saying that every entry of the argument has
  absolute value below +∞; the path weights' conjunct is the last. An extended real whose absolute value
  `max x (-x)` is below +∞ is neither infinity.
-/
import proofs.«151001_j80075370267059_2_alg».proof.Defs
import proofs.«151001_j80075370267059_2_alg».proof.Proof.Gen.Pre_finite_inputs
import proofs.«151001_j80075370267059_2_alg».proof.Proof.LibFinite
import Idealize.ShloMosaic.Lib.ReduceAll
import Idealize.ShloMosaic.PureOps.Ideal.Laws

noncomputable section

namespace Cert.PreFinite

open Idealize.ShloMosaic Idealize.ShloMosaic.TcCoe Idealize.SL.Sem Cert.LibFinite

/-- The rank-0 shape has one index. -/
instance : Subsingleton Cert.Pre_finite_inputs.S_.Idx := ⟨fun a b => funext fun d => d.elim0⟩

/-- The conjunction of two bits is 1 exactly when both are. -/
theorem and1 : ∀ (a b : BitVec 1), IntOp.andi a b = 1#1 ↔ a = 1#1 ∧ b = 1#1 := by decide

/-- The pattern of +∞. -/
theorem ofBits_inf : Ideal.ofBits .f32 0x7F800000#32 = (⊤ : EReal) := by
  simp [Ideal.ofBits, Ideal.ieee]

/-- An extended real whose absolute value is below +∞ is a real number. -/
theorem isFin_of_abs_lt (x : EReal) (h : Ideal.cmp .olt (max x (-x)) (Ideal.ofBits .f32 0x7F800000#32) = 1#1) : IsFin x := by
  rw [ofBits_inf] at h
  induction x using EReal.rec with
  | bot => exact absurd h (by simp [Ideal.cmp])
  | coe r => exact isFin_coe r
  | top => exact absurd h (by simp [Ideal.cmp])

/-- The precondition's function, all ones: every entry of its last argument is a real number. -/
theorem arg10_finite (a0 : FVec Ideal Cert.Pre_finite_inputs.S256x256x2 .f32) (a1 : FVec Ideal Cert.Pre_finite_inputs.S256x1280 .f32)
    (a2 : FVec Ideal Cert.Pre_finite_inputs.S256x2 .f32) (a3 : FVec Ideal Cert.Pre_finite_inputs.S256x256 .f32)
    (a4 : FVec Ideal Cert.Pre_finite_inputs.S1280x1024 .f32) (a5 a6 a7 : FVec Ideal Cert.Pre_finite_inputs.S1024 .f32)
    (a8 : FVec Ideal Cert.Pre_finite_inputs.S1024x4 .f32) (a9 : FVec Ideal Cert.Pre_finite_inputs.S4 .f32)
    (a10 : FVec Ideal Cert.Pre_finite_inputs.S256x256x2 .f32)
    (h : Cert.Pre_finite_inputs.fn (F := Ideal) a0 a1 a2 a3 a4 a5 a6 a7 a8 a9 a10 = fun _ => 1#1)
    (i : Cert.Pre_finite_inputs.S256x256x2.Idx) : IsFin (a10 i) := by
  have e := congrFun h (fun d => d.elim0)
  dsimp only [Cert.Pre_finite_inputs.fn, Cert.Pre_finite_inputs.fn_part1, Cert.Pre_finite_inputs.fn_part2,
    Cert.Pre_finite_inputs.fn_part3] at e
  have e2 := ((and1 _ _).mp e).2
  have e3 := Host.reduce_andi_all _ _ _ _ _ e2 i
  exact isFin_of_abs_lt (a10 i) e3

/-- Under the precondition every path weight of the kernel program's launch memory is a real number. -/
theorem pw_finite [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, IsFin (m ((c.tc : Thread Cert.KernelIdeal.nD Cert.KernelIdeal.τ).loc Cert.KernelIdeal.main_arg10) i) :=
  fun i => arg10_finite _ _ _ _ _ _ _ _ _ _ _ (hpre c) i

end Cert.PreFinite

end
-- ==== Proof.lean ====
/-
  The certificate of the rotation-gain message-passing step: a two-kernel program against its plain array reference,
  over the extended reals.

  The program computes a per-row parameter table with a first kernel (a linear layer, a layer normalisation, a
  rectifier and a second linear layer, on blocks of 128 rows), derives per-row angles and radii from it by plain array
  operations, and lets a second kernel add up, over the source nodes, the rotated and scaled signal of every
  (row, target node), accumulating over tiles of 128 source nodes. The reference does the same in whole-array
  operations, with the two mixing weights of an edge taken as a two-way softmax of its two path weights where the
  program takes the logistic function of their difference and its complement; for real path weights these are the same
  numbers, and the precondition (all inputs finite) says they are real.

  The three frames are the generated ones (the reference's is its run with the results dropped); the idealisation
  rewrote nothing; and both programs' three results are the reference's values of the arguments (Proof/Bridge.lean).
-/
import proofs.«151001_j80075370267059_2_alg».proof.Defs
import proofs.«151001_j80075370267059_2_alg».proof.Proof.Gen.Kernel
import proofs.«151001_j80075370267059_2_alg».proof.Proof.Gen.Kernel.Frame
import proofs.«151001_j80075370267059_2_alg».proof.Proof.Gen.KernelIdeal
import proofs.«151001_j80075370267059_2_alg».proof.Proof.Gen.KernelIdeal.Frame
import proofs.«151001_j80075370267059_2_alg».proof.Proof.Gen.ReferenceIdeal
import proofs.«151001_j80075370267059_2_alg».proof.Proof.Gen.Pre_finite_inputs
import proofs.«151001_j80075370267059_2_alg».proof.Proof.KernelRun
import proofs.«151001_j80075370267059_2_alg».proof.Proof.Bridge
import proofs.«151001_j80075370267059_2_alg».proof.Proof.PreFinite
import proofs.«151001_j80075370267059_2_alg».proof.Proof.RefRun
import proofs.«151001_j80075370267059_2_alg».proof.Proof.RefRead
import proofs.«151001_j80075370267059_2_alg».proof.Proof.RefReadEq
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- So does the reference: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealisation rewrote no operation. -/
theorem preserves : Cert.preserves_Kernel_KernelIdeal := trivial

/-- From memories that agree on the arguments, under the precondition, the two idealised programs end with the same
    three results: each of the kernel program's results is the reference's value of the arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v36),
    fun c => Cert.KernelIdeal.Gen.W6 m ρ c (Proc.devRef .tc Cert.KernelIdeal.main_v7),
    fun c => Cert.KernelIdeal.Gen.W6 m ρ c (Proc.devRef .tc Cert.KernelIdeal.main_v6),
    Cert.KernelIdeal.RunValue.run (F := Ideal) m ρ, ?_⟩
  refine (θ_run Cert.ReferenceIdeal.defs _ _).mono (fun _ h c => ?_) (Cert.ReferenceIdeal.Value.run (F := Ideal) m' ρ')
  obtain ⟨h92, h39, h38, hargs⟩ := h c
  obtain ⟨e0, e1, e2, e3, e4, e5, e6, e7, e8, e9, e10⟩ := hagree c
  refine ⟨h92.trans ?_, h39.trans ?_, h38.trans ?_, hargs⟩
  · rw [Cert.ReferenceIdeal.Read.val_main_v92_eq, e0, e1, e2, e3, e4, e5, e6, e7, e8, e9, e10]
    exact (Cert.Bridge.v36_eq m ρ c (Cert.PreFinite.pw_finite m hpre c)).symm
  · rw [Cert.ReferenceIdeal.Read.val_main_v39_eq, e1, e2, e4, e5, e6, e7, e8, e9]
    exact (Cert.Bridge.v7_eq m ρ c).symm
  · rw [Cert.ReferenceIdeal.Read.val_main_v38_eq, e1, e4, e5, e6, e7, e8, e9]
    exact (Cert.Bridge.v6_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
